-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v127)) (v1 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_v128) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S50000x64 : Shape := ⟨2, ![50000, 64]⟩
abbrev S2x64x64 : Shape := ⟨3, ![2, 64, 64]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_

variable [Facts]

def fn_part3 {F : FTy → Type} [FloatOps F] (main_arg13 : FVec F S2x64x64 .f32) (main_v48 : IVec S_ 1) (main_v49 : FVec F S2x64x64 .f32) (main_v50 : FVec F S2x64x64 .f32) : IVec S_ 1 :=
  let main_v51 : IVec S2x64x64 1 := cmpf .olt main_v49 main_v50
  let main_c_19 : IVec S_ 1 := constantI S_ 1 1#1
  let main_v52 : IVec S_ 1 := (fun x v => Host.reduce IntOp.andi x v reducesTo_S2x64x64_S_d0_1_2 h_S_) main_v51 main_c_19
  let main_v53 : IVec S_ 1 := andi main_v48 main_v52
  let main_v54 : FVec F S2x64x64 .f32 := Host.absf main_arg13
  let main_cst_20 : FVec F S_ .f32 := constant S_ .f32 0x7F800000#32
  let main_v55 : FVec F S2x64x64 .f32 := broadcastInDim S2x64x64 ![] bcast_S_S2x64x64 main_cst_20
  let main_v56 : IVec S2x64x64 1 := cmpf .olt main_v54 main_v55
  let main_c_21 : IVec S_ 1 := constantI S_ 1 1#1
  let main_v57 : IVec S_ 1 := (fun x v => Host.reduce IntOp.andi x v reducesTo_S2x64x64_S_d0_1_2 h_S_) main_v56 main_c_21
  let main_v58 : IVec S_ 1 := andi main_v53 main_v57
  main_v58

def fn_part2 {F : FTy → Type} [FloatOps F] (main_arg9 : FVec F S50000x64 .f32) (main_arg10 : FVec F S50000x64 .f32) (main_arg11 : FVec F S2x64x64 .f32) (main_arg12 : FVec F S2x64x64 .f32) (main_arg13 : FVec F S2x64x64 .f32) (main_v33 : IVec S_ 1) : IVec S_ 1 :=
  let main_v34 : FVec F S50000x64 .f32 := Host.absf main_arg9
  let main_cst_12 : FVec F S_ .f32 := constant S_ .f32 0x7F800000#32
  let main_v35 : FVec F S50000x64 .f32 := broadcastInDim S50000x64 ![] bcast_S_S50000x64 main_cst_12
  let main_v36 : IVec S50000x64 1 := cmpf .olt main_v34 main_v35
  let main_c_13 : IVec S_ 1 := constantI S_ 1 1#1
  let main_v37 : IVec S_ 1 := (fun x v => Host.reduce IntOp.andi x v reducesTo_S50000x64_S_d0_1 h_S_) main_v36 main_c_13
  let main_v38 : IVec S_ 1 := andi main_v33 main_v37
  let main_v39 : FVec F S50000x64 .f32 := Host.absf main_arg10
  let main_cst_14 : FVec F S_ .f32 := constant S_ .f32 0x7F800000#32
  let main_v40 : FVec F S50000x64 .f32 := broadcastInDim S50000x64 ![] bcast_S_S50000x64 main_cst_14
  let main_v41 : IVec S50000x64 1 := cmpf .olt main_v39 main_v40
  let main_c_15 : IVec S_ 1 := constantI S_ 1 1#1
  let main_v42 : IVec S_ 1 := (fun x v => Host.reduce IntOp.andi x v reducesTo_S50000x64_S_d0_1 h_S_) main_v41 main_c_15
  let main_v43 : IVec S_ 1 := andi main_v38 main_v42
  let main_v44 : FVec F S2x64x64 .f32 := Host.absf main_arg11
  let main_cst_16 : FVec F S_ .f32 := constant S_ .f32 0x7F800000#32
  let main_v45 : FVec F S2x64x64 .f32 := broadcastInDim S2x64x64 ![] bcast_S_S2x64x64 main_cst_16
  let main_v46 : IVec S2x64x64 1 := cmpf .olt main_v44 main_v45
  let main_c_17 : IVec S_ 1 := constantI S_ 1 1#1
  let main_v47 : IVec S_ 1 := (fun x v => Host.reduce IntOp.andi x v reducesTo_S2x64x64_S_d0_1_2 h_S_) main_v46 main_c_17
  let main_v48 : IVec S_ 1 := andi main_v43 main_v47
  let main_v49 : FVec F S2x64x64 .f32 := Host.absf main_arg12
  let main_cst_18 : FVec F S_ .f32 := constant S_ .f32 0x7F800000#32
  let main_v50 : FVec F S2x64x64 .f32 := broadcastInDim S2x64x64 ![] bcast_S_S2x64x64 main_cst_18
  fn_part3 (F := F) main_arg13 main_v48 main_v49 main_v50

def fn_part1 {F : FTy → Type} [FloatOps F] (main_arg6 : FVec F S50000x64 .f32) (main_arg7 : FVec F S50000x64 .f32) (main_arg8 : FVec F S50000x64 .f32) (main_arg9 : FVec F S50000x64 .f32) (main_arg10 : FVec F S50000x64 .f32) (main_arg11 : FVec F S2x64x64 .f32) (main_arg12 : FVec F S2x64x64 .f32) (main_arg13 : FVec F S2x64x64 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S50000x64 .f32 := Host.absf main_arg6
  let main_cst_6 : FVec F S_ .f32 := constant S_ .f32 0x7F800000#32
  let main_v20 : FVec F S50000x64 .f32 := broadcastInDim S50000x64 ![] bcast_S_S50000x64 main_cst_6
  let main_v21 : IVec S50000x64 1 := cmpf .olt main_v19 main_v20
  let main_c_7 : IVec S_ 1 := constantI S_ 1 1#1
  let main_v22 : IVec S_ 1 := (fun x v => Host.reduce IntOp.andi x v reducesTo_S50000x64_S_d0_1 h_S_) main_v21 main_c_7
  let main_v23 : IVec S_ 1 := andi main_v18 main_v22
  let main_v24 : FVec F S50000x64 .f32 := Host.absf main_arg7
  let main_cst_8 : FVec F S_ .f32 := constant S_ .f32 0x7F800000#32
  let main_v25 : FVec F S50000x64 .f32 := broadcastInDim S50000x64 ![] bcast_S_S50000x64 main_cst_8
  let main_v26 : IVec S50000x64 1 := cmpf .olt main_v24 main_v25
  let main_c_9 : IVec S_ 1 := constantI S_ 1 1#1
  let main_v27 : IVec S_ 1 := (fun x v => Host.reduce IntOp.andi x v reducesTo_S50000x64_S_d0_1 h_S_) main_v26 main_c_9
  let main_v28 : IVec S_ 1 := andi main_v23 main_v27
  let main_v29 : FVec F S50000x64 .f32 := Host.absf main_arg8
  let main_cst_10 : FVec F S_ .f32 := constant S_ .f32 0x7F800000#32
  let main_v30 : FVec F S50000x64 .f32 := broadcastInDim S50000x64 ![] bcast_S_S50000x64 main_cst_10
  let main_v31 : IVec S50000x64 1 := cmpf .olt main_v29 main_v30
  let main_c_11 : IVec S_ 1 := constantI S_ 1 1#1
  let main_v32 : IVec S_ 1 := (fun x v => Host.reduce IntOp.andi x v reducesTo_S50000x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S1600000 32) (main_arg1 : IVec S1600000 32) (main_arg2 : FVec F S1600000 .f32) (main_arg3 : FVec F S50000x64 .f32) (main_arg4 : FVec F S50000x64 .f32) (main_arg5 : FVec F S50000x64 .f32) (main_arg6 : FVec F S50000x64 .f32) (main_arg7 : FVec F S50000x64 .f32) (main_arg8 : FVec F S50000x64 .f32) (main_arg9 : FVec F S50000x64 .f32) (main_arg10 : FVec F S50000x64 .f32) (main_arg11 : FVec F S2x64x64 .f32) (main_arg12 : FVec F S2x64x64 .f32) (main_arg13 : FVec F S2x64x64 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S50000x64 .f32 := Host.absf main_arg3
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg4
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S50000x64 .f32 := Host.absf main_arg5
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg6 main_arg7 main_arg8 main_arg9 main_arg10 main_arg11 main_arg12 main_arg13 main_v13 main_v16
-- ==== Kernel.lean ====
abbrev S1600000 : Shape := ⟨1, ![1600000]⟩
abbrev S50000x64 : Shape := ⟨2, ![50000, 64]⟩
abbrev S2x64x64 : Shape := ⟨3, ![2, 64, 64]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x100000x64 : Shape := ⟨3, ![1, 100000, 64]⟩
abbrev S3x100000x64 : Shape := ⟨3, ![3, 100000, 64]⟩
abbrev S1x64x64 : Shape := ⟨3, ![1, 64, 64]⟩
abbrev S64x64 : Shape := ⟨2, ![64, 64]⟩
abbrev S3x64x64 : Shape := ⟨3, ![3, 64, 64]⟩
abbrev S1x10000x64 : Shape := ⟨3, ![1, 10000, 64]⟩
abbrev S10000x64 : Shape := ⟨2, ![10000, 64]⟩

abbrev nBuf : Space → Nat
  | .hbm => 161
  | .vmem => 12
  | .smem => 0
  | _ => 0

abbrev hbmTy0_0 (i : Nat) : BufTy := match i % 128 with
  | 0 => ⟨S1600000, .i32⟩
  | 1 => ⟨S1600000, .i32⟩
  | 2 => ⟨S1600000, .f32⟩
  | 3 => ⟨S50000x64, .f32⟩
  | 4 => ⟨S50000x64, .f32⟩
  | 5 => ⟨S50000x64, .f32⟩
  | 6 => ⟨S50000x64, .f32⟩
  | 7 => ⟨S50000x64, .f32⟩
  | 8 => ⟨S50000x64, .f32⟩
  | 9 => ⟨S50000x64, .f32⟩
  | 10 => ⟨S50000x64, .f32⟩
  | 11 => ⟨S2x64x64, .f32⟩
  | 12 => ⟨S2x64x64, .f32⟩
  | 13 => ⟨S2x64x64, .f32⟩
  | 14 => ⟨S100000x64, .f32⟩
  | 15 => ⟨S100000x64, .f32⟩
  | 16 => ⟨S100000x64, .f32⟩
  | 17 => ⟨S100000x64, .f32⟩
  | 18 => ⟨S1600000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x64, .f32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S1600000x1, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S1600000x64, .f32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S1600000x1, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S1600000x64, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S1x100000x64, .f32⟩
  | 67 => ⟨S1x100000x64, .f32⟩
  | 68 => ⟨S1x100000x64, .f32⟩
  | 69 => ⟨S3x100000x64, .f32⟩
  | 70 => ⟨S1x64x64, .f32⟩
  | 71 => ⟨S64x64, .f32⟩
  | 72 => ⟨S1x64x64, .f32⟩
  | 73 => ⟨S64x64, .f32⟩
  | 74 => ⟨S1x64x64, .f32⟩
  | 75 => ⟨S64x64, .f32⟩
  | 76 => ⟨S1x64x64, .f32⟩
  | 77 => ⟨S1x64x64, .f32⟩
  | 78 => ⟨S1x64x64, .f32⟩
  | 79 => ⟨S3x64x64, .f32⟩
  | 80 => ⟨S3x100000x64, .f32⟩
  | 81 => ⟨S1x100000x64, .f32⟩
  | 82 => ⟨S100000x64, .f32⟩
  | 83 => ⟨S1x100000x64, .f32⟩
  | 84 => ⟨S100000x64, .f32⟩
  | 85 => ⟨S1x100000x64, .f32⟩
  | 86 => ⟨S100000x64, .f32⟩
  | 87 => ⟨S1600000x1, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x64, .f32⟩
  | 97 => ⟨S1600000x64, .f32⟩
  | 98 => ⟨S1600000x64, .f32⟩
  | 99 => ⟨S_, .f32⟩
  | 100 => ⟨S100000x64, .f32⟩
  | 101 => ⟨S1600000x1, .i32⟩
  | 102 => ⟨S100000x64, .f32⟩
  | 103 => ⟨S1600000x1, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x64, .f32⟩
  | 113 => ⟨S1600000x64, .f32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S1600000x1, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S1600000, .i32⟩

abbrev hbmTy0_1 (i : Nat) : BufTy := match i % 128 with
  | 0 => ⟨S1600000x64, .f32⟩
  | 1 => ⟨S1600000x64, .f32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S1x100000x64, .f32⟩
  | 8 => ⟨S1x100000x64, .f32⟩
  | 9 => ⟨S1x100000x64, .f32⟩
  | 10 => ⟨S3x100000x64, .f32⟩
  | 11 => ⟨S1x64x64, .f32⟩
  | 12 => ⟨S64x64, .f32⟩
  | 13 => ⟨S1x64x64, .f32⟩
  | 14 => ⟨S64x64, .f32⟩
  | 15 => ⟨S1x64x64, .f32⟩
  | 16 => ⟨S64x64, .f32⟩
  | 17 => ⟨S1x64x64, .f32⟩
  | 18 => ⟨S1x64x64, .f32⟩
  | 19 => ⟨S1x64x64, .f32⟩
  | 20 => ⟨S3x64x64, .f32⟩
  | 21 => ⟨S3x100000x64, .f32⟩
  | 22 => ⟨S1x100000x64, .f32⟩
  | 23 => ⟨S100000x64, .f32⟩
  | 24 => ⟨S1x100000x64, .f32⟩
  | 25 => ⟨S100000x64, .f32⟩
  | 26 => ⟨S1x100000x64, .f32⟩
  | 27 => ⟨S100000x64, .f32⟩
  | 28 => ⟨S100000x64, .f32⟩
  | 29 => ⟨S100000x64, .f32⟩
  | 30 => ⟨S100000x64, .f32⟩
  | 31 => ⟨S50000x64, .f32⟩
  | 32 => ⟨S50000x64, .f32⟩
  | _ => ⟨S1600000, .i32⟩

abbrev hbmTy (i : Nat) : BufTy := match i / 128 with
  | 0 => hbmTy0_0 i
  | 1 => hbmTy0_1 i
  | _ => ⟨S1600000, .i32⟩

abbrev bufTy : (tb : Table) → Fin (tcTables nBuf tb) → BufTy
  | .hbm, ⟨i, _⟩ => hbmTy i
  | .local _ .vmem, ⟨0, _⟩ => ⟨S1x10000x64, .f32⟩
  | .local _ .vmem, ⟨1, _⟩ => ⟨S1x10000x64, .f32⟩
  | .local _ .vmem, ⟨2, _⟩ => ⟨S1x64x64, .f32⟩
  | .local _ .vmem, ⟨3, _⟩ => ⟨S1x64x64, .f32⟩
  | .local _ .vmem, ⟨4, _⟩ => ⟨S1x10000x64, .f32⟩
  | .local _ .vmem, ⟨5, _⟩ => ⟨S1x10000x64, .f32⟩
  | .local _ .vmem, ⟨6, _⟩ => ⟨S1x10000x64, .f32⟩
  | .local _ .vmem, ⟨7, _⟩ => ⟨S1x10000x64, .f32⟩
  | .local _ .vmem, ⟨8, _⟩ => ⟨S1x64x64, .f32⟩
  | .local _ .vmem, ⟨9, _⟩ => ⟨S1x64x64, .f32⟩
  | .local _ .vmem, ⟨10, _⟩ => ⟨S1x10000x64, .f32⟩
  | .local _ .vmem, ⟨11, _⟩ => ⟨S1x10000x64, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_7 : Ref sig .tc := ⟨.hbm, 88, rfl⟩
abbrev main_v65 : Ref sig .tc := ⟨.hbm, 89, rfl⟩
abbrev main_v66 : Ref sig .tc := ⟨.hbm, 90, rfl⟩
abbrev main_c_8 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_9 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_10 : Ref sig .tc := ⟨.hbm, 104, rfl⟩
abbrev main_v78 : Ref sig .tc := ⟨.hbm, 105, rfl⟩
abbrev main_v79 : Ref sig .tc := ⟨.hbm, 106, rfl⟩
abbrev main_c_11 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_12 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_13 : Ref sig .tc := ⟨.hbm, 120, rfl⟩
abbrev main_v91 : Ref sig .tc := ⟨.hbm, 121, rfl⟩
abbrev main_v92 : Ref sig .tc := ⟨.hbm, 122, rfl⟩
abbrev main_c_14 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_15 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![3, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![3, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  concatenates_S50000x64_S50000x64_S100000x64_d0 : Shape.Concatenates [S50000x64, S50000x64] S100000x64 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x64_S1x100000x64_1_2 : S100000x64.BroadcastsInDim S1x100000x64 (![1, 2] : Fin 2 → Fin S1x100000x64.rank)
  concatenates_S1x100000x64_S1x100000x64_S1x100000x64_S3x100000x64_d0 : Shape.Concatenates [S1x100000x64, S1x100000x64, S1x100000x64] S3x100000x64 0
  slices_S2x64x64_S1x64x64_0_0_0 : S2x64x64.Slices ![0, 0, 0] S1x64x64
  shapeCasts_S1x64x64_S64x64 : S1x64x64.ShapeCasts S64x64
  bcast_S64x64_S1x64x64_1_2 : S64x64.BroadcastsInDim S1x64x64 (![1, 2] : Fin 2 → Fin S1x64x64.rank)
  concatenates_S1x64x64_S1x64x64_S1x64x64_S3x64x64_d0 : Shape.Concatenates [S1x64x64, S1x64x64, S1x64x64] S3x64x64 0
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S10000x64_S1x10000x64 : S10000x64.ShapeCasts S1x10000x64
  slices_S3x100000x64_S1x100000x64_0_0_0 : S3x100000x64.Slices ![0, 0, 0] S1x100000x64
  shapeCasts_S1x100000x64_S100000x64 : S1x100000x64.ShapeCasts S100000x64
  slices_S3x100000x64_S1x100000x64_1_0_0 : S3x100000x64.Slices ![1, 0, 0] S1x100000x64
  slices_S3x100000x64_S1x100000x64_2_0_0 : S3x100000x64.Slices ![2, 0, 0] S1x100000x64
  slices_S2x64x64_S1x64x64_1_0_0 : S2x64x64.Slices ![1, 0, 0] S1x64x64
  slices_S100000x64_S50000x64_0_0 : S100000x64.Slices ![0, 0] S50000x64
  slices_S100000x64_S50000x64_50000_0 : S100000x64.Slices ![50000, 0] S50000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_1_0_0_n_n_wf : DotDims.WF S10000x64 S64x64 S10000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x64.size a ≤ S3x100000x64.size a
  hwx0_0 : ∀ i : grid0.Coords, EltTy.bits .f32 = 32 ∨ (Rect.block (s := S3x100000x64) S1x10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S3x64x64.size a
  hwx0_1 : ∀ i : grid0.Coords, EltTy.bits .f32 = 32 ∨ (Rect.block (s := S3x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x64.size a ≤ S3x100000x64.size a
  hwx0_2 : ∀ i : grid0.Coords, EltTy.bits .f32 = 32 ∨ (Rect.block (s := S3x100000x64) S1x10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x10000x64.size a ≤ S3x100000x64.size a
  hwx1_0 : ∀ i : grid1.Coords, EltTy.bits .f32 = 32 ∨ (Rect.block (s := S3x100000x64) S1x10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S3x64x64.size a
  hwx1_1 : ∀ i : grid1.Coords, EltTy.bits .f32 = 32 ∨ (Rect.block (s := S3x64x64) S1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x10000x64.size a ≤ S3x100000x64.size a
  hwx1_2 : ∀ i : grid1.Coords, EltTy.bits .f32 = 32 ∨ (Rect.block (s := S3x100000x64) S1x10000x64.size (cc1_transform_2 i) (hinb1_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_1_0_0_n_n : DotDims S10000x64 S64x64 S10000x64 where
  lhsContracting := [1]
  rhsContracting := [1]
  lhsNonContracting := [0]
  rhsNonContracting := [0]
  lhsBatch := []
  rhsBatch := []
  wf := dot_S10000x64_S64x64_S10000x64_1_1_0_0_n_n_wf

abbrev win0_0 : Pipeline.Window sig grid0 :=
  Pipeline.Window.ofSpec (Memref.whole main_v46) S1x10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1x10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v106) S1x10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v116) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v117) S1x10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1600000 : Shape := ⟨1, ![1600000]⟩
abbrev S50000x64 : Shape := ⟨2, ![50000, 64]⟩
abbrev S2x64x64 : Shape := ⟨3, ![2, 64, 64]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x64x64 : Shape := ⟨3, ![1, 64, 64]⟩
abbrev S64x64 : Shape := ⟨2, ![64, 64]⟩

abbrev nBuf : Space → Nat
  | .hbm => 185
  | .vmem => 0
  | .smem => 0
  | _ => 0

abbrev hbmTy0_0 (i : Nat) : BufTy := match i % 128 with
  | 0 => ⟨S1600000, .i32⟩
  | 1 => ⟨S1600000, .i32⟩
  | 2 => ⟨S1600000, .f32⟩
  | 3 => ⟨S50000x64, .f32⟩
  | 4 => ⟨S50000x64, .f32⟩
  | 5 => ⟨S50000x64, .f32⟩
  | 6 => ⟨S50000x64, .f32⟩
  | 7 => ⟨S50000x64, .f32⟩
  | 8 => ⟨S50000x64, .f32⟩
  | 9 => ⟨S50000x64, .f32⟩
  | 10 => ⟨S50000x64, .f32⟩
  | 11 => ⟨S2x64x64, .f32⟩
  | 12 => ⟨S2x64x64, .f32⟩
  | 13 => ⟨S2x64x64, .f32⟩
  | 14 => ⟨S100000x64, .f32⟩
  | 15 => ⟨S100000x64, .f32⟩
  | 16 => ⟨S100000x64, .f32⟩
  | 17 => ⟨S100000x64, .f32⟩
  | 18 => ⟨S1600000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x64, .f32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S1x64x64, .f32⟩
  | 35 => ⟨S64x64, .f32⟩
  | 36 => ⟨S100000x64, .f32⟩
  | 37 => ⟨S_, .f32⟩
  | 38 => ⟨S_, .f32⟩
  | 39 => ⟨S100000x64, .f32⟩
  | 40 => ⟨S100000x64, .i1⟩
  | 41 => ⟨S_, .f32⟩
  | 42 => ⟨S100000x64, .f32⟩
  | 43 => ⟨S100000x64, .f32⟩
  | 44 => ⟨S100000x64, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S1x64x64, .f32⟩
  | 62 => ⟨S64x64, .f32⟩
  | 63 => ⟨S100000x64, .f32⟩
  | 64 => ⟨S_, .f32⟩
  | 65 => ⟨S_, .f32⟩
  | 66 => ⟨S100000x64, .f32⟩
  | 67 => ⟨S100000x64, .i1⟩
  | 68 => ⟨S_, .f32⟩
  | 69 => ⟨S100000x64, .f32⟩
  | 70 => ⟨S100000x64, .f32⟩
  | 71 => ⟨S100000x64, .f32⟩
  | 72 => ⟨S1600000x1, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S1x64x64, .f32⟩
  | 89 => ⟨S64x64, .f32⟩
  | 90 => ⟨S100000x64, .f32⟩
  | 91 => ⟨S_, .f32⟩
  | 92 => ⟨S_, .f32⟩
  | 93 => ⟨S100000x64, .f32⟩
  | 94 => ⟨S100000x64, .i1⟩
  | 95 => ⟨S_, .f32⟩
  | 96 => ⟨S100000x64, .f32⟩
  | 97 => ⟨S100000x64, .f32⟩
  | 98 => ⟨S100000x64, .f32⟩
  | 99 => ⟨S1600000x1, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S1x64x64, .f32⟩
  | 116 => ⟨S64x64, .f32⟩
  | 117 => ⟨S100000x64, .f32⟩
  | 118 => ⟨S_, .f32⟩
  | 119 => ⟨S_, .f32⟩
  | 120 => ⟨S100000x64, .f32⟩
  | 121 => ⟨S100000x64, .i1⟩
  | 122 => ⟨S_, .f32⟩
  | 123 => ⟨S100000x64, .f32⟩
  | 124 => ⟨S100000x64, .f32⟩
  | 125 => ⟨S100000x64, .f32⟩
  | 126 => ⟨S1600000x1, .f32⟩
  | 127 => ⟨S_, .i32⟩
  | _ => ⟨S1600000, .i32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x64, .f32⟩
  | 8 => ⟨S1600000x64, .f32⟩
  | 9 => ⟨S1600000x64, .f32⟩
  | 10 => ⟨S_, .f32⟩
  | 11 => ⟨S100000x64, .f32⟩
  | 12 => ⟨S1600000x1, .i32⟩
  | 13 => ⟨S100000x64, .f32⟩
  | 14 => ⟨S1x64x64, .f32⟩
  | 15 => ⟨S64x64, .f32⟩
  | 16 => ⟨S100000x64, .f32⟩
  | 17 => ⟨S_, .f32⟩
  | 18 => ⟨S_, .f32⟩
  | 19 => ⟨S100000x64, .f32⟩
  | 20 => ⟨S100000x64, .i1⟩
  | 21 => ⟨S_, .f32⟩
  | 22 => ⟨S100000x64, .f32⟩
  | 23 => ⟨S100000x64, .f32⟩
  | 24 => ⟨S100000x64, .f32⟩
  | 25 => ⟨S1600000x1, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S1600000x64, .f32⟩
  | 36 => ⟨S1600000x64, .f32⟩
  | 37 => ⟨S_, .f32⟩
  | 38 => ⟨S100000x64, .f32⟩
  | 39 => ⟨S1600000x1, .i32⟩
  | 40 => ⟨S100000x64, .f32⟩
  | 41 => ⟨S1x64x64, .f32⟩
  | 42 => ⟨S64x64, .f32⟩
  | 43 => ⟨S100000x64, .f32⟩
  | 44 => ⟨S_, .f32⟩
  | 45 => ⟨S_, .f32⟩
  | 46 => ⟨S100000x64, .f32⟩
  | 47 => ⟨S100000x64, .i1⟩
  | 48 => ⟨S_, .f32⟩
  | 49 => ⟨S100000x64, .f32⟩
  | 50 => ⟨S100000x64, .f32⟩
  | 51 => ⟨S100000x64, .f32⟩
  | 52 => ⟨S100000x64, .f32⟩
  | 53 => ⟨S100000x64, .f32⟩
  | 54 => ⟨S100000x64, .f32⟩
  | 55 => ⟨S50000x64, .f32⟩
  | 56 => ⟨S50000x64, .f32⟩
  | _ => ⟨S1600000, .i32⟩

abbrev hbmTy (i : Nat) : BufTy := match i / 128 with
  | 0 => hbmTy0_0 i
  | 1 => hbmTy0_1 i
  | _ => ⟨S1600000, .i32⟩

abbrev bufTy : (tb : Table) → Fin (tcTables nBuf tb) → BufTy
  | .hbm, ⟨i, _⟩ => hbmTy i
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v20 : Ref sig .tc := ⟨.hbm, 44, rfl⟩
abbrev main_v21 : Ref sig .tc := ⟨.hbm, 45, rfl⟩
abbrev main_c_2 : Ref sig .tc := ⟨.hbm, 46, rfl⟩
abbrev main_v22 : Ref sig .tc := ⟨.hbm, 47, rfl⟩
abbrev main_v23 : Ref sig .tc := ⟨.hbm, 48, rfl⟩
abbrev main_c_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v37 : Ref sig .tc := ⟨.hbm, 71, rfl⟩
abbrev main_v38 : Ref sig .tc := ⟨.hbm, 72, rfl⟩
abbrev main_c_6 : Ref sig .tc := ⟨.hbm, 73, rfl⟩
abbrev main_v39 : Ref sig .tc := ⟨.hbm, 74, rfl⟩
abbrev main_v40 : Ref sig .tc := ⟨.hbm, 75, rfl⟩
abbrev main_c_7 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_8 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_9 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v54 : Ref sig .tc := ⟨.hbm, 98, rfl⟩
abbrev main_v55 : Ref sig .tc := ⟨.hbm, 99, rfl⟩
abbrev main_c_10 : Ref sig .tc := ⟨.hbm, 100, rfl⟩
abbrev main_v56 : Ref sig .tc := ⟨.hbm, 101, rfl⟩
abbrev main_v57 : Ref sig .tc := ⟨.hbm, 102, rfl⟩
abbrev main_c_11 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_12 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_13 : Ref sig .tc := ⟨.hbm, 118, rfl⟩
abbrev main_call3_cst : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_v71 : Ref sig .tc := ⟨.hbm, 125, rfl⟩
abbrev main_v72 : Ref sig .tc := ⟨.hbm, 126, rfl⟩
abbrev main_c_14 : Ref sig .tc := ⟨.hbm, 127, rfl⟩
abbrev main_v73 : Ref sig .tc := ⟨.hbm, 128, rfl⟩
abbrev main_v74 : Ref sig .tc := ⟨.hbm, 129, rfl⟩
abbrev main_c_15 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_16 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_17 : Ref sig .tc := ⟨.hbm, 145, rfl⟩
abbrev main_call4_cst : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_v88 : Ref sig .tc := ⟨.hbm, 152, rfl⟩
abbrev main_v89 : Ref sig .tc := ⟨.hbm, 153, rfl⟩
abbrev main_c_18 : Ref sig .tc := ⟨.hbm, 154, rfl⟩
abbrev main_v90 : Ref sig .tc := ⟨.hbm, 155, rfl⟩
abbrev main_v91 : Ref sig .tc := ⟨.hbm, 156, rfl⟩
abbrev main_c_19 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_cst_20 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_cst_21 : Ref sig .tc := ⟨.hbm, 172, rfl⟩
abbrev main_call5_cst : Ref sig .tc := ⟨.hbm, 173, rfl⟩
abbrev main_call5_v0 : Ref sig .tc := ⟨.hbm, 174, rfl⟩
abbrev main_call5_v1 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩

abbrev nD : Nat := 1
abbrev τ : Topo := Topo.v7x

variable {F : FTy → Type} [FloatOps F]

class Facts₀ : Prop where
  concatenates_S50000x64_S50000x64_S100000x64_d0 : Shape.Concatenates [S50000x64, S50000x64] S100000x64 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  slices_S100000x64_S50000x64_0_0 : S100000x64.Slices ![0, 0] S50000x64
  slices_S100000x64_S50000x64_50000_0 : S100000x64.Slices ![50000, 0] S50000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_1_0_0_n_n_wf : DotDims.WF S100000x64 S64x64 S100000x64 [1] [1] [0] [0] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_1_0_0_n_n : DotDims S100000x64 S64x64 S100000x64 where
  lhsContracting := [1]
  rhsContracting := [1]
  lhsNonContracting := [0]
  rhsNonContracting := [0]
  lhsBatch := []
  rhsBatch := []
  wf := dot_S100000x64_S64x64_S100000x64_1_1_0_0_n_n_wf

class Facts : Prop extends Facts₀ where

variable [Facts]
-- ==== Proof.KRegion.lean ====
/- The two pipelined regions of `Cert.Kernel`'s @main, each at a parameter `V` — the TensorCore's buffer
   contents when the region is entered. Per region: each window's block at a grid point, what the kernel body
   leaves in the output window's staging buffer (the one whole store of the payload of the two whole loads), the
   body's triple, the pipeline's proof data, and the body obligation at every point. -/
import proofs.«134491_j13245679141186_1_alg».proof.Proof.Gen.Kernel.Launch
import proofs.«134491_j13245679141186_1_alg».proof.Proof.Gen.Kernel.Skeleton
import proofs.«134491_j13245679141186_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 10000 recurses once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # Region 0 of @main: custom_call 0, `cc0__dense_leaky_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is
    not fetched its block index has not moved, so the block of the last fetch is the block of this point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x10000x64 := Rect.unit (s := S1x10000x64) ![0, 0, 0] S1x10000x64.size inb_S1x10000x64_S1x10000x64_0_0_0
abbrev r0_1 : Rect S1x64x64 := Rect.unit (s := S1x64x64) ![0, 0, 0] S1x64x64.size inb_S1x64x64_S1x64x64_0_0_0

/-! ## What the body leaves in the output window's buffer -/

/-- Window 2's staging buffer after the body, from the input windows' blocks: its one store, of the whole
    buffer, of the payload of the two whole loads. -/
def out0_2 (x0 : Vec F S1x10000x64 .f32) (x1 : Vec F S1x64x64 .f32) : Vec F S1x10000x64 .f32 :=
  View.canon [⟨r0_0, k0_pay1 (View.ld x0 r0_0) (View.ld x1 r0_1)⟩]

/-- The one store is of the whole buffer, so it covers it. -/
theorem cover0_2 (p0 : Vec F S1x10000x64 .f32) (y : S1x10000x64.Idx) :
    ∃ pc ∈ ([⟨r0_0, p0⟩] : List (View.Piece (Elt F) S1x10000x64 .f32)), y ∈ pc.1.set :=
  View.cover_of_tiled [⟨r0_0, p0⟩] S1x10000x64.size (by rfl) y

/-! ## The body's triple -/

set_option maxHeartbeats 1000000 in
/-- The kernel body on whole staging memrefs, the inputs' at read contents `x0`, `x1` and the output's at anything,
    runs to the continuation holding the inputs' as they were and the output's at `out0_2` of the inputs'. The
    body's load of the output buffer reads whatever is there; its value is not used. -/
theorem sound_kernel0 (c : Dev nD) (E : Set ℕ) (i : grid0.Coords) (arg2 : Memref sig .tc .vmem S1x10000x64 .f32) (harg2 : arg2.IsWhole) (arg3 : Memref sig .tc .vmem S1x64x64 .f32) (harg3 : arg3.IsWhole) (arg4 : Memref sig .tc .vmem S1x10000x64 .f32) (harg4 : arg4.IsWhole)
    (x0 : Vec F S1x10000x64 .f32) (x1 : Vec F S1x64x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__dense_leaky_kernel i arg2 harg2 arg3 harg3 arg4 harg4) K := by
  simp only [cc0__dense_leaky_kernel_eq_skeleton]; unfold cc0__dense_leaky_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the scoped rest
    and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main: custom_call 1, `cc1__dense_leaky_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved, so the block of the last fetch is the block of this point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x10000x64 := Rect.unit (s := S1x10000x64) ![0, 0, 0] S1x10000x64.size inb_S1x10000x64_S1x10000x64_0_0_0
abbrev r1_1 : Rect S1x64x64 := Rect.unit (s := S1x64x64) ![0, 0, 0] S1x64x64.size inb_S1x64x64_S1x64x64_0_0_0

/-! ## What the body leaves in the output window's buffer -/

/-- Window 2's staging buffer after the body, from the input windows' blocks: its one store, of the whole
    buffer, of the payload of the two whole loads. -/
def out1_2 (x0 : Vec F S1x10000x64 .f32) (x1 : Vec F S1x64x64 .f32) : Vec F S1x10000x64 .f32 :=
  View.canon [⟨r1_0, k1_pay1 (View.ld x0 r1_0) (View.ld x1 r1_1)⟩]

/-- The one store is of the whole buffer, so it covers it. -/
theorem cover1_2 (p0 : Vec F S1x10000x64 .f32) (y : S1x10000x64.Idx) :
    ∃ pc ∈ ([⟨r1_0, p0⟩] : List (View.Piece (Elt F) S1x10000x64 .f32)), y ∈ pc.1.set :=
  View.cover_of_tiled [⟨r1_0, p0⟩] S1x10000x64.size (by rfl) y

/-! ## The body's triple -/

set_option maxHeartbeats 1000000 in
/-- The kernel body on whole staging memrefs, the inputs' at read contents `x0`, `x1` and the output's at anything,
    runs to the continuation holding the inputs' as they were and the output's at `out1_2` of the inputs'. The
    body's load of the output buffer reads whatever is there; its value is not used. -/
theorem sound_kernel1 (c : Dev nD) (E : Set ℕ) (i : grid1.Coords) (arg2 : Memref sig .tc .vmem S1x10000x64 .f32) (harg2 : arg2.IsWhole) (arg3 : Memref sig .tc .vmem S1x64x64 .f32) (harg3 : arg3.IsWhole) (arg4 : Memref sig .tc .vmem S1x10000x64 .f32) (harg4 : arg4.IsWhole)
    (x0 : Vec F S1x10000x64 .f32) (x1 : Vec F S1x64x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__dense_leaky_kernel i arg2 harg2 arg3 harg3 arg4 harg4) K := by
  simp only [cc1__dense_leaky_kernel_eq_skeleton]; unfold cc1__dense_leaky_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the scoped rest
    and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/-
  The run of the entry function: three stretches of host operations with the two dense layers between them. The contents
  of every buffer at each boundary are a fold from the launch memory: a stretch applies its operations in order; a dense
  layer leaves its windows' arrays at what its write-backs leave and every other buffer as entered. Each dense layer is a
  segment over the thread state, entered from every unscoped buffer at its entry contents and left at its exit contents;
  the entry function is the run of the five segments; so from any memory with zero counters every weakly fair execution
  terminates, nothing faulting, with every unscoped buffer of every core at the fold's final contents.
-/
import proofs.«134491_j13245679141186_1_alg».proof.Proof.Gen.Kernel.Launch
import proofs.«134491_j13245679141186_1_alg».proof.Proof.Gen.Kernel.Skeleton
import proofs.«134491_j13245679141186_1_alg».proof.Proof.Gen.Kernel.Points
import proofs.«134491_j13245679141186_1_alg».proof.Proof.KRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Hand

variable (m : (ℓ : Loc nD τ sig) → Buf (Elt F) ℓ) (ρ : Dev nD → PrngReg)

/-! ## The buffer contents at each boundary of @main: a fold from the launch memory -/

/-- Core c's buffers at launch. -/
abbrev W0 : Dev nD → Valuation τ sig (Elt F) := fun c b => (s₀ m ρ).mem ((c : Dev nD), b)
/-- After the first stretch of host operations (the first dense layer's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first dense layer's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the second dense layer's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second dense layer's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last stretch: what @main returns with. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's
    record of what it owes, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of what is owed: every unscoped buffer at the final contents. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- The dense layer 0 as a segment over the thread state: entered from every unscoped buffer at the entry contents,
    left at the exit contents; its arrays split out of the unscoped buffers and put back, the generator register
    into the invariant and out, nothing owed, no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The dense layer 1 as a segment over the thread state: entered from every unscoped buffer at the entry contents,
    left at the exit contents; its arrays split out of the unscoped buffers and put back, the generator register
    into the invariant and out, nothing owed, no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per dense layer. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer of every core ends at the fold's final contents W5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Run

end
-- ==== Proof.KFrame.lean ====
/-
  The frame of the run: the argument arrays end as launched. No host operation of the three stretches writes an argument
  array (each operation writes its own result buffer, another one), and no dense layer has one as a window's array, so the
  fold of contents at an argument array walks back to the launch memory; with the run, every weakly fair execution of the
  entry function terminates, nothing faulting, with the fourteen argument arrays as launched.
-/
import proofs.«134491_j13245679141186_1_alg».proof.Proof.KRun

set_option maxRecDepth 16384

noncomputable section

namespace Cert.Kernel.Run

open Idealize.ShloMosaic Idealize.ShloMosaic.TcCoe
open Idealize.SL Idealize.SL.Sem
open Cert.Kernel Cert.Kernel.Gen

variable {F : FTy → Type} [FloatOps F]

/-- No operation of a stretch writes the named buffer: every operation writes its own result buffer, another one. -/
local macro "not_written" ops:ident : tactic => `(tactic| (
  refine List.forall_iff_forall_mem.mp ?_
  simp only [$ops:ident, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

set_option maxHeartbeats 2000000
theorem nw0_main_arg0 : ∀ op ∈ (hostOps0 : List (HloOp τ sig (Elt F))), Proc.devRef (τ := τ) .tc main_arg0 ∉ op.writes := by not_written hostOps0
theorem nw0_main_arg1 : ∀ op ∈ (hostOps0 : List (HloOp τ sig (Elt F))), Proc.devRef (τ := τ) .tc main_arg1 ∉ op.writes := by not_written hostOps0
theorem nw0_main_arg2 : ∀ op ∈ (hostOps0 : List (HloOp τ sig (Elt F))), Proc.devRef (τ := τ) .tc main_arg2 ∉ op.writes := by not_written hostOps0
theorem nw0_main_arg3 : ∀ op ∈ (hostOps0 : List (HloOp τ sig (Elt F))), Proc.devRef (τ := τ) .tc main_arg3 ∉ op.writes := by not_written hostOps0
theorem nw0_main_arg4 : ∀ op ∈ (hostOps0 : List (HloOp τ sig (Elt F))), Proc.devRef (τ := τ) .tc main_arg4 ∉ op.writes := by not_written hostOps0
theorem nw0_main_arg5 : ∀ op ∈ (hostOps0 : List (HloOp τ sig (Elt F))), Proc.devRef (τ := τ) .tc main_arg5 ∉ op.writes := by not_written hostOps0
theorem nw0_main_arg6 : ∀ op ∈ (hostOps0 : List (HloOp τ sig (Elt F))), Proc.devRef (τ := τ) .tc main_arg6 ∉ op.writes := by not_written hostOps0
theorem nw0_main_arg7 : ∀ op ∈ (hostOps0 : List (HloOp τ sig (Elt F))), Proc.devRef (τ := τ) .tc main_arg7 ∉ op.writes := by not_written hostOps0
theorem nw0_main_arg8 : ∀ op ∈ (hostOps0 : List (HloOp τ sig (Elt F))), Proc.devRef (τ := τ) .tc main_arg8 ∉ op.writes := by not_written hostOps0
theorem nw0_main_arg9 : ∀ op ∈ (hostOps0 : List (HloOp τ sig (Elt F))), Proc.devRef (τ := τ) .tc main_arg9 ∉ op.writes := by not_written hostOps0
theorem nw0_main_arg10 : ∀ op ∈ (hostOps0 : List (HloOp τ sig (Elt F))), Proc.devRef (τ := τ) .tc main_arg10 ∉ op.writes := by not_written hostOps0
theorem nw0_main_arg11 : ∀ op ∈ (hostOps0 : List (HloOp τ sig (Elt F))), Proc.devRef (τ := τ) .tc main_arg11 ∉ op.writes := by not_written hostOps0
theorem nw0_main_arg12 : ∀ op ∈ (hostOps0 : List (HloOp τ sig (Elt F))), Proc.devRef (τ := τ) .tc main_arg12 ∉ op.writes := by not_written hostOps0
theorem nw0_main_arg13 : ∀ op ∈ (hostOps0 : List (HloOp τ sig (Elt F))), Proc.devRef (τ := τ) .tc main_arg13 ∉ op.writes := by not_written hostOps0
theorem nw1_main_arg0 : ∀ op ∈ (hostOps1 : List (HloOp τ sig (Elt F))), Proc.devRef (τ := τ) .tc main_arg0 ∉ op.writes := by not_written hostOps1
theorem nw1_main_arg1 : ∀ op ∈ (hostOps1 : List (HloOp τ sig (Elt F))), Proc.devRef (τ := τ) .tc main_arg1 ∉ op.writes := by not_written hostOps1
theorem nw1_main_arg2 : ∀ op ∈ (hostOps1 : List (HloOp τ sig (Elt F))), Proc.devRef (τ := τ) .tc main_arg2 ∉ op.writes := by not_written hostOps1
theorem nw1_main_arg3 : ∀ op ∈ (hostOps1 : List (HloOp τ sig (Elt F))), Proc.devRef (τ := τ) .tc main_arg3 ∉ op.writes := by not_written hostOps1
theorem nw1_main_arg4 : ∀ op ∈ (hostOps1 : List (HloOp τ sig (Elt F))), Proc.devRef (τ := τ) .tc main_arg4 ∉ op.writes := by not_written hostOps1
theorem nw1_main_arg5 : ∀ op ∈ (hostOps1 : List (HloOp τ sig (Elt F))), Proc.devRef (τ := τ) .tc main_arg5 ∉ op.writes := by not_written hostOps1
theorem nw1_main_arg6 : ∀ op ∈ (hostOps1 : List (HloOp τ sig (Elt F))), Proc.devRef (τ := τ) .tc main_arg6 ∉ op.writes := by not_written hostOps1
theorem nw1_main_arg7 : ∀ op ∈ (hostOps1 : List (HloOp τ sig (Elt F))), Proc.devRef (τ := τ) .tc main_arg7 ∉ op.writes := by not_written hostOps1
theorem nw1_main_arg8 : ∀ op ∈ (hostOps1 : List (HloOp τ sig (Elt F))), Proc.devRef (τ := τ) .tc main_arg8 ∉ op.writes := by not_written hostOps1
theorem nw1_main_arg9 : ∀ op ∈ (hostOps1 : List (HloOp τ sig (Elt F))), Proc.devRef (τ := τ) .tc main_arg9 ∉ op.writes := by not_written hostOps1
theorem nw1_main_arg10 : ∀ op ∈ (hostOps1 : List (HloOp τ sig (Elt F))), Proc.devRef (τ := τ) .tc main_arg10 ∉ op.writes := by not_written hostOps1
theorem nw1_main_arg11 : ∀ op ∈ (hostOps1 : List (HloOp τ sig (Elt F))), Proc.devRef (τ := τ) .tc main_arg11 ∉ op.writes := by not_written hostOps1
theorem nw1_main_arg12 : ∀ op ∈ (hostOps1 : List (HloOp τ sig (Elt F))), Proc.devRef (τ := τ) .tc main_arg12 ∉ op.writes := by not_written hostOps1
theorem nw1_main_arg13 : ∀ op ∈ (hostOps1 : List (HloOp τ sig (Elt F))), Proc.devRef (τ := τ) .tc main_arg13 ∉ op.writes := by not_written hostOps1
theorem nw2_main_arg0 : ∀ op ∈ (hostOps2 : List (HloOp τ sig (Elt F))), Proc.devRef (τ := τ) .tc main_arg0 ∉ op.writes := by not_written hostOps2
theorem nw2_main_arg1 : ∀ op ∈ (hostOps2 : List (HloOp τ sig (Elt F))), Proc.devRef (τ := τ) .tc main_arg1 ∉ op.writes := by not_written hostOps2
theorem nw2_main_arg2 : ∀ op ∈ (hostOps2 : List (HloOp τ sig (Elt F))), Proc.devRef (τ := τ) .tc main_arg2 ∉ op.writes := by not_written hostOps2
theorem nw2_main_arg3 : ∀ op ∈ (hostOps2 : List (HloOp τ sig (Elt F))), Proc.devRef (τ := τ) .tc main_arg3 ∉ op.writes := by not_written hostOps2
theorem nw2_main_arg4 : ∀ op ∈ (hostOps2 : List (HloOp τ sig (Elt F))), Proc.devRef (τ := τ) .tc main_arg4 ∉ op.writes := by not_written hostOps2
theorem nw2_main_arg5 : ∀ op ∈ (hostOps2 : List (HloOp τ sig (Elt F))), Proc.devRef (τ := τ) .tc main_arg5 ∉ op.writes := by not_written hostOps2
theorem nw2_main_arg6 : ∀ op ∈ (hostOps2 : List (HloOp τ sig (Elt F))), Proc.devRef (τ := τ) .tc main_arg6 ∉ op.writes := by not_written hostOps2
theorem nw2_main_arg7 : ∀ op ∈ (hostOps2 : List (HloOp τ sig (Elt F))), Proc.devRef (τ := τ) .tc main_arg7 ∉ op.writes := by not_written hostOps2
theorem nw2_main_arg8 : ∀ op ∈ (hostOps2 : List (HloOp τ sig (Elt F))), Proc.devRef (τ := τ) .tc main_arg8 ∉ op.writes := by not_written hostOps2
theorem nw2_main_arg9 : ∀ op ∈ (hostOps2 : List (HloOp τ sig (Elt F))), Proc.devRef (τ := τ) .tc main_arg9 ∉ op.writes := by not_written hostOps2
theorem nw2_main_arg10 : ∀ op ∈ (hostOps2 : List (HloOp τ sig (Elt F))), Proc.devRef (τ := τ) .tc main_arg10 ∉ op.writes := by not_written hostOps2
theorem nw2_main_arg11 : ∀ op ∈ (hostOps2 : List (HloOp τ sig (Elt F))), Proc.devRef (τ := τ) .tc main_arg11 ∉ op.writes := by not_written hostOps2
theorem nw2_main_arg12 : ∀ op ∈ (hostOps2 : List (HloOp τ sig (Elt F))), Proc.devRef (τ := τ) .tc main_arg12 ∉ op.writes := by not_written hostOps2
theorem nw2_main_arg13 : ∀ op ∈ (hostOps2 : List (HloOp τ sig (Elt F))), Proc.devRef (τ := τ) .tc main_arg13 ∉ op.writes := by not_written hostOps2
theorem nw1_main_v0 : ∀ op ∈ (hostOps1 : List (HloOp τ sig (Elt F))), Proc.devRef (τ := τ) .tc main_v0 ∉ op.writes := by not_written hostOps1

variable (m : (ℓ : Loc nD τ sig) → Buf (Elt F) ℓ) (ρ : Dev nD → PrngReg)

/-- A buffer that no host operation writes and no dense layer has as a window's array ends as launched: the fold
    at that buffer walks back to the launch memory. -/
theorem W5_keep (c : Dev nD) (b : Ref sig .tc)
    (h0 : ∀ op ∈ (hostOps0 : List (HloOp τ sig (Elt F))), Proc.devRef (τ := τ) .tc b ∉ op.writes)
    (h1 : ∀ op ∈ (hostOps1 : List (HloOp τ sig (Elt F))), Proc.devRef (τ := τ) .tc b ∉ op.writes)
    (h2 : ∀ op ∈ (hostOps2 : List (HloOp τ sig (Elt F))), Proc.devRef (τ := τ) .tc b ∉ op.writes)
    (hs0 : ∀ w, Pipeline.arrRef spec0 w ≠ b) (hs1 : ∀ w, Pipeline.arrRef spec1 w ≠ b) :
    W5 m ρ c (Proc.devRef .tc b) = m ((c : Thread nD τ).loc b) :=
  calc W5 m ρ c (Proc.devRef .tc b)
    _ = W4 m ρ c (Proc.devRef .tc b) := StableHlo.after_of_forall_not_mem _ _ h2
    _ = W3 m ρ c (Proc.devRef .tc b) := W4_of_ne m ρ c b hs1
    _ = W2 m ρ c (Proc.devRef .tc b) := StableHlo.after_of_forall_not_mem _ _ h1
    _ = W1 m ρ c (Proc.devRef .tc b) := W2_of_ne m ρ c b hs0
    _ = W0 m ρ c (Proc.devRef .tc b) := StableHlo.after_of_forall_not_mem _ _ h0
    _ = m ((c : Thread nD τ).loc b) := rfl

/-- The same up to the second dense layer's entry and exit, for a buffer the first stretch may have written. -/
theorem W4_keep1 (c : Dev nD) (b : Ref sig .tc)
    (h1 : ∀ op ∈ (hostOps1 : List (HloOp τ sig (Elt F))), Proc.devRef (τ := τ) .tc b ∉ op.writes)
    (hs0 : ∀ w, Pipeline.arrRef spec0 w ≠ b) (hs1 : ∀ w, Pipeline.arrRef spec1 w ≠ b) :
    W4 m ρ c (Proc.devRef .tc b) = W1 m ρ c (Proc.devRef .tc b) :=
  calc W4 m ρ c (Proc.devRef .tc b)
    _ = W3 m ρ c (Proc.devRef .tc b) := W4_of_ne m ρ c b hs1
    _ = W2 m ρ c (Proc.devRef .tc b) := StableHlo.after_of_forall_not_mem _ _ h1
    _ = W1 m ρ c (Proc.devRef .tc b) := W2_of_ne m ρ c b hs0

/-- An argument array as the first dense layer leaves it is the launch memory's. -/
theorem W2_keep (c : Dev nD) (b : Ref sig .tc)
    (h0 : ∀ op ∈ (hostOps0 : List (HloOp τ sig (Elt F))), Proc.devRef (τ := τ) .tc b ∉ op.writes)
    (hs0 : ∀ w, Pipeline.arrRef spec0 w ≠ b) :
    W2 m ρ c (Proc.devRef .tc b) = m ((c : Thread nD τ).loc b) :=
  calc W2 m ρ c (Proc.devRef .tc b)
    _ = W1 m ρ c (Proc.devRef .tc b) := W2_of_ne m ρ c b hs0
    _ = W0 m ρ c (Proc.devRef .tc b) := StableHlo.after_of_forall_not_mem _ _ h0
    _ = m ((c : Thread nD τ).loc b) := rfl

/-- A final memory that holds every unscoped buffer of core c at the fold's final contents holds the argument
    arrays as launched. -/
theorem args_kept (c : Dev nD) (s : MemSt nD τ sig (Elt F))
    (h : ∀ b ∈ Pipeline.ucRefs τ sig, s.mem (((c : Thread nD τ)).1, b) = W5 m ρ c b) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13) :=
  ⟨(h _ (mem_uc main_arg0 (by decide))).trans (W5_keep m ρ c main_arg0 nw0_main_arg0 nw1_main_arg0 nw2_main_arg0 (by decide) (by decide)),
      (h _ (mem_uc main_arg1 (by decide))).trans (W5_keep m ρ c main_arg1 nw0_main_arg1 nw1_main_arg1 nw2_main_arg1 (by decide) (by decide)),
      (h _ (mem_uc main_arg2 (by decide))).trans (W5_keep m ρ c main_arg2 nw0_main_arg2 nw1_main_arg2 nw2_main_arg2 (by decide) (by decide)),
      (h _ (mem_uc main_arg3 (by decide))).trans (W5_keep m ρ c main_arg3 nw0_main_arg3 nw1_main_arg3 nw2_main_arg3 (by decide) (by decide)),
      (h _ (mem_uc main_arg4 (by decide))).trans (W5_keep m ρ c main_arg4 nw0_main_arg4 nw1_main_arg4 nw2_main_arg4 (by decide) (by decide)),
      (h _ (mem_uc main_arg5 (by decide))).trans (W5_keep m ρ c main_arg5 nw0_main_arg5 nw1_main_arg5 nw2_main_arg5 (by decide) (by decide)),
      (h _ (mem_uc main_arg6 (by decide))).trans (W5_keep m ρ c main_arg6 nw0_main_arg6 nw1_main_arg6 nw2_main_arg6 (by decide) (by decide)),
      (h _ (mem_uc main_arg7 (by decide))).trans (W5_keep m ρ c main_arg7 nw0_main_arg7 nw1_main_arg7 nw2_main_arg7 (by decide) (by decide)),
      (h _ (mem_uc main_arg8 (by decide))).trans (W5_keep m ρ c main_arg8 nw0_main_arg8 nw1_main_arg8 nw2_main_arg8 (by decide) (by decide)),
      (h _ (mem_uc main_arg9 (by decide))).trans (W5_keep m ρ c main_arg9 nw0_main_arg9 nw1_main_arg9 nw2_main_arg9 (by decide) (by decide)),
      (h _ (mem_uc main_arg10 (by decide))).trans (W5_keep m ρ c main_arg10 nw0_main_arg10 nw1_main_arg10 nw2_main_arg10 (by decide) (by decide)),
      (h _ (mem_uc main_arg11 (by decide))).trans (W5_keep m ρ c main_arg11 nw0_main_arg11 nw1_main_arg11 nw2_main_arg11 (by decide) (by decide)),
      (h _ (mem_uc main_arg12 (by decide))).trans (W5_keep m ρ c main_arg12 nw0_main_arg12 nw1_main_arg12 nw2_main_arg12 (by decide) (by decide)),
      (h _ (mem_uc main_arg13 (by decide))).trans (W5_keep m ρ c main_arg13 nw0_main_arg13 nw1_main_arg13 nw2_main_arg13 (by decide) (by decide))⟩

/-- THE FRAME: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m ρ c r.2 (h c)) (run_all m ρ)

end Cert.Kernel.Run

end
-- ==== Proof.KIRegion.lean ====
/- The two pipelined regions of `Cert.KernelIdeal`'s @main, each at a parameter `V` — the TensorCore's buffer
   contents when the region is entered. Per region: each window's block at a grid point, what the kernel body
   leaves in the output window's staging buffer (the one whole store of the payload of the two whole loads), the
   body's triple, the pipeline's proof data, and the body obligation at every point. -/
import proofs.«134491_j13245679141186_1_alg».proof.Proof.Gen.KernelIdeal.Launch
import proofs.«134491_j13245679141186_1_alg».proof.Proof.Gen.KernelIdeal.Skeleton
import proofs.«134491_j13245679141186_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 10000 recurses once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # Region 0 of @main: custom_call 0, `cc0__dense_leaky_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is
    not fetched its block index has not moved, so the block of the last fetch is the block of this point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x10000x64 := Rect.unit (s := S1x10000x64) ![0, 0, 0] S1x10000x64.size inb_S1x10000x64_S1x10000x64_0_0_0
abbrev r0_1 : Rect S1x64x64 := Rect.unit (s := S1x64x64) ![0, 0, 0] S1x64x64.size inb_S1x64x64_S1x64x64_0_0_0

/-! ## What the body leaves in the output window's buffer -/

/-- Window 2's staging buffer after the body, from the input windows' blocks: its one store, of the whole
    buffer, of the payload of the two whole loads. -/
def out0_2 (x0 : Vec F S1x10000x64 .f32) (x1 : Vec F S1x64x64 .f32) : Vec F S1x10000x64 .f32 :=
  View.canon [⟨r0_0, k0_pay1 (View.ld x0 r0_0) (View.ld x1 r0_1)⟩]

/-- The one store is of the whole buffer, so it covers it. -/
theorem cover0_2 (p0 : Vec F S1x10000x64 .f32) (y : S1x10000x64.Idx) :
    ∃ pc ∈ ([⟨r0_0, p0⟩] : List (View.Piece (Elt F) S1x10000x64 .f32)), y ∈ pc.1.set :=
  View.cover_of_tiled [⟨r0_0, p0⟩] S1x10000x64.size (by rfl) y

/-! ## The body's triple -/

set_option maxHeartbeats 1000000 in
/-- The kernel body on whole staging memrefs, the inputs' at read contents `x0`, `x1` and the output's at anything,
    runs to the continuation holding the inputs' as they were and the output's at `out0_2` of the inputs'. The
    body's load of the output buffer reads whatever is there; its value is not used. -/
theorem sound_kernel0 (c : Dev nD) (E : Set ℕ) (i : grid0.Coords) (arg2 : Memref sig .tc .vmem S1x10000x64 .f32) (harg2 : arg2.IsWhole) (arg3 : Memref sig .tc .vmem S1x64x64 .f32) (harg3 : arg3.IsWhole) (arg4 : Memref sig .tc .vmem S1x10000x64 .f32) (harg4 : arg4.IsWhole)
    (x0 : Vec F S1x10000x64 .f32) (x1 : Vec F S1x64x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__dense_leaky_kernel i arg2 harg2 arg3 harg3 arg4 harg4) K := by
  simp only [cc0__dense_leaky_kernel_eq_skeleton]; unfold cc0__dense_leaky_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the scoped rest
    and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main: custom_call 1, `cc1__dense_leaky_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved, so the block of the last fetch is the block of this point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x10000x64 := Rect.unit (s := S1x10000x64) ![0, 0, 0] S1x10000x64.size inb_S1x10000x64_S1x10000x64_0_0_0
abbrev r1_1 : Rect S1x64x64 := Rect.unit (s := S1x64x64) ![0, 0, 0] S1x64x64.size inb_S1x64x64_S1x64x64_0_0_0

/-! ## What the body leaves in the output window's buffer -/

/-- Window 2's staging buffer after the body, from the input windows' blocks: its one store, of the whole
    buffer, of the payload of the two whole loads. -/
def out1_2 (x0 : Vec F S1x10000x64 .f32) (x1 : Vec F S1x64x64 .f32) : Vec F S1x10000x64 .f32 :=
  View.canon [⟨r1_0, k1_pay1 (View.ld x0 r1_0) (View.ld x1 r1_1)⟩]

/-- The one store is of the whole buffer, so it covers it. -/
theorem cover1_2 (p0 : Vec F S1x10000x64 .f32) (y : S1x10000x64.Idx) :
    ∃ pc ∈ ([⟨r1_0, p0⟩] : List (View.Piece (Elt F) S1x10000x64 .f32)), y ∈ pc.1.set :=
  View.cover_of_tiled [⟨r1_0, p0⟩] S1x10000x64.size (by rfl) y

/-! ## The body's triple -/

set_option maxHeartbeats 1000000 in
/-- The kernel body on whole staging memrefs, the inputs' at read contents `x0`, `x1` and the output's at anything,
    runs to the continuation holding the inputs' as they were and the output's at `out1_2` of the inputs'. The
    body's load of the output buffer reads whatever is there; its value is not used. -/
theorem sound_kernel1 (c : Dev nD) (E : Set ℕ) (i : grid1.Coords) (arg2 : Memref sig .tc .vmem S1x10000x64 .f32) (harg2 : arg2.IsWhole) (arg3 : Memref sig .tc .vmem S1x64x64 .f32) (harg3 : arg3.IsWhole) (arg4 : Memref sig .tc .vmem S1x10000x64 .f32) (harg4 : arg4.IsWhole)
    (x0 : Vec F S1x10000x64 .f32) (x1 : Vec F S1x64x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__dense_leaky_kernel i arg2 harg2 arg3 harg3 arg4 harg4) K := by
  simp only [cc1__dense_leaky_kernel_eq_skeleton]; unfold cc1__dense_leaky_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the scoped rest
    and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIRun.lean ====
/-
  The run of the entry function: three stretches of host operations with the two dense layers between them. The contents
  of every buffer at each boundary are a fold from the launch memory: a stretch applies its operations in order; a dense
  layer leaves its windows' arrays at what its write-backs leave and every other buffer as entered. Each dense layer is a
  segment over the thread state, entered from every unscoped buffer at its entry contents and left at its exit contents;
  the entry function is the run of the five segments; so from any memory with zero counters every weakly fair execution
  terminates, nothing faulting, with every unscoped buffer of every core at the fold's final contents.
-/
import proofs.«134491_j13245679141186_1_alg».proof.Proof.Gen.KernelIdeal.Launch
import proofs.«134491_j13245679141186_1_alg».proof.Proof.Gen.KernelIdeal.Skeleton
import proofs.«134491_j13245679141186_1_alg».proof.Proof.Gen.KernelIdeal.Points
import proofs.«134491_j13245679141186_1_alg».proof.Proof.KIRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Hand

variable (m : (ℓ : Loc nD τ sig) → Buf (Elt F) ℓ) (ρ : Dev nD → PrngReg)

/-! ## The buffer contents at each boundary of @main: a fold from the launch memory -/

/-- Core c's buffers at launch. -/
abbrev W0 : Dev nD → Valuation τ sig (Elt F) := fun c b => (s₀ m ρ).mem ((c : Dev nD), b)
/-- After the first stretch of host operations (the first dense layer's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first dense layer's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the second dense layer's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second dense layer's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last stretch: what @main returns with. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's
    record of what it owes, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of what is owed: every unscoped buffer at the final contents. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- The dense layer 0 as a segment over the thread state: entered from every unscoped buffer at the entry contents,
    left at the exit contents; its arrays split out of the unscoped buffers and put back, the generator register
    into the invariant and out, nothing owed, no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The dense layer 1 as a segment over the thread state: entered from every unscoped buffer at the entry contents,
    left at the exit contents; its arrays split out of the unscoped buffers and put back, the generator register
    into the invariant and out, nothing owed, no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per dense layer. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer of every core ends at the fold's final contents W5. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Run

end
-- ==== Proof.KIFrame.lean ====
/-
  The frame of the run: the argument arrays end as launched. No host operation of the three stretches writes an argument
  array (each operation writes its own result buffer, another one), and no dense layer has one as a window's array, so the
  fold of contents at an argument array walks back to the launch memory; with the run, every weakly fair execution of the
  entry function terminates, nothing faulting, with the fourteen argument arrays as launched.
-/
import proofs.«134491_j13245679141186_1_alg».proof.Proof.KIRun

set_option maxRecDepth 16384

noncomputable section

namespace Cert.KernelIdeal.Run

open Idealize.ShloMosaic Idealize.ShloMosaic.TcCoe
open Idealize.SL Idealize.SL.Sem
open Cert.KernelIdeal Cert.KernelIdeal.Gen

variable {F : FTy → Type} [FloatOps F]

/-- No operation of a stretch writes the named buffer: every operation writes its own result buffer, another one. -/
local macro "not_written" ops:ident : tactic => `(tactic| (
  refine List.forall_iff_forall_mem.mp ?_
  simp only [$ops:ident, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

set_option maxHeartbeats 2000000
theorem nw0_main_arg0 : ∀ op ∈ (hostOps0 : List (HloOp τ sig (Elt F))), Proc.devRef (τ := τ) .tc main_arg0 ∉ op.writes := by not_written hostOps0
theorem nw0_main_arg1 : ∀ op ∈ (hostOps0 : List (HloOp τ sig (Elt F))), Proc.devRef (τ := τ) .tc main_arg1 ∉ op.writes := by not_written hostOps0
theorem nw0_main_arg2 : ∀ op ∈ (hostOps0 : List (HloOp τ sig (Elt F))), Proc.devRef (τ := τ) .tc main_arg2 ∉ op.writes := by not_written hostOps0
theorem nw0_main_arg3 : ∀ op ∈ (hostOps0 : List (HloOp τ sig (Elt F))), Proc.devRef (τ := τ) .tc main_arg3 ∉ op.writes := by not_written hostOps0
theorem nw0_main_arg4 : ∀ op ∈ (hostOps0 : List (HloOp τ sig (Elt F))), Proc.devRef (τ := τ) .tc main_arg4 ∉ op.writes := by not_written hostOps0
theorem nw0_main_arg5 : ∀ op ∈ (hostOps0 : List (HloOp τ sig (Elt F))), Proc.devRef (τ := τ) .tc main_arg5 ∉ op.writes := by not_written hostOps0
theorem nw0_main_arg6 : ∀ op ∈ (hostOps0 : List (HloOp τ sig (Elt F))), Proc.devRef (τ := τ) .tc main_arg6 ∉ op.writes := by not_written hostOps0
theorem nw0_main_arg7 : ∀ op ∈ (hostOps0 : List (HloOp τ sig (Elt F))), Proc.devRef (τ := τ) .tc main_arg7 ∉ op.writes := by not_written hostOps0
theorem nw0_main_arg8 : ∀ op ∈ (hostOps0 : List (HloOp τ sig (Elt F))), Proc.devRef (τ := τ) .tc main_arg8 ∉ op.writes := by not_written hostOps0
theorem nw0_main_arg9 : ∀ op ∈ (hostOps0 : List (HloOp τ sig (Elt F))), Proc.devRef (τ := τ) .tc main_arg9 ∉ op.writes := by not_written hostOps0
theorem nw0_main_arg10 : ∀ op ∈ (hostOps0 : List (HloOp τ sig (Elt F))), Proc.devRef (τ := τ) .tc main_arg10 ∉ op.writes := by not_written hostOps0
theorem nw0_main_arg11 : ∀ op ∈ (hostOps0 : List (HloOp τ sig (Elt F))), Proc.devRef (τ := τ) .tc main_arg11 ∉ op.writes := by not_written hostOps0
theorem nw0_main_arg12 : ∀ op ∈ (hostOps0 : List (HloOp τ sig (Elt F))), Proc.devRef (τ := τ) .tc main_arg12 ∉ op.writes := by not_written hostOps0
theorem nw0_main_arg13 : ∀ op ∈ (hostOps0 : List (HloOp τ sig (Elt F))), Proc.devRef (τ := τ) .tc main_arg13 ∉ op.writes := by not_written hostOps0
theorem nw1_main_arg0 : ∀ op ∈ (hostOps1 : List (HloOp τ sig (Elt F))), Proc.devRef (τ := τ) .tc main_arg0 ∉ op.writes := by not_written hostOps1
theorem nw1_main_arg1 : ∀ op ∈ (hostOps1 : List (HloOp τ sig (Elt F))), Proc.devRef (τ := τ) .tc main_arg1 ∉ op.writes := by not_written hostOps1
theorem nw1_main_arg2 : ∀ op ∈ (hostOps1 : List (HloOp τ sig (Elt F))), Proc.devRef (τ := τ) .tc main_arg2 ∉ op.writes := by not_written hostOps1
theorem nw1_main_arg3 : ∀ op ∈ (hostOps1 : List (HloOp τ sig (Elt F))), Proc.devRef (τ := τ) .tc main_arg3 ∉ op.writes := by not_written hostOps1
theorem nw1_main_arg4 : ∀ op ∈ (hostOps1 : List (HloOp τ sig (Elt F))), Proc.devRef (τ := τ) .tc main_arg4 ∉ op.writes := by not_written hostOps1
theorem nw1_main_arg5 : ∀ op ∈ (hostOps1 : List (HloOp τ sig (Elt F))), Proc.devRef (τ := τ) .tc main_arg5 ∉ op.writes := by not_written hostOps1
theorem nw1_main_arg6 : ∀ op ∈ (hostOps1 : List (HloOp τ sig (Elt F))), Proc.devRef (τ := τ) .tc main_arg6 ∉ op.writes := by not_written hostOps1
theorem nw1_main_arg7 : ∀ op ∈ (hostOps1 : List (HloOp τ sig (Elt F))), Proc.devRef (τ := τ) .tc main_arg7 ∉ op.writes := by not_written hostOps1
theorem nw1_main_arg8 : ∀ op ∈ (hostOps1 : List (HloOp τ sig (Elt F))), Proc.devRef (τ := τ) .tc main_arg8 ∉ op.writes := by not_written hostOps1
theorem nw1_main_arg9 : ∀ op ∈ (hostOps1 : List (HloOp τ sig (Elt F))), Proc.devRef (τ := τ) .tc main_arg9 ∉ op.writes := by not_written hostOps1
theorem nw1_main_arg10 : ∀ op ∈ (hostOps1 : List (HloOp τ sig (Elt F))), Proc.devRef (τ := τ) .tc main_arg10 ∉ op.writes := by not_written hostOps1
theorem nw1_main_arg11 : ∀ op ∈ (hostOps1 : List (HloOp τ sig (Elt F))), Proc.devRef (τ := τ) .tc main_arg11 ∉ op.writes := by not_written hostOps1
theorem nw1_main_arg12 : ∀ op ∈ (hostOps1 : List (HloOp τ sig (Elt F))), Proc.devRef (τ := τ) .tc main_arg12 ∉ op.writes := by not_written hostOps1
theorem nw1_main_arg13 : ∀ op ∈ (hostOps1 : List (HloOp τ sig (Elt F))), Proc.devRef (τ := τ) .tc main_arg13 ∉ op.writes := by not_written hostOps1
theorem nw2_main_arg0 : ∀ op ∈ (hostOps2 : List (HloOp τ sig (Elt F))), Proc.devRef (τ := τ) .tc main_arg0 ∉ op.writes := by not_written hostOps2
theorem nw2_main_arg1 : ∀ op ∈ (hostOps2 : List (HloOp τ sig (Elt F))), Proc.devRef (τ := τ) .tc main_arg1 ∉ op.writes := by not_written hostOps2
theorem nw2_main_arg2 : ∀ op ∈ (hostOps2 : List (HloOp τ sig (Elt F))), Proc.devRef (τ := τ) .tc main_arg2 ∉ op.writes := by not_written hostOps2
theorem nw2_main_arg3 : ∀ op ∈ (hostOps2 : List (HloOp τ sig (Elt F))), Proc.devRef (τ := τ) .tc main_arg3 ∉ op.writes := by not_written hostOps2
theorem nw2_main_arg4 : ∀ op ∈ (hostOps2 : List (HloOp τ sig (Elt F))), Proc.devRef (τ := τ) .tc main_arg4 ∉ op.writes := by not_written hostOps2
theorem nw2_main_arg5 : ∀ op ∈ (hostOps2 : List (HloOp τ sig (Elt F))), Proc.devRef (τ := τ) .tc main_arg5 ∉ op.writes := by not_written hostOps2
theorem nw2_main_arg6 : ∀ op ∈ (hostOps2 : List (HloOp τ sig (Elt F))), Proc.devRef (τ := τ) .tc main_arg6 ∉ op.writes := by not_written hostOps2
theorem nw2_main_arg7 : ∀ op ∈ (hostOps2 : List (HloOp τ sig (Elt F))), Proc.devRef (τ := τ) .tc main_arg7 ∉ op.writes := by not_written hostOps2
theorem nw2_main_arg8 : ∀ op ∈ (hostOps2 : List (HloOp τ sig (Elt F))), Proc.devRef (τ := τ) .tc main_arg8 ∉ op.writes := by not_written hostOps2
theorem nw2_main_arg9 : ∀ op ∈ (hostOps2 : List (HloOp τ sig (Elt F))), Proc.devRef (τ := τ) .tc main_arg9 ∉ op.writes := by not_written hostOps2
theorem nw2_main_arg10 : ∀ op ∈ (hostOps2 : List (HloOp τ sig (Elt F))), Proc.devRef (τ := τ) .tc main_arg10 ∉ op.writes := by not_written hostOps2
theorem nw2_main_arg11 : ∀ op ∈ (hostOps2 : List (HloOp τ sig (Elt F))), Proc.devRef (τ := τ) .tc main_arg11 ∉ op.writes := by not_written hostOps2
theorem nw2_main_arg12 : ∀ op ∈ (hostOps2 : List (HloOp τ sig (Elt F))), Proc.devRef (τ := τ) .tc main_arg12 ∉ op.writes := by not_written hostOps2
theorem nw2_main_arg13 : ∀ op ∈ (hostOps2 : List (HloOp τ sig (Elt F))), Proc.devRef (τ := τ) .tc main_arg13 ∉ op.writes := by not_written hostOps2
theorem nw1_main_v0 : ∀ op ∈ (hostOps1 : List (HloOp τ sig (Elt F))), Proc.devRef (τ := τ) .tc main_v0 ∉ op.writes := by not_written hostOps1

variable (m : (ℓ : Loc nD τ sig) → Buf (Elt F) ℓ) (ρ : Dev nD → PrngReg)

/-- A buffer that no host operation writes and no dense layer has as a window's array ends as launched: the fold
    at that buffer walks back to the launch memory. -/
theorem W5_keep (c : Dev nD) (b : Ref sig .tc)
    (h0 : ∀ op ∈ (hostOps0 : List (HloOp τ sig (Elt F))), Proc.devRef (τ := τ) .tc b ∉ op.writes)
    (h1 : ∀ op ∈ (hostOps1 : List (HloOp τ sig (Elt F))), Proc.devRef (τ := τ) .tc b ∉ op.writes)
    (h2 : ∀ op ∈ (hostOps2 : List (HloOp τ sig (Elt F))), Proc.devRef (τ := τ) .tc b ∉ op.writes)
    (hs0 : ∀ w, Pipeline.arrRef spec0 w ≠ b) (hs1 : ∀ w, Pipeline.arrRef spec1 w ≠ b) :
    W5 m ρ c (Proc.devRef .tc b) = m ((c : Thread nD τ).loc b) :=
  calc W5 m ρ c (Proc.devRef .tc b)
    _ = W4 m ρ c (Proc.devRef .tc b) := StableHlo.after_of_forall_not_mem _ _ h2
    _ = W3 m ρ c (Proc.devRef .tc b) := W4_of_ne m ρ c b hs1
    _ = W2 m ρ c (Proc.devRef .tc b) := StableHlo.after_of_forall_not_mem _ _ h1
    _ = W1 m ρ c (Proc.devRef .tc b) := W2_of_ne m ρ c b hs0
    _ = W0 m ρ c (Proc.devRef .tc b) := StableHlo.after_of_forall_not_mem _ _ h0
    _ = m ((c : Thread nD τ).loc b) := rfl

/-- The same up to the second dense layer's entry and exit, for a buffer the first stretch may have written. -/
theorem W4_keep1 (c : Dev nD) (b : Ref sig .tc)
    (h1 : ∀ op ∈ (hostOps1 : List (HloOp τ sig (Elt F))), Proc.devRef (τ := τ) .tc b ∉ op.writes)
    (hs0 : ∀ w, Pipeline.arrRef spec0 w ≠ b) (hs1 : ∀ w, Pipeline.arrRef spec1 w ≠ b) :
    W4 m ρ c (Proc.devRef .tc b) = W1 m ρ c (Proc.devRef .tc b) :=
  calc W4 m ρ c (Proc.devRef .tc b)
    _ = W3 m ρ c (Proc.devRef .tc b) := W4_of_ne m ρ c b hs1
    _ = W2 m ρ c (Proc.devRef .tc b) := StableHlo.after_of_forall_not_mem _ _ h1
    _ = W1 m ρ c (Proc.devRef .tc b) := W2_of_ne m ρ c b hs0

/-- An argument array as the first dense layer leaves it is the launch memory's. -/
theorem W2_keep (c : Dev nD) (b : Ref sig .tc)
    (h0 : ∀ op ∈ (hostOps0 : List (HloOp τ sig (Elt F))), Proc.devRef (τ := τ) .tc b ∉ op.writes)
    (hs0 : ∀ w, Pipeline.arrRef spec0 w ≠ b) :
    W2 m ρ c (Proc.devRef .tc b) = m ((c : Thread nD τ).loc b) :=
  calc W2 m ρ c (Proc.devRef .tc b)
    _ = W1 m ρ c (Proc.devRef .tc b) := W2_of_ne m ρ c b hs0
    _ = W0 m ρ c (Proc.devRef .tc b) := StableHlo.after_of_forall_not_mem _ _ h0
    _ = m ((c : Thread nD τ).loc b) := rfl

/-- A final memory that holds every unscoped buffer of core c at the fold's final contents holds the argument
    arrays as launched. -/
theorem args_kept (c : Dev nD) (s : MemSt nD τ sig (Elt F))
    (h : ∀ b ∈ Pipeline.ucRefs τ sig, s.mem (((c : Thread nD τ)).1, b) = W5 m ρ c b) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13) :=
  ⟨(h _ (mem_uc main_arg0 (by decide))).trans (W5_keep m ρ c main_arg0 nw0_main_arg0 nw1_main_arg0 nw2_main_arg0 (by decide) (by decide)),
      (h _ (mem_uc main_arg1 (by decide))).trans (W5_keep m ρ c main_arg1 nw0_main_arg1 nw1_main_arg1 nw2_main_arg1 (by decide) (by decide)),
      (h _ (mem_uc main_arg2 (by decide))).trans (W5_keep m ρ c main_arg2 nw0_main_arg2 nw1_main_arg2 nw2_main_arg2 (by decide) (by decide)),
      (h _ (mem_uc main_arg3 (by decide))).trans (W5_keep m ρ c main_arg3 nw0_main_arg3 nw1_main_arg3 nw2_main_arg3 (by decide) (by decide)),
      (h _ (mem_uc main_arg4 (by decide))).trans (W5_keep m ρ c main_arg4 nw0_main_arg4 nw1_main_arg4 nw2_main_arg4 (by decide) (by decide)),
      (h _ (mem_uc main_arg5 (by decide))).trans (W5_keep m ρ c main_arg5 nw0_main_arg5 nw1_main_arg5 nw2_main_arg5 (by decide) (by decide)),
      (h _ (mem_uc main_arg6 (by decide))).trans (W5_keep m ρ c main_arg6 nw0_main_arg6 nw1_main_arg6 nw2_main_arg6 (by decide) (by decide)),
      (h _ (mem_uc main_arg7 (by decide))).trans (W5_keep m ρ c main_arg7 nw0_main_arg7 nw1_main_arg7 nw2_main_arg7 (by decide) (by decide)),
      (h _ (mem_uc main_arg8 (by decide))).trans (W5_keep m ρ c main_arg8 nw0_main_arg8 nw1_main_arg8 nw2_main_arg8 (by decide) (by decide)),
      (h _ (mem_uc main_arg9 (by decide))).trans (W5_keep m ρ c main_arg9 nw0_main_arg9 nw1_main_arg9 nw2_main_arg9 (by decide) (by decide)),
      (h _ (mem_uc main_arg10 (by decide))).trans (W5_keep m ρ c main_arg10 nw0_main_arg10 nw1_main_arg10 nw2_main_arg10 (by decide) (by decide)),
      (h _ (mem_uc main_arg11 (by decide))).trans (W5_keep m ρ c main_arg11 nw0_main_arg11 nw1_main_arg11 nw2_main_arg11 (by decide) (by decide)),
      (h _ (mem_uc main_arg12 (by decide))).trans (W5_keep m ρ c main_arg12 nw0_main_arg12 nw1_main_arg12 nw2_main_arg12 (by decide) (by decide)),
      (h _ (mem_uc main_arg13 (by decide))).trans (W5_keep m ρ c main_arg13 nw0_main_arg13 nw1_main_arg13 nw2_main_arg13 (by decide) (by decide))⟩

/-- THE FRAME: every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m ρ c r.2 (h c)) (run_all m ρ)

end Cert.KernelIdeal.Run

end
-- ==== Proof.DenseSpec.lean ====
/-
  The dense layer both programs apply to a stack of three node-feature matrices, stated index by index on the
  extended reals: for modality mo, node r and output feature e,
      out[mo, r, e] = leaky (Σ_c x[mo, r, c] · w[mo, e, c]),
  the weight matrix read along its ROWS (y = x · Wᵀ), and leaky y = y for 0 < y, slope · y otherwise, with slope the
  value of the f32 word 0x3E4CCCCD. At y = 0 both branches are 0, so the comparison may be read strictly or not.
-/
import Idealize.ShloMosaic.PureOps.Ideal.Laws
import Idealize.ShloMosaic.Lib.ValueIdx

noncomputable section

namespace Cert.DenseSpec

open Idealize.ShloMosaic Idealize.ShloMosaic.ValueIdx

/-- The slope of the leaky rectifier: the f32 word both programs carry, read on the extended reals. -/
def slope : EReal := Ideal.ofBits .f32 0x3E4CCCCD#32

/-- The leaky rectifier on the extended reals. -/
def leaky (y : EReal) : EReal := if 0 < y then y else slope * y

/-- The same with the comparison read weakly: the two branches agree at 0. -/
theorem leaky_eq_ge (y : EReal) : leaky y = if 0 ≤ y then y else slope * y := by
  unfold leaky
  by_cases h : 0 < y
  · rw [if_pos h, if_pos h.le]
  · rw [if_neg h]
    by_cases h0 : 0 ≤ y
    · have : y = 0 := le_antisymm (not_lt.mp h) h0
      rw [if_pos h0, this, mul_zero]
    · rw [if_neg h0]

/-- Row r of x against row e of w, on one modality: Σ_c x[mo, r, c] · w[mo, e, c]. -/
def rowDot (x : (⟨3, ![3, 100000, 64]⟩ : Shape).Idx → EReal) (w : (⟨3, ![3, 64, 64]⟩ : Shape).Idx → EReal)
    (mo : Fin 3) (r : Fin 100000) (e : Fin 64) : EReal :=
  ∑ c : Fin 64, x (ix3 mo r c) * w (ix3 mo e c)

/-- The stacked dense layer: three modalities, 100000 nodes, 64 features in and out. -/
def denseStack (x : (⟨3, ![3, 100000, 64]⟩ : Shape).Idx → EReal) (w : (⟨3, ![3, 64, 64]⟩ : Shape).Idx → EReal) :
    (⟨3, ![3, 100000, 64]⟩ : Shape).Idx → EReal :=
  fun i => leaky (rowDot x w (i 0) (i 1) (i 2))

theorem denseStack_apply (x : (⟨3, ![3, 100000, 64]⟩ : Shape).Idx → EReal) (w : (⟨3, ![3, 64, 64]⟩ : Shape).Idx → EReal)
    (mo : Fin 3) (r : Fin 100000) (e : Fin 64) :
    denseStack x w (ix3 mo r e) = leaky (∑ c : Fin 64, x (ix3 mo r c) * w (ix3 mo e c)) := rfl

/-- One modality's dense layer on its own matrices: out[r, e] = leaky (Σ_c s[r, c] · w[e, c]). -/
def dense (s : (⟨2, ![100000, 64]⟩ : Shape).Idx → EReal) (w : (⟨2, ![64, 64]⟩ : Shape).Idx → EReal) :
    (⟨2, ![100000, 64]⟩ : Shape).Idx → EReal :=
  fun i => leaky (∑ c : Fin 64, s (ix2 (i 0) c) * w (ix2 (i 1) c))

theorem dense_apply (s : (⟨2, ![100000, 64]⟩ : Shape).Idx → EReal) (w : (⟨2, ![64, 64]⟩ : Shape).Idx → EReal)
    (r : Fin 100000) (e : Fin 64) : dense s w (ix2 r e) = leaky (∑ c : Fin 64, s (ix2 r c) * w (ix2 e c)) := rfl

end Cert.DenseSpec

end
-- ==== Proof.LibTransposedDot.lean ====
/-
  A matrix product that contracts the LAST axis of both operands — A (m×k) against B (n×k), no transpose formed —, read
  at an index on the extended reals: (A · Bᵀ)[a, b] = Σ_c A[a, c] · B[b, c], for the vector unit's product into a zero
  accumulator, under any dimension numbers whose six lists are [1] [1] [0] [0] [] [].
-/
import Idealize.ShloMosaic.PureOps.Ideal.Laws
import Idealize.ShloMosaic.Lib.ValueIdx
import Idealize.ShloMosaic.Lib.Pipeline.Value

noncomputable section

namespace Cert.LibTransposedDot

open Idealize.ShloMosaic Idealize.ShloMosaic.ValueIdx

/-- Dimension numbers whose six lists are those of the product contracting both operands' last axis ARE that
    product's. -/
theorem eq_transposedRhs {m k n : Nat} (d : DotDims ⟨2, ![m, k]⟩ ⟨2, ![n, k]⟩ ⟨2, ![m, n]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs m k n := by
  cases d
  simp only at h1 h2 h3 h4 h5 h6
  subst h1 h2 h3 h4 h5 h6
  rfl

/-- That product's sum over its contraction index, re-indexed by the contracted coordinate: the left operand is read
    along row a, the right operand along row b. -/
theorem transposedRhs_sum {m k n : Nat} (A : (⟨2, ![m, k]⟩ : Shape).Idx → EReal) (B : (⟨2, ![n, k]⟩ : Shape).Idx → EReal)
    (a : Fin m) (b : Fin n) :
    ∑ q : (DotDims.transposedRhs m k n).contr.Idx,
        A ((DotDims.transposedRhs m k n).lhsIdx (ix2 a b) q) * B ((DotDims.transposedRhs m k n).rhsIdx (ix2 a b) q)
      = ∑ c : Fin k, A (ix2 a c) * B (ix2 b c) := by
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The vector unit's product of A (m×k) with B (n×k), both contracted on their last axis, into the zero accumulator,
    at (a, b): Σ_c A[a, c] · B[b, c]. -/
theorem matmul_transposedRhs_apply {m k n : Nat} {φ₁ φ₂ : FTy} (d : DotDims ⟨2, ![m, k]⟩ ⟨2, ![n, k]⟩ ⟨2, ![m, n]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  rw [eq_transposedRhs d h1 h2 h3 h4 h5 h6]
  show FloatOps.matmul (DotDims.transposedRhs m k n) prec A B (constant ⟨2, ![m, n]⟩ .f32 0x00000000#32) (ix2 a b) = _
  rw [Ideal.matmul_constant_zero_apply]
  exact transposedRhs_sum A B a b

end Cert.LibTransposedDot

end
-- ==== Proof.KIPayload.lean ====
/-
  The value each dense-layer kernel body stores, read at an index on the extended reals: for the one modality in the
  block, node r and output feature e,
      stored[0, r, e] = leaky (Σ_c x[0, r, c] · w[0, e, c]),
  the weight block read along its rows, leaky as in the shared specification.
-/
import proofs.«134491_j13245679141186_1_alg».proof.Proof.Gen.KernelIdeal.Skeleton
import proofs.«134491_j13245679141186_1_alg».proof.Proof.DenseSpec
import proofs.«134491_j13245679141186_1_alg».proof.Proof.LibTransposedDot
import Idealize.ShloMosaic.Lib.ValueLayout

noncomputable section

namespace Cert.KernelIdeal.HandValue

open Idealize.ShloMosaic Idealize.ShloMosaic.ValueIdx Cert.KernelIdeal

/-- The f32 word of all zero bits is the real 0. -/
theorem ofBits_zero : Ideal.ofBits .f32 0x00000000#32 = 0 := by simp [Ideal.ofBits, Ideal.ieee]

/-- Choosing y where y > 0 and slope · y elsewhere is the leaky rectifier. -/
theorem select_ogt_leaky (y : EReal) :
    Scalar.select (Ideal.cmp .ogt y (Ideal.ofBits .f32 0x00000000#32)) y (Ideal.ofBits .f32 0x3E4CCCCD#32 * y)
      = Cert.DenseSpec.leaky y := by
  rw [ofBits_zero]
  unfold Cert.DenseSpec.leaky Cert.DenseSpec.slope Ideal.cmp Scalar.select
  by_cases h : 0 < y
  · simp [h]
  · simp [h]

/-- The first layer's body: the stored block at (0, r, e) is leaky of row r of the node block against row e of the
    weight block. -/
theorem pay0_apply (x0 : Vec Ideal S1x10000x64 .f32) (x1 : Vec Ideal S1x64x64 .f32) (r : Fin 10000) (e : Fin 64) :
    Cert.KernelIdeal.Gen.k0_pay1 (F := Ideal) x0 x1 (ix3 (0 : Fin 1) r e)
      = Cert.DenseSpec.leaky (∑ c : Fin 64, x0 (ix3 (0 : Fin 1) r c) * x1 (ix3 (0 : Fin 1) e c)) := by
  unfold Cert.KernelIdeal.Gen.k0_pay1
  rw [shapeCast_ab_1ab_apply]
  rw [select_apply, cmpf_apply, mulf_apply, broadcast_apply, broadcast_apply]
  rw [Cert.LibTransposedDot.matmul_transposedRhs_apply _ rfl rfl rfl rfl rfl rfl]
  simp only [truncf_apply, shapeCast_1ab_ab_apply]
  exact select_ogt_leaky _

/-- The second layer's body: the same value on its own blocks. -/
theorem pay1_apply (x0 : Vec Ideal S1x10000x64 .f32) (x1 : Vec Ideal S1x64x64 .f32) (r : Fin 10000) (e : Fin 64) :
    Cert.KernelIdeal.Gen.k1_pay1 (F := Ideal) x0 x1 (ix3 (0 : Fin 1) r e)
      = Cert.DenseSpec.leaky (∑ c : Fin 64, x0 (ix3 (0 : Fin 1) r c) * x1 (ix3 (0 : Fin 1) e c)) := by
  unfold Cert.KernelIdeal.Gen.k1_pay1
  rw [shapeCast_ab_1ab_apply]
  rw [select_apply, cmpf_apply, mulf_apply, broadcast_apply, broadcast_apply]
  rw [Cert.LibTransposedDot.matmul_transposedRhs_apply _ rfl rfl rfl rfl rfl rfl]
  simp only [truncf_apply, shapeCast_1ab_ab_apply]
  exact select_ogt_leaky _

end Cert.KernelIdeal.HandValue

end
-- ==== Proof.KIBlocks.lean ====
/- From the blocks to the array, on the extended reals. Each of the two pipelined regions writes back, at grid point
   t = (modality, row block), the block of 10000 rows its body stored; the body's stored value at (0, r, e) is
   leaky (Σ_c x[0, r, c] · w[0, e, c]) of the node block and the weight block it loaded. The node block at t is rows
   10000·(row block) … of the modality's node matrix and the weight block is the modality's weight matrix, so the
   block written back is the block at t of the stacked dense layer of the two arrays; the 30 blocks tile the output
   array, so after the pipeline the array IS the stacked dense layer of the arrays the region found. -/
import proofs.«134491_j13245679141186_1_alg».proof.Proof.KIRegion
import proofs.«134491_j13245679141186_1_alg».proof.Proof.KIPayload
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when a region is entered
variable (V : (c : Dev nD) → (b : Ref sig .tc) → Buf (Elt Ideal) ((c : Thread nD τ).loc b))

theorem hz3 : (![0, 0, 0] : Fin 3 → Nat) = fun _ => 0 := funext fun a => by fin_cases a <;> rfl

/-! ## Region 0: the output array after its pipeline -/

/-- The body's stored block at an index `j`, when row `j 1` of the node block is row `i 1` of modality `i 0` of the
    node array and row `j 2` of the weight block is row `i 2` of that modality's weight matrix, is the stacked dense
    layer of the two arrays at `i`. -/
theorem pay0_block (x0 : Vec Ideal S1x10000x64 .f32) (x1 : Vec Ideal S1x64x64 .f32)
    (X : S3x100000x64.Idx → EReal) (W : S3x64x64.Idx → EReal) (j : S1x10000x64.Idx) (i : S3x100000x64.Idx)
    (hx0 : ∀ cc : Fin 64, x0 (ix3 (0 : Fin 1) (j 1) cc) = X (ix3 (i 0) (i 1) cc))
    (hx1 : ∀ cc : Fin 64, x1 (ix3 (0 : Fin 1) (j 2) cc) = W (ix3 (i 0) (i 2) cc)) :
    k0_pay1 (F := Ideal) x0 x1 j = Cert.DenseSpec.denseStack X W i := by
  have hj : j = ix3 (0 : Fin 1) (j 1) (j 2) := by
    funext a; match a with | ⟨0, _⟩ => exact Subsingleton.elim (α := Fin 1) _ _ | ⟨1, _⟩ => rfl | ⟨2, _⟩ => rfl
  have e : k0_pay1 (F := Ideal) x0 x1 j = Cert.DenseSpec.leaky (∑ cc : Fin 64, x0 (ix3 (0 : Fin 1) (j 1) cc) * x1 (ix3 (0 : Fin 1) (j 2) cc)) :=
    (congrArg (k0_pay1 (F := Ideal) x0 x1) hj).trans (pay0_apply x0 x1 (j 1) (j 2))
  rw [e]
  show _ = Cert.DenseSpec.leaky (∑ cc : Fin 64, X (ix3 (i 0) (i 1) cc) * W (ix3 (i 0) (i 2) cc))
  congr 1
  exact Finset.sum_congr rfl fun cc _ => by rw [hx0, hx1]

/-- The printed index maps, decided over the grid: the node window moves with the output window, the weight window
    with the output's modality only, and the output's block index at point `t` is (modality, row block, 0). -/
theorem idx_facts0 : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 2
    ∧ win0_2.index t (1 : Fin 3) ≤ 9 :=
  (by decide +kernel : ∀ t : Fin grid0.N, _)

/-- Every (modality, row block) is some point's output block. -/
theorem idx_onto0 : ∀ (q0 : Fin 3) (q1 : Fin 10), ∃ t : Fin cfg0.N, win0_2.index t = ![q0.val, q1.val, 0] :=
  (by decide +kernel : ∀ (q0 : Fin 3) (q1 : Fin 10), ∃ t : Fin grid0.N, win0_2.index t = ![q0.val, q1.val, 0])

/-- What point `t` writes back is block `t` of the stacked dense layer of the two input arrays as the region finds
    them. -/
theorem flushed0_eq (c : Dev nD) (t : Fin cfg0.N) :
    (dat0 V c).flushed 2 t = ((cfg0.win 2).blk t).view.read (Elt Ideal)
      (Cert.DenseSpec.denseStack (V c main_v46 : S3x100000x64.Idx → EReal) (V c main_v56 : S3x64x64.Idx → EReal)) := by
  show (cfg0.win 2).cut (grid0.coords t) ((dat0 V c).after 2 t) = _
  rw [after0_2]
  unfold out0_2
  rw [View.canon_unit_zero hz3]
  simp only [View.ld_unit_zero (S := S1x10000x64) hz3, View.ld_unit_zero (S := S1x64x64) hz3]
  obtain ⟨e0, e1, e2, e3, e4, e5, e6, e7, e8⟩ := idx_facts0 t
  funext j
  show k0_pay1 (F := Ideal) (iblk0 V c 0 t) (iblk0 V c 1 t) j
    = Cert.DenseSpec.denseStack (V c main_v46 : S3x100000x64.Idx → EReal) (V c main_v56 : S3x64x64.Idx → EReal) (((cfg0.win 2).blk t).view.emb j)
  have hj0 : (j 0).val < 1 := (j 0).isLt
  refine pay0_block _ _ _ _ j _ (fun cc => ?_) (fun cc => ?_)
  · show (V c main_v46 : S3x100000x64.Idx → EReal) (((cfg0.win 0).blk t).view.emb (ix3 (0 : Fin 1) (j 1) cc)) = (V c main_v46 : S3x100000x64.Idx → EReal) _
    congr 1
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 10000 + 1 * (j 1).val = win0_2.index t (1 : Fin 3) * 10000 + 1 * (j 1).val; omega
    | ⟨2, _⟩ => show win0_0.index t (2 : Fin 3) * 64 + 1 * cc.val = cc.val; omega
  · show (V c main_v56 : S3x64x64.Idx → EReal) (((cfg0.win 1).blk t).view.emb (ix3 (0 : Fin 1) (j 2) cc)) = (V c main_v56 : S3x64x64.Idx → EReal) _
    congr 1
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 64 + 1 * (j 2).val = win0_2.index t (2 : Fin 3) * 64 + 1 * (j 2).val; omega
    | ⟨2, _⟩ => show win0_1.index t (2 : Fin 3) * 64 + 1 * cc.val = cc.val; omega

/-- An index of the output array is in point `t`'s block iff each coordinate is in the block's range on its axis. -/
theorem mem_blk0 (t : Fin cfg0.N) (i : S3x100000x64.Idx) :
    i ∈ ((cfg0.win 2).blk t).view.set ↔ ∀ a : Fin 3, win0_2.index t a * S1x10000x64.size a ≤ (i a).val ∧ (i a).val < win0_2.index t a * S1x10000x64.size a + S1x10000x64.size a := by
  show i ∈ ((View.whole main_v57).slice (win0_2.rect t)).set ↔ _
  rw [View.set_slice_whole, Rect.mem_set_unit]
  exact Iff.rfl

/-- Every index of the output array is in some point's block: (mo, r, e) is in the block of modality `mo` and row
    block `r / 10000`. -/
theorem cover0 (i : S3x100000x64.Idx) :
    ∃ t : Fin cfg0.N, (cfg0.win 2).flush t = true ∧ i ∈ ((cfg0.win 2).blk t).view.set := by
  have hi0 : (i 0).val < 3 := (i 0).isLt
  have hi1 : (i 1).val < 100000 := (i 1).isLt
  have hi2 : (i 2).val < 64 := (i 2).isLt
  obtain ⟨t, ht⟩ := idx_onto0 ⟨(i 0).val, hi0⟩ ⟨(i 1).val / 10000, by omega⟩
  have q0 : win0_2.index t (0 : Fin 3) = (i 0).val := congrFun ht 0
  have q1 : win0_2.index t (1 : Fin 3) = (i 1).val / 10000 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 10000 ≤ (i 1).val ∧ (i 1).val < win0_2.index t (1 : Fin 3) * 10000 + 10000; omega
  | ⟨2, _⟩ => show win0_2.index t (2 : Fin 3) * 64 ≤ (i 2).val ∧ (i 2).val < win0_2.index t (2 : Fin 3) * 64 + 64; omega

/-- The output array after the region's pipeline is the stacked dense layer of the two input arrays as the region
    finds them. -/
theorem final0 (c : Dev nD) :
    (dat0 V c).arrAt 2 cfg0.N = Cert.DenseSpec.denseStack (V c main_v46 : S3x100000x64.Idx → EReal) (V c main_v56 : S3x64x64.Idx → EReal) :=
  (dat0 V c).arrAt_eq_of_cover 2 _ (fun t _ => flushed0_eq V c t) cover0

/-! ## Region 1: the output array after its pipeline -/

/-- The body's stored block at an index `j`, when row `j 1` of the node block is row `i 1` of modality `i 0` of the
    node array and row `j 2` of the weight block is row `i 2` of that modality's weight matrix, is the stacked dense
    layer of the two arrays at `i`. -/
theorem pay1_block (x0 : Vec Ideal S1x10000x64 .f32) (x1 : Vec Ideal S1x64x64 .f32)
    (X : S3x100000x64.Idx → EReal) (W : S3x64x64.Idx → EReal) (j : S1x10000x64.Idx) (i : S3x100000x64.Idx)
    (hx0 : ∀ cc : Fin 64, x0 (ix3 (0 : Fin 1) (j 1) cc) = X (ix3 (i 0) (i 1) cc))
    (hx1 : ∀ cc : Fin 64, x1 (ix3 (0 : Fin 1) (j 2) cc) = W (ix3 (i 0) (i 2) cc)) :
    k1_pay1 (F := Ideal) x0 x1 j = Cert.DenseSpec.denseStack X W i := by
  have hj : j = ix3 (0 : Fin 1) (j 1) (j 2) := by
    funext a; match a with | ⟨0, _⟩ => exact Subsingleton.elim (α := Fin 1) _ _ | ⟨1, _⟩ => rfl | ⟨2, _⟩ => rfl
  have e : k1_pay1 (F := Ideal) x0 x1 j = Cert.DenseSpec.leaky (∑ cc : Fin 64, x0 (ix3 (0 : Fin 1) (j 1) cc) * x1 (ix3 (0 : Fin 1) (j 2) cc)) :=
    (congrArg (k1_pay1 (F := Ideal) x0 x1) hj).trans (pay1_apply x0 x1 (j 1) (j 2))
  rw [e]
  show _ = Cert.DenseSpec.leaky (∑ cc : Fin 64, X (ix3 (i 0) (i 1) cc) * W (ix3 (i 0) (i 2) cc))
  congr 1
  exact Finset.sum_congr rfl fun cc _ => by rw [hx0, hx1]

/-- The printed index maps, decided over the grid: the node window moves with the output window, the weight window
    with the output's modality only, and the output's block index at point `t` is (modality, row block, 0). -/
theorem idx_facts1 : ∀ t : Fin cfg1.N,
    win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = 0
    ∧ win1_1.index t (2 : Fin 3) = 0
    ∧ win1_2.index t (2 : Fin 3) = 0
    ∧ win1_2.index t (0 : Fin 3) ≤ 2
    ∧ win1_2.index t (1 : Fin 3) ≤ 9 :=
  (by decide +kernel : ∀ t : Fin grid1.N, _)

/-- Every (modality, row block) is some point's output block. -/
theorem idx_onto1 : ∀ (q0 : Fin 3) (q1 : Fin 10), ∃ t : Fin cfg1.N, win1_2.index t = ![q0.val, q1.val, 0] :=
  (by decide +kernel : ∀ (q0 : Fin 3) (q1 : Fin 10), ∃ t : Fin grid1.N, win1_2.index t = ![q0.val, q1.val, 0])

/-- What point `t` writes back is block `t` of the stacked dense layer of the two input arrays as the region finds
    them. -/
theorem flushed1_eq (c : Dev nD) (t : Fin cfg1.N) :
    (dat1 V c).flushed 2 t = ((cfg1.win 2).blk t).view.read (Elt Ideal)
      (Cert.DenseSpec.denseStack (V c main_v106 : S3x100000x64.Idx → EReal) (V c main_v116 : S3x64x64.Idx → EReal)) := by
  show (cfg1.win 2).cut (grid1.coords t) ((dat1 V c).after 2 t) = _
  rw [after1_2]
  unfold out1_2
  rw [View.canon_unit_zero hz3]
  simp only [View.ld_unit_zero (S := S1x10000x64) hz3, View.ld_unit_zero (S := S1x64x64) hz3]
  obtain ⟨e0, e1, e2, e3, e4, e5, e6, e7, e8⟩ := idx_facts1 t
  funext j
  show k1_pay1 (F := Ideal) (iblk1 V c 0 t) (iblk1 V c 1 t) j
    = Cert.DenseSpec.denseStack (V c main_v106 : S3x100000x64.Idx → EReal) (V c main_v116 : S3x64x64.Idx → EReal) (((cfg1.win 2).blk t).view.emb j)
  have hj0 : (j 0).val < 1 := (j 0).isLt
  refine pay1_block _ _ _ _ j _ (fun cc => ?_) (fun cc => ?_)
  · show (V c main_v106 : S3x100000x64.Idx → EReal) (((cfg1.win 0).blk t).view.emb (ix3 (0 : Fin 1) (j 1) cc)) = (V c main_v106 : S3x100000x64.Idx → EReal) _
    congr 1
    funext a; apply Fin.ext
    match a with
    | ⟨0, _⟩ => show win1_0.index t (0 : Fin 3) * 1 + 1 * 0 = win1_2.index t (0 : Fin 3) * 1 + 1 * (j 0).val; omega
    | ⟨1, _⟩ => show win1_0.index t (1 : Fin 3) * 10000 + 1 * (j 1).val = win1_2.index t (1 : Fin 3) * 10000 + 1 * (j 1).val; omega
    | ⟨2, _⟩ => show win1_0.index t (2 : Fin 3) * 64 + 1 * cc.val = cc.val; omega
  · show (V c main_v116 : S3x64x64.Idx → EReal) (((cfg1.win 1).blk t).view.emb (ix3 (0 : Fin 1) (j 2) cc)) = (V c main_v116 : S3x64x64.Idx → EReal) _
    congr 1
    funext a; apply Fin.ext
    match a with
    | ⟨0, _⟩ => show win1_1.index t (0 : Fin 3) * 1 + 1 * 0 = win1_2.index t (0 : Fin 3) * 1 + 1 * (j 0).val; omega
    | ⟨1, _⟩ => show win1_1.index t (1 : Fin 3) * 64 + 1 * (j 2).val = win1_2.index t (2 : Fin 3) * 64 + 1 * (j 2).val; omega
    | ⟨2, _⟩ => show win1_1.index t (2 : Fin 3) * 64 + 1 * cc.val = cc.val; omega

/-- An index of the output array is in point `t`'s block iff each coordinate is in the block's range on its axis. -/
theorem mem_blk1 (t : Fin cfg1.N) (i : S3x100000x64.Idx) :
    i ∈ ((cfg1.win 2).blk t).view.set ↔ ∀ a : Fin 3, win1_2.index t a * S1x10000x64.size a ≤ (i a).val ∧ (i a).val < win1_2.index t a * S1x10000x64.size a + S1x10000x64.size a := by
  show i ∈ ((View.whole main_v117).slice (win1_2.rect t)).set ↔ _
  rw [View.set_slice_whole, Rect.mem_set_unit]
  exact Iff.rfl

/-- Every index of the output array is in some point's block: (mo, r, e) is in the block of modality `mo` and row
    block `r / 10000`. -/
theorem cover1 (i : S3x100000x64.Idx) :
    ∃ t : Fin cfg1.N, (cfg1.win 2).flush t = true ∧ i ∈ ((cfg1.win 2).blk t).view.set := by
  have hi0 : (i 0).val < 3 := (i 0).isLt
  have hi1 : (i 1).val < 100000 := (i 1).isLt
  have hi2 : (i 2).val < 64 := (i 2).isLt
  obtain ⟨t, ht⟩ := idx_onto1 ⟨(i 0).val, hi0⟩ ⟨(i 1).val / 10000, by omega⟩
  have q0 : win1_2.index t (0 : Fin 3) = (i 0).val := congrFun ht 0
  have q1 : win1_2.index t (1 : Fin 3) = (i 1).val / 10000 := congrFun ht 1
  have q2 : win1_2.index t (2 : Fin 3) = 0 := congrFun ht 2
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 10000 ≤ (i 1).val ∧ (i 1).val < win1_2.index t (1 : Fin 3) * 10000 + 10000; omega
  | ⟨2, _⟩ => show win1_2.index t (2 : Fin 3) * 64 ≤ (i 2).val ∧ (i 2).val < win1_2.index t (2 : Fin 3) * 64 + 64; omega

/-- The output array after the region's pipeline is the stacked dense layer of the two input arrays as the region
    finds them. -/
theorem final1 (c : Dev nD) :
    (dat1 V c).arrAt 2 cfg1.N = Cert.DenseSpec.denseStack (V c main_v106 : S3x100000x64.Idx → EReal) (V c main_v116 : S3x64x64.Idx → EReal) :=
  (dat1 V c).arrAt_eq_of_cover 2 _ (fun t _ => flushed1_eq V c t) cover1

end Cert.KernelIdeal.HandValue

end
-- ==== Proof.Spec.lean ====
/-
  What both programs compute, on the extended reals, as one function of the fourteen argument arrays.
  Nodes are users (rows 0 … 49999) stacked on items (rows 50000 … 99999). For a node table x : [100000, 64],
  the sparse product with the edge list (rows, cols, vals) is
      spmm x [n, j] = 0 + Σ over edges e with rows[e] = n of vals[e] · x[cols'[e], j],
  cols' being cols with a negative index wrapped once by 100000 (the host's gather and scatter-add, kept here as
  the host operations themselves: both programs spell this part identically). A layer is
      layer x w = leaky ((spmm x) · wᵀ)                      (Cert.DenseSpec.dense),
  a tower is two layers with the two 64×64 slices of a [2, 64, 64] weight array, and the result is
      fused = tower v Wv + tower a Wa + tower t Wt + uid,
  returned as its user half and its item half.
-/
import Idealize.ShloMosaic.PureOps
import Idealize.ShloMosaic.PureOps.Ideal
import proofs.«134491_j13245679141186_1_alg».proof.Proof.DenseSpec

noncomputable section

namespace Cert.Spec

open Idealize.ShloMosaic

abbrev S1600000 : Shape := ⟨1, ![1600000]⟩
abbrev S50000x64 : Shape := ⟨2, ![50000, 64]⟩
abbrev S2x64x64 : Shape := ⟨3, ![2, 64, 64]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x100000x64 : Shape := ⟨3, ![1, 100000, 64]⟩
abbrev S3x100000x64 : Shape := ⟨3, ![3, 100000, 64]⟩
abbrev S1x64x64 : Shape := ⟨3, ![1, 64, 64]⟩
abbrev S64x64 : Shape := ⟨2, ![64, 64]⟩
abbrev S3x64x64 : Shape := ⟨3, ![3, 64, 64]⟩

theorem cat_ok : Shape.Concatenates [S50000x64, S50000x64] S100000x64 0 := by decide
theorem b_e_e1 : S1600000.BroadcastsInDim S1600000x1 (![0] : Fin 1 → Fin S1600000x1.rank) := by decide
theorem b_s_e : S_.BroadcastsInDim S1600000 (![] : Fin 0 → Fin S1600000.rank) := by decide
theorem b_e1_ed : S1600000x1.BroadcastsInDim S1600000x64 (![0, 1] : Fin 2 → Fin S1600000x64.rank) := by decide
theorem b_s_nd : S_.BroadcastsInDim S100000x64 (![] : Fin 0 → Fin S100000x64.rank) := by decide
theorem b_nd_1nd : S100000x64.BroadcastsInDim S1x100000x64 (![1, 2] : Fin 2 → Fin S1x100000x64.rank) := by decide
theorem cat3_ok : Shape.Concatenates [S1x100000x64, S1x100000x64, S1x100000x64] S3x100000x64 0 := by decide
theorem sl_w (l : Nat) (h : l < 2) : S2x64x64.Slices ![l, 0, 0] S1x64x64 := by
  interval_cases l <;> decide
theorem sc_w : S1x64x64.ShapeCasts S64x64 := by decide
theorem b_w_1w : S64x64.BroadcastsInDim S1x64x64 (![1, 2] : Fin 2 → Fin S1x64x64.rank) := by decide
theorem cat3w_ok : Shape.Concatenates [S1x64x64, S1x64x64, S1x64x64] S3x64x64 0 := by decide
theorem sl_z (j : Nat) (h : j < 3) : S3x100000x64.Slices ![j, 0, 0] S1x100000x64 := by
  interval_cases j <;> decide
theorem sc_z : S1x100000x64.ShapeCasts S100000x64 := by decide
theorem sl_u : S100000x64.Slices ![0, 0] S50000x64 := by decide
theorem sl_i : S100000x64.Slices ![50000, 0] S50000x64 := by decide

/-- The host gather of whole rows of a [100000, 64] table by a column of 1600000 row numbers. -/
def gd : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := by decide
/-- The host scatter of 1600000 rows into a [100000, 64] table by a column of row numbers. -/
def sd : ScatterDims S100000x64 S1600000x1 S1600000x64 where
  updateWindowDims := [1]
  insertedWindowDims := [0]
  scatterDimsToOperandDims := [0]
  indexVectorDim := 1
  wf := by decide

/-- Users on top of items. -/
def cat (a b : FVec Ideal S50000x64 .f32) : FVec Ideal S100000x64 .f32 :=
  concatenate S100000x64 0 [⟨S50000x64, a⟩, ⟨S50000x64, b⟩] cat_ok

/-- The source-node column: a negative number wrapped once by the table's height, as a column. -/
def srcCol (cols : IVec S1600000 32) : IVec S1600000x1 32 :=
  broadcastInDim S1600000x1 ![0] b_e_e1
    (select (cmpi .slt cols (broadcastInDim S1600000 ![] b_s_e (constantI S_ 32 0#32)))
      (addi cols (broadcastInDim S1600000 ![] b_s_e (constantI S_ 32 100000#32))) cols)

/-- The sparse product: gather the source rows, scale each by its edge's value, add into the destination rows. -/
def spmm (rows cols : IVec S1600000 32) (vals : FVec Ideal S1600000 .f32) (x : FVec Ideal S100000x64 .f32) :
    FVec Ideal S100000x64 .f32 :=
  Host.scatterAdd sd (broadcastInDim S100000x64 ![] b_s_nd (constant S_ .f32 0x00000000#32))
    (broadcastInDim S1600000x1 ![0] b_e_e1 rows)
    (mulf (broadcastInDim S1600000x64 ![0, 1] b_e1_ed (broadcastInDim S1600000x1 ![0] b_e_e1 vals))
      (Host.gather gd x (srcCol cols)))

/-- Slice l of a [2, 64, 64] weight array as a 64 × 64 matrix. -/
def wl (l : Nat) (h : l < 2) (W : FVec Ideal S2x64x64 .f32) : FVec Ideal S64x64 .f32 :=
  shapeCast S64x64 (extractStridedSlice S1x64x64 ![l, 0, 0] W (sl_w l h)) sc_w

/-- Three node tables stacked along a new leading axis. -/
def stack (a0 a1 a2 : FVec Ideal S100000x64 .f32) : FVec Ideal S3x100000x64 .f32 :=
  concatenate S3x100000x64 0 [⟨S1x100000x64, broadcastInDim S1x100000x64 ![1, 2] b_nd_1nd a0⟩,
    ⟨S1x100000x64, broadcastInDim S1x100000x64 ![1, 2] b_nd_1nd a1⟩,
    ⟨S1x100000x64, broadcastInDim S1x100000x64 ![1, 2] b_nd_1nd a2⟩] cat3_ok
/-- Three weight matrices stacked along a new leading axis. -/
def stackW (w0 w1 w2 : FVec Ideal S64x64 .f32) : FVec Ideal S3x64x64 .f32 :=
  concatenate S3x64x64 0 [⟨S1x64x64, broadcastInDim S1x64x64 ![1, 2] b_w_1w w0⟩,
    ⟨S1x64x64, broadcastInDim S1x64x64 ![1, 2] b_w_1w w1⟩,
    ⟨S1x64x64, broadcastInDim S1x64x64 ![1, 2] b_w_1w w2⟩] cat3w_ok
/-- Table j of a stack. -/
def unstack (j : Nat) (h : j < 3) (z : FVec Ideal S3x100000x64 .f32) : FVec Ideal S100000x64 .f32 :=
  shapeCast S100000x64 (extractStridedSlice S1x100000x64 ![j, 0, 0] z (sl_z j h)) sc_z

/-- One layer of one modality. -/
def layer (rows cols : IVec S1600000 32) (vals : FVec Ideal S1600000 .f32) (x : FVec Ideal S100000x64 .f32)
    (w : FVec Ideal S64x64 .f32) : FVec Ideal S100000x64 .f32 :=
  Cert.DenseSpec.dense (spmm rows cols vals x) w

/-- Two layers of one modality, with the two slices of its weight array. -/
def tower (rows cols : IVec S1600000 32) (vals : FVec Ideal S1600000 .f32) (x : FVec Ideal S100000x64 .f32)
    (W : FVec Ideal S2x64x64 .f32) : FVec Ideal S100000x64 .f32 :=
  layer rows cols vals (layer rows cols vals x (wl 0 (by decide) W)) (wl 1 (by decide) W)

/-- The three towers and the id embeddings added. -/
def fused (rows cols : IVec S1600000 32) (vals : FVec Ideal S1600000 .f32) (uid v a t : FVec Ideal S100000x64 .f32)
    (Wv Wa Wt : FVec Ideal S2x64x64 .f32) : FVec Ideal S100000x64 .f32 :=
  addf (addf (addf (tower rows cols vals v Wv) (tower rows cols vals a Wa)) (tower rows cols vals t Wt)) uid

/-- The user half of a node table. -/
def users (y : FVec Ideal S100000x64 .f32) : FVec Ideal S50000x64 .f32 := extractStridedSlice S50000x64 ![0, 0] y sl_u
/-- The item half. -/
def items (y : FVec Ideal S100000x64 .f32) : FVec Ideal S50000x64 .f32 := extractStridedSlice S50000x64 ![50000, 0] y sl_i

/-- The fused node table as a function of the fourteen arguments, in the programs' order. -/
def result (rows cols : IVec S1600000 32) (vals : FVec Ideal S1600000 .f32)
    (uidU uidI vU aU tU vI aI tI : FVec Ideal S50000x64 .f32) (Wv Wa Wt : FVec Ideal S2x64x64 .f32) :
    FVec Ideal S100000x64 .f32 :=
  fused rows cols vals (cat uidU uidI) (cat vU vI) (cat aU aI) (cat tU tI) Wv Wa Wt

end Cert.Spec

end
-- ==== Proof.KIHost.lean ====
/-
  The kernel program's three stretches of host operations, read as the shared specification's operations of the
  buffers each stretch starts from: the first stretch builds the stack of the three sparse products and the stack of
  the first-layer weight matrices; the second unstacks the first dense layer's result, takes the sparse products again
  and stacks them with the second-layer weights; the last unstacks the second dense layer's result, adds the three
  tables and the id embeddings and returns the two halves.
-/
import proofs.«134491_j13245679141186_1_alg».proof.Proof.Gen.KernelIdeal.Launch
import proofs.«134491_j13245679141186_1_alg».proof.Proof.Spec
import Idealize.ShloMosaic.Lib.StableHlo.Run
import Idealize.ShloMosaic.Lib.Pipeline.Frame

set_option maxRecDepth 16384

noncomputable section

namespace Cert.KernelIdeal.HostValue

open Idealize.ShloMosaic Idealize.ShloMosaic.TcCoe Idealize.ShloMosaic.StableHlo
open Cert.KernelIdeal Cert.KernelIdeal.Gen

variable (V : Valuation τ sig (Elt Ideal))

/-- What a buffer holds after a literal list of host operations, each result read at its own reference, every
    shared intermediate visited once. -/
macro "host_results" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      nary_result_ne']))

/-- The same by rewriting, for a short list whose three-operand concatenate has already been read: the operands'
    contents sit in a list of (shape, contents) pairs, where only rewriting reaches them. -/
macro "host_results_rw" : tactic =>
  `(tactic| (repeat (first
      | rw [nullary_result] | rw [unary_result] | rw [reshape_result]
      | (rw [nullary_result_ne]; rotate_left; decide)
      | (rw [unary_result_ne]; rotate_left; decide)
      | (rw [reshape_result_ne]; rotate_left; decide))))

/-! ## The first stretch -/

set_option maxHeartbeats 1000000 in
/-- The id embeddings' table after the first stretch: users on top of items. -/
theorem uid_eq : StableHlo.after (hostOps0 (F := Ideal)) V (Proc.devRef .tc main_v0)
    = Cert.Spec.cat (V (Proc.devRef .tc main_arg3)) (V (Proc.devRef .tc main_arg4)) := by
  dsimp only [hostOps0]
  host_results
  rfl

set_option maxHeartbeats 1000000 in
/-- The end of the first stretch, from any contents `W`: the three sparse products, each given a leading axis of
    length one, concatenated along it. -/
theorem x0_tail (W : Valuation τ sig (Elt Ideal)) :
    StableHlo.after ((hostOps0 (F := Ideal)).drop 52) W (Proc.devRef .tc main_v46)
      = Cert.Spec.stack (W (Proc.devRef .tc main_v16)) (W (Proc.devRef .tc main_v29)) (W (Proc.devRef .tc main_v42)) := by
  simp only [hostOps0, List.drop_succ_cons, List.drop_zero]
  simp (disch := decide) only [after_cons, after_nil, unary_result_ne', reshape_result_ne', nary_result_ne']
  rw [nary_result]
  dsimp only [Matrix.cons_val]
  host_results_rw
  rfl

set_option maxHeartbeats 1000000 in
/-- The first dense layer's input stack: the sparse product of each modality's table. -/
theorem x0_eq : StableHlo.after (hostOps0 (F := Ideal)) V (Proc.devRef .tc main_v46)
    = Cert.Spec.stack (Cert.Spec.spmm (V (Proc.devRef .tc main_arg0)) (V (Proc.devRef .tc main_arg1)) (V (Proc.devRef .tc main_arg2)) (Cert.Spec.cat (V (Proc.devRef .tc main_arg5)) (V (Proc.devRef .tc main_arg8)))) (Cert.Spec.spmm (V (Proc.devRef .tc main_arg0)) (V (Proc.devRef .tc main_arg1)) (V (Proc.devRef .tc main_arg2)) (Cert.Spec.cat (V (Proc.devRef .tc main_arg6)) (V (Proc.devRef .tc main_arg9)))) (Cert.Spec.spmm (V (Proc.devRef .tc main_arg0)) (V (Proc.devRef .tc main_arg1)) (V (Proc.devRef .tc main_arg2)) (Cert.Spec.cat (V (Proc.devRef .tc main_arg7)) (V (Proc.devRef .tc main_arg10)))) := by
  have h16 : StableHlo.after ((hostOps0 (F := Ideal)).take 52) V (Proc.devRef .tc main_v16) = (Cert.Spec.spmm (V (Proc.devRef .tc main_arg0)) (V (Proc.devRef .tc main_arg1)) (V (Proc.devRef .tc main_arg2)) (Cert.Spec.cat (V (Proc.devRef .tc main_arg5)) (V (Proc.devRef .tc main_arg8)))) := by
    simp only [hostOps0, List.take_succ_cons, List.take_zero]
    host_results
    rfl
  have h29 : StableHlo.after ((hostOps0 (F := Ideal)).take 52) V (Proc.devRef .tc main_v29) = (Cert.Spec.spmm (V (Proc.devRef .tc main_arg0)) (V (Proc.devRef .tc main_arg1)) (V (Proc.devRef .tc main_arg2)) (Cert.Spec.cat (V (Proc.devRef .tc main_arg6)) (V (Proc.devRef .tc main_arg9)))) := by
    simp only [hostOps0, List.take_succ_cons, List.take_zero]
    host_results
    rfl
  have h42 : StableHlo.after ((hostOps0 (F := Ideal)).take 52) V (Proc.devRef .tc main_v42) = (Cert.Spec.spmm (V (Proc.devRef .tc main_arg0)) (V (Proc.devRef .tc main_arg1)) (V (Proc.devRef .tc main_arg2)) (Cert.Spec.cat (V (Proc.devRef .tc main_arg7)) (V (Proc.devRef .tc main_arg10)))) := by
    simp only [hostOps0, List.take_succ_cons, List.take_zero]
    host_results
    rfl
  rw [← List.take_append_drop 52 (hostOps0 (F := Ideal)), StableHlo.after_append, x0_tail, h16, h29, h42]

set_option maxHeartbeats 1000000 in
/-- The very end of the first stretch, from any contents `W`: slice 0 of each modality's weights as a matrix, given a
    leading axis of length one, concatenated along it. -/
theorem w0_tail (W : Valuation τ sig (Elt Ideal)) :
    StableHlo.after ((hostOps0 (F := Ideal)).drop 56) W (Proc.devRef .tc main_v56)
      = Cert.Spec.stackW (Cert.Spec.wl 0 (by decide) (W (Proc.devRef .tc main_arg11))) (Cert.Spec.wl 0 (by decide) (W (Proc.devRef .tc main_arg12))) (Cert.Spec.wl 0 (by decide) (W (Proc.devRef .tc main_arg13))) := by
  simp only [hostOps0, List.drop_succ_cons, List.drop_zero]
  simp only [after_cons, after_nil]
  rw [nary_result]
  dsimp only [Matrix.cons_val]
  host_results_rw
  rfl

set_option maxHeartbeats 1000000 in
/-- The first dense layer's weight stack: slice 0 of each modality's weights. -/
theorem w0_eq : StableHlo.after (hostOps0 (F := Ideal)) V (Proc.devRef .tc main_v56)
    = Cert.Spec.stackW (Cert.Spec.wl 0 (by decide) (V (Proc.devRef .tc main_arg11))) (Cert.Spec.wl 0 (by decide) (V (Proc.devRef .tc main_arg12))) (Cert.Spec.wl 0 (by decide) (V (Proc.devRef .tc main_arg13))) := by
  have h11 : StableHlo.after ((hostOps0 (F := Ideal)).take 56) V (Proc.devRef .tc main_arg11) = (V (Proc.devRef .tc main_arg11)) := by
    simp only [hostOps0, List.take_succ_cons, List.take_zero]
    host_results
  have h12 : StableHlo.after ((hostOps0 (F := Ideal)).take 56) V (Proc.devRef .tc main_arg12) = (V (Proc.devRef .tc main_arg12)) := by
    simp only [hostOps0, List.take_succ_cons, List.take_zero]
    host_results
  have h13 : StableHlo.after ((hostOps0 (F := Ideal)).take 56) V (Proc.devRef .tc main_arg13) = (V (Proc.devRef .tc main_arg13)) := by
    simp only [hostOps0, List.take_succ_cons, List.take_zero]
    host_results
  rw [← List.take_append_drop 56 (hostOps0 (F := Ideal)), StableHlo.after_append, w0_tail, h11, h12, h13]

/-! ## The second stretch -/

set_option maxHeartbeats 1000000 in
theorem x1_tail (W : Valuation τ sig (Elt Ideal)) :
    StableHlo.after ((hostOps1 (F := Ideal)).drop 54) W (Proc.devRef .tc main_v106)
      = Cert.Spec.stack (W (Proc.devRef .tc main_v76)) (W (Proc.devRef .tc main_v89)) (W (Proc.devRef .tc main_v102)) := by
  simp only [hostOps1, List.drop_succ_cons, List.drop_zero]
  simp (disch := decide) only [after_cons, after_nil, unary_result_ne', reshape_result_ne', nary_result_ne']
  rw [nary_result]
  dsimp only [Matrix.cons_val]
  host_results_rw
  rfl

set_option maxHeartbeats 1000000 in
/-- The second dense layer's input stack: the sparse product of each table of the first layer's result. -/
theorem x1_eq : StableHlo.after (hostOps1 (F := Ideal)) V (Proc.devRef .tc main_v106)
    = Cert.Spec.stack (Cert.Spec.spmm (V (Proc.devRef .tc main_arg0)) (V (Proc.devRef .tc main_arg1)) (V (Proc.devRef .tc main_arg2)) (Cert.Spec.unstack 0 (by decide) (V (Proc.devRef .tc main_v57)))) (Cert.Spec.spmm (V (Proc.devRef .tc main_arg0)) (V (Proc.devRef .tc main_arg1)) (V (Proc.devRef .tc main_arg2)) (Cert.Spec.unstack 1 (by decide) (V (Proc.devRef .tc main_v57)))) (Cert.Spec.spmm (V (Proc.devRef .tc main_arg0)) (V (Proc.devRef .tc main_arg1)) (V (Proc.devRef .tc main_arg2)) (Cert.Spec.unstack 2 (by decide) (V (Proc.devRef .tc main_v57)))) := by
  have h76 : StableHlo.after ((hostOps1 (F := Ideal)).take 54) V (Proc.devRef .tc main_v76) = (Cert.Spec.spmm (V (Proc.devRef .tc main_arg0)) (V (Proc.devRef .tc main_arg1)) (V (Proc.devRef .tc main_arg2)) (Cert.Spec.unstack 0 (by decide) (V (Proc.devRef .tc main_v57)))) := by
    simp only [hostOps1, List.take_succ_cons, List.take_zero]
    host_results
    rfl
  have h89 : StableHlo.after ((hostOps1 (F := Ideal)).take 54) V (Proc.devRef .tc main_v89) = (Cert.Spec.spmm (V (Proc.devRef .tc main_arg0)) (V (Proc.devRef .tc main_arg1)) (V (Proc.devRef .tc main_arg2)) (Cert.Spec.unstack 1 (by decide) (V (Proc.devRef .tc main_v57)))) := by
    simp only [hostOps1, List.take_succ_cons, List.take_zero]
    host_results
    rfl
  have h102 : StableHlo.after ((hostOps1 (F := Ideal)).take 54) V (Proc.devRef .tc main_v102) = (Cert.Spec.spmm (V (Proc.devRef .tc main_arg0)) (V (Proc.devRef .tc main_arg1)) (V (Proc.devRef .tc main_arg2)) (Cert.Spec.unstack 2 (by decide) (V (Proc.devRef .tc main_v57)))) := by
    simp only [hostOps1, List.take_succ_cons, List.take_zero]
    host_results
    rfl
  rw [← List.take_append_drop 54 (hostOps1 (F := Ideal)), StableHlo.after_append, x1_tail, h76, h89, h102]

set_option maxHeartbeats 1000000 in
theorem w1_tail (W : Valuation τ sig (Elt Ideal)) :
    StableHlo.after ((hostOps1 (F := Ideal)).drop 58) W (Proc.devRef .tc main_v116)
      = Cert.Spec.stackW (Cert.Spec.wl 1 (by decide) (W (Proc.devRef .tc main_arg11))) (Cert.Spec.wl 1 (by decide) (W (Proc.devRef .tc main_arg12))) (Cert.Spec.wl 1 (by decide) (W (Proc.devRef .tc main_arg13))) := by
  simp only [hostOps1, List.drop_succ_cons, List.drop_zero]
  simp only [after_cons, after_nil]
  rw [nary_result]
  dsimp only [Matrix.cons_val]
  host_results_rw
  rfl

set_option maxHeartbeats 1000000 in
/-- The second dense layer's weight stack: slice 1 of each modality's weights. -/
theorem w1_eq : StableHlo.after (hostOps1 (F := Ideal)) V (Proc.devRef .tc main_v116)
    = Cert.Spec.stackW (Cert.Spec.wl 1 (by decide) (V (Proc.devRef .tc main_arg11))) (Cert.Spec.wl 1 (by decide) (V (Proc.devRef .tc main_arg12))) (Cert.Spec.wl 1 (by decide) (V (Proc.devRef .tc main_arg13))) := by
  have h11 : StableHlo.after ((hostOps1 (F := Ideal)).take 58) V (Proc.devRef .tc main_arg11) = (V (Proc.devRef .tc main_arg11)) := by
    simp only [hostOps1, List.take_succ_cons, List.take_zero]
    host_results
  have h12 : StableHlo.after ((hostOps1 (F := Ideal)).take 58) V (Proc.devRef .tc main_arg12) = (V (Proc.devRef .tc main_arg12)) := by
    simp only [hostOps1, List.take_succ_cons, List.take_zero]
    host_results
  have h13 : StableHlo.after ((hostOps1 (F := Ideal)).take 58) V (Proc.devRef .tc main_arg13) = (V (Proc.devRef .tc main_arg13)) := by
    simp only [hostOps1, List.take_succ_cons, List.take_zero]
    host_results
  rw [← List.take_append_drop 58 (hostOps1 (F := Ideal)), StableHlo.after_append, w1_tail, h11, h12, h13]

/-! ## The last stretch -/

set_option maxHeartbeats 1000000 in
/-- The user half of the result: the three tables of the second layer's result and the id embeddings added. -/
theorem tail0_eq : StableHlo.after (hostOps2 (F := Ideal)) V (Proc.devRef .tc main_v127)
    = Cert.Spec.users (addf (addf (addf (Cert.Spec.unstack 0 (by decide) (V (Proc.devRef .tc main_v117))) (Cert.Spec.unstack 1 (by decide) (V (Proc.devRef .tc main_v117)))) (Cert.Spec.unstack 2 (by decide) (V (Proc.devRef .tc main_v117)))) (V (Proc.devRef .tc main_v0))) := by
  dsimp only [hostOps2]
  host_results
  rfl

set_option maxHeartbeats 1000000 in
/-- The item half of the result. -/
theorem tail1_eq : StableHlo.after (hostOps2 (F := Ideal)) V (Proc.devRef .tc main_v128)
    = Cert.Spec.items (addf (addf (addf (Cert.Spec.unstack 0 (by decide) (V (Proc.devRef .tc main_v117))) (Cert.Spec.unstack 1 (by decide) (V (Proc.devRef .tc main_v117)))) (Cert.Spec.unstack 2 (by decide) (V (Proc.devRef .tc main_v117)))) (V (Proc.devRef .tc main_v0))) := by
  dsimp only [hostOps2]
  host_results
  rfl

end Cert.KernelIdeal.HostValue

end
-- ==== Proof.LibDenseStack.lean ====
/-
  A stack of three matrices along a new leading axis, the member matrices taken back out of a stack, and the dense
  layer  out[r, e] = leaky (Σ_c s[r, c] · w[e, c])  in the two spellings that meet here: one product over the whole stack
  (three modalities at once), and one product per modality on its own matrices. Read index by index on the extended
  reals: stacking then taking member j back is the identity, so member j of the stacked layer is the layer of member j.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«134491_j13245679141186_1_alg».proof.Proof.DenseSpec
import proofs.«134491_j13245679141186_1_alg».proof.Proof.LibTransposedDot

noncomputable section

namespace Cert.LibDenseStack

open Idealize.ShloMosaic Idealize.ShloMosaic.ValueIdx

/-! ## Stacking: three matrices laid along a new leading axis -/

section Stack
variable {α : Type}

/-- A matrix given a leading unit axis reads, at (u, r, c), the matrix at (r, c). -/
theorem addLeadingAxis_apply {a b : ℕ} (x : (⟨2, ![a, b]⟩ : Shape).Idx → α)
    (hb : (⟨2, ![a, b]⟩ : Shape).BroadcastsInDim ⟨3, ![1, a, b]⟩ ![1, 2]) (u : Fin 1) (r : Fin a) (c : Fin b) :
    broadcastInDim ⟨3, ![1, a, b]⟩ ![1, 2] hb x (ix3 u r c) = x (ix2 r c) := by
  refine broadcastInDim_apply _ hb x (ix3 u r c) (ix2 r c) fun ax => ?_
  match ax with
  | ⟨0, _⟩ =>
    show r.val = if a = 1 then 0 else r.val
    split
    · have := r.isLt; omega
    · rfl
  | ⟨1, _⟩ =>
    show c.val = if b = 1 then 0 else c.val
    split
    · have := c.isLt; omega
    · rfl

/-- Three [1, a, b] pieces laid end to end along the leading axis read, at (mo, r, c), piece mo at (0, r, c). -/
theorem concat3_apply {a b : ℕ} (p0 p1 p2 : (⟨3, ![1, a, b]⟩ : Shape).Idx → α)
    (hc : Shape.Concatenates [⟨3, ![1, a, b]⟩, ⟨3, ![1, a, b]⟩, ⟨3, ![1, a, b]⟩] ⟨3, ![3, a, b]⟩ 0)
    (mo : Fin 3) (r : Fin a) (c : Fin b) :
    concatenate ⟨3, ![3, a, b]⟩ 0 [⟨⟨3, ![1, a, b]⟩, p0⟩, ⟨⟨3, ![1, a, b]⟩, p1⟩, ⟨⟨3, ![1, a, b]⟩, p2⟩] hc (ix3 mo r c)
      = (![p0, p1, p2] mo) (ix3 (0 : Fin 1) r c) := by
  have hi : ∀ b' : Fin 3, b' ≠ 0 → ((ix3 (0 : Fin 1) r c) b').val = ((ix3 mo r c) b').val := fun b' hb' =>
    match b', hb' with
    | ⟨0, _⟩, h => absurd rfl h
    | ⟨1, _⟩, _ => rfl
    | ⟨2, _⟩, _ => rfl
  match mo with
  | ⟨0, _⟩ =>
    exact concatenate_apply_piece (t := ⟨3, ![3, a, b]⟩) (0 : Fin 3)
      [⟨⟨3, ![1, a, b]⟩, p0⟩, ⟨⟨3, ![1, a, b]⟩, p1⟩, ⟨⟨3, ![1, a, b]⟩, p2⟩] hc _ 0 (show 0 < 3 by omega) ⟨3, ![1, a, b]⟩ p0 rfl rfl 0 rfl (ix3 (0 : Fin 1) r c) hi rfl
  | ⟨1, _⟩ =>
    exact concatenate_apply_piece (t := ⟨3, ![3, a, b]⟩) (0 : Fin 3)
      [⟨⟨3, ![1, a, b]⟩, p0⟩, ⟨⟨3, ![1, a, b]⟩, p1⟩, ⟨⟨3, ![1, a, b]⟩, p2⟩] hc _ 1 (show 1 < 3 by omega) ⟨3, ![1, a, b]⟩ p1 rfl rfl 1 rfl (ix3 (0 : Fin 1) r c) hi rfl
  | ⟨2, _⟩ =>
    exact concatenate_apply_piece (t := ⟨3, ![3, a, b]⟩) (0 : Fin 3)
      [⟨⟨3, ![1, a, b]⟩, p0⟩, ⟨⟨3, ![1, a, b]⟩, p1⟩, ⟨⟨3, ![1, a, b]⟩, p2⟩] hc _ 2 (show 2 < 3 by omega) ⟨3, ![1, a, b]⟩ p2 rfl rfl 2 rfl (ix3 (0 : Fin 1) r c) hi rfl

/-- The stack of three matrices reads, at (mo, r, c), matrix mo at (r, c). -/
theorem stack3_apply {a b : ℕ} (x0 x1 x2 : (⟨2, ![a, b]⟩ : Shape).Idx → α)
    (hb : (⟨2, ![a, b]⟩ : Shape).BroadcastsInDim ⟨3, ![1, a, b]⟩ ![1, 2])
    (hc : Shape.Concatenates [⟨3, ![1, a, b]⟩, ⟨3, ![1, a, b]⟩, ⟨3, ![1, a, b]⟩] ⟨3, ![3, a, b]⟩ 0)
    (mo : Fin 3) (r : Fin a) (c : Fin b) :
    concatenate ⟨3, ![3, a, b]⟩ 0 [⟨⟨3, ![1, a, b]⟩, broadcastInDim ⟨3, ![1, a, b]⟩ ![1, 2] hb x0⟩,
        ⟨⟨3, ![1, a, b]⟩, broadcastInDim ⟨3, ![1, a, b]⟩ ![1, 2] hb x1⟩,
        ⟨⟨3, ![1, a, b]⟩, broadcastInDim ⟨3, ![1, a, b]⟩ ![1, 2] hb x2⟩] hc (ix3 mo r c)
      = (![x0, x1, x2] mo) (ix2 r c) := by
  rw [concat3_apply]
  match mo with
  | ⟨0, _⟩ => exact addLeadingAxis_apply x0 hb 0 r c
  | ⟨1, _⟩ => exact addLeadingAxis_apply x1 hb 0 r c
  | ⟨2, _⟩ => exact addLeadingAxis_apply x2 hb 0 r c

/-! ## Taking a member matrix out of a stack -/

/-- Member j of a stack of n matrices — the [1, a, b] slab at offset j on the leading axis, its unit axis dropped —
    reads, at (r, e), the stack at (j, r, e); the leading coordinate is any k whose value is j. -/
theorem member_apply {n a b : ℕ} (j : ℕ) (k : Fin n) (hk : k.val = j) (z : (⟨3, ![n, a, b]⟩ : Shape).Idx → α)
    (hs : (⟨3, ![n, a, b]⟩ : Shape).Slices ![j, 0, 0] ⟨3, ![1, a, b]⟩)
    (hsc : (⟨3, ![1, a, b]⟩ : Shape).ShapeCasts ⟨2, ![a, b]⟩) (r : Fin a) (e : Fin b) :
    shapeCast ⟨2, ![a, b]⟩ (extractStridedSlice ⟨3, ![1, a, b]⟩ ![j, 0, 0] z hs) hsc (ix2 r e)
      = z (ix3 k r e) := by
  rw [shapeCast_1ab_ab_apply]
  refine extractStridedSlice_apply _ z hs _ _ fun ax => ?_
  match ax with
  | ⟨0, _⟩ => show k.val = j + 0; omega
  | ⟨1, _⟩ => show r.val = 0 + r.val; omega
  | ⟨2, _⟩ => show e.val = 0 + e.val; omega

end Stack

/-! ## One modality's layer as the host spells it -/

/-- The host's product of A (m×k) with B (n×k), both contracted on their last axis, at (a, b): Σ_c A[a, c] · B[b, c],
    whatever the precision and the schedule. -/
theorem dotGeneral_transposedRhs_apply {m k n : Nat} {φ₁ φ₂ : FTy} (d : DotDims ⟨2, ![m, k]⟩ ⟨2, ![n, k]⟩ ⟨2, ![m, n]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (sched : HostSchedule) (A : FVec Ideal ⟨2, ![m, k]⟩ φ₁) (B : FVec Ideal ⟨2, ![n, k]⟩ φ₂)
    (a : Fin m) (b : Fin n) :
    FloatOps.dotGeneral d prec sched A B (ix2 a b) = ∑ c : Fin k, A (ix2 a c) * B (ix2 b c) := by
  rw [Cert.LibTransposedDot.eq_transposedRhs d h1 h2 h3 h4 h5 h6, Ideal.dotGeneral_apply]
  exact Cert.LibTransposedDot.transposedRhs_sum A B a b

/-- Choosing y where y ≥ 0 and slope · y elsewhere is the leaky rectifier: at y = 0 both branches are 0. -/
theorem select_oge_leaky (y : EReal) :
    Scalar.select (Ideal.cmp .oge y (Ideal.ofBits .f32 0x00000000#32)) y (Ideal.ofBits .f32 0x3E4CCCCD#32 * y)
      = Cert.DenseSpec.leaky y := by
  rw [Cert.DenseSpec.leaky_eq_ge, Ideal.ofBits_zero_f32]
  unfold Cert.DenseSpec.slope Ideal.cmp Scalar.select
  by_cases h : 0 ≤ y
  · simp [h]
  · simp [h]

/-- The host's leaky rectifier of an array of any shape — the mask y ≥ 0 against a broadcast 0, the product of the
    broadcast slope with y, the choice between y and the product — is, at every index, leaky of y there. -/
theorem hostLeaky_apply {s : Shape} (hb : (⟨0, ![]⟩ : Shape).BroadcastsInDim s ![]) (y : FVec Ideal s .f32) (i : s.Idx) :
    select (cmpf .oge y (broadcastInDim s ![] hb (constant (F := Ideal) ⟨0, ![]⟩ .f32 0x00000000#32))) y
        (mulf (broadcastInDim s ![] hb (id (constant (F := Ideal) ⟨0, ![]⟩ .f32 0x3E4CCCCD#32))) y) i
      = Cert.DenseSpec.leaky (y i) := by
  rw [select_apply, cmpf_apply, mulf_apply, broadcastInDim_scalar_apply, broadcastInDim_scalar_apply]
  exact select_oge_leaky (y i)

/-- One modality's dense layer as the host computes it: the product of s (100000×64) with w (64×64) along the rows of
    both, then the host's leaky rectifier. -/
def hostDense (d : DotDims ⟨2, ![100000, 64]⟩ ⟨2, ![64, 64]⟩ ⟨2, ![100000, 64]⟩) (prec : Option ContractPrecision)
    (sched : HostSchedule) (hb : (⟨0, ![]⟩ : Shape).BroadcastsInDim ⟨2, ![100000, 64]⟩ ![])
    (s : FVec Ideal ⟨2, ![100000, 64]⟩ .f32) (w : FVec Ideal ⟨2, ![64, 64]⟩ .f32) : FVec Ideal ⟨2, ![100000, 64]⟩ .f32 :=
  select (cmpf .oge (FloatOps.dotGeneral d prec sched s w)
      (broadcastInDim ⟨2, ![100000, 64]⟩ ![] hb (constant (F := Ideal) ⟨0, ![]⟩ .f32 0x00000000#32)))
    (FloatOps.dotGeneral d prec sched s w)
    (mulf (broadcastInDim ⟨2, ![100000, 64]⟩ ![] hb (id (constant (F := Ideal) ⟨0, ![]⟩ .f32 0x3E4CCCCD#32)))
      (FloatOps.dotGeneral d prec sched s w))

/-- The host's spelling of one modality's layer is the specification's: out[r, e] = leaky (Σ_c s[r, c] · w[e, c]). -/
theorem hostDense_eq_dense (d : DotDims ⟨2, ![100000, 64]⟩ ⟨2, ![64, 64]⟩ ⟨2, ![100000, 64]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (sched : HostSchedule)
    (hb : (⟨0, ![]⟩ : Shape).BroadcastsInDim ⟨2, ![100000, 64]⟩ ![])
    (s : FVec Ideal ⟨2, ![100000, 64]⟩ .f32) (w : FVec Ideal ⟨2, ![64, 64]⟩ .f32) :
    hostDense d prec sched hb s w = Cert.DenseSpec.dense s w := by
  funext i
  obtain ⟨r, e, rfl⟩ : ∃ (r : Fin 100000) (e : Fin 64), i = ix2 r e := ⟨i 0, i 1, eq_ix2 i⟩
  unfold hostDense
  rw [hostLeaky_apply, dotGeneral_transposedRhs_apply d h1 h2 h3 h4 h5 h6, Cert.DenseSpec.dense_apply]

/-! ## The join: member j of the stacked layer is the layer of member j -/

/-- Member j (j = 0, 1, 2) of the dense layer applied to the stack of three node matrices and the stack of three weight
    matrices is the dense layer of node matrix j with weight matrix j. -/
theorem member_denseStack (a0 a1 a2 : (⟨2, ![100000, 64]⟩ : Shape).Idx → EReal) (w0 w1 w2 : (⟨2, ![64, 64]⟩ : Shape).Idx → EReal)
    (hba : (⟨2, ![100000, 64]⟩ : Shape).BroadcastsInDim ⟨3, ![1, 100000, 64]⟩ ![1, 2])
    (hca : Shape.Concatenates [⟨3, ![1, 100000, 64]⟩, ⟨3, ![1, 100000, 64]⟩, ⟨3, ![1, 100000, 64]⟩] ⟨3, ![3, 100000, 64]⟩ 0)
    (hbw : (⟨2, ![64, 64]⟩ : Shape).BroadcastsInDim ⟨3, ![1, 64, 64]⟩ ![1, 2])
    (hcw : Shape.Concatenates [⟨3, ![1, 64, 64]⟩, ⟨3, ![1, 64, 64]⟩, ⟨3, ![1, 64, 64]⟩] ⟨3, ![3, 64, 64]⟩ 0)
    (j : ℕ) (k : Fin 3) (hk : k.val = j) (hs : (⟨3, ![3, 100000, 64]⟩ : Shape).Slices ![j, 0, 0] ⟨3, ![1, 100000, 64]⟩)
    (hsc : (⟨3, ![1, 100000, 64]⟩ : Shape).ShapeCasts ⟨2, ![100000, 64]⟩) :
    shapeCast ⟨2, ![100000, 64]⟩ (extractStridedSlice ⟨3, ![1, 100000, 64]⟩ ![j, 0, 0]
        (Cert.DenseSpec.denseStack
          (concatenate ⟨3, ![3, 100000, 64]⟩ 0 [⟨⟨3, ![1, 100000, 64]⟩, broadcastInDim ⟨3, ![1, 100000, 64]⟩ ![1, 2] hba a0⟩,
            ⟨⟨3, ![1, 100000, 64]⟩, broadcastInDim ⟨3, ![1, 100000, 64]⟩ ![1, 2] hba a1⟩,
            ⟨⟨3, ![1, 100000, 64]⟩, broadcastInDim ⟨3, ![1, 100000, 64]⟩ ![1, 2] hba a2⟩] hca)
          (concatenate ⟨3, ![3, 64, 64]⟩ 0 [⟨⟨3, ![1, 64, 64]⟩, broadcastInDim ⟨3, ![1, 64, 64]⟩ ![1, 2] hbw w0⟩,
            ⟨⟨3, ![1, 64, 64]⟩, broadcastInDim ⟨3, ![1, 64, 64]⟩ ![1, 2] hbw w1⟩,
            ⟨⟨3, ![1, 64, 64]⟩, broadcastInDim ⟨3, ![1, 64, 64]⟩ ![1, 2] hbw w2⟩] hcw)) hs) hsc
      = Cert.DenseSpec.dense (![a0, a1, a2] k) (![w0, w1, w2] k) := by
  funext i
  obtain ⟨r, e, rfl⟩ : ∃ (r : Fin 100000) (e : Fin 64), i = ix2 r e := ⟨i 0, i 1, eq_ix2 i⟩
  rw [member_apply j k hk, Cert.DenseSpec.denseStack_apply, Cert.DenseSpec.dense_apply]
  refine congrArg _ (Finset.sum_congr rfl fun c _ => ?_)
  rw [stack3_apply a0 a1 a2 hba hca k r c, stack3_apply w0 w1 w2 hbw hcw k e c]

/-- Member 0 of the stacked layer is the layer of node matrix 0 with weight matrix 0. -/
theorem member0_denseStack (a0 a1 a2 : (⟨2, ![100000, 64]⟩ : Shape).Idx → EReal) (w0 w1 w2 : (⟨2, ![64, 64]⟩ : Shape).Idx → EReal)
    (hba : (⟨2, ![100000, 64]⟩ : Shape).BroadcastsInDim ⟨3, ![1, 100000, 64]⟩ ![1, 2])
    (hca : Shape.Concatenates [⟨3, ![1, 100000, 64]⟩, ⟨3, ![1, 100000, 64]⟩, ⟨3, ![1, 100000, 64]⟩] ⟨3, ![3, 100000, 64]⟩ 0)
    (hbw : (⟨2, ![64, 64]⟩ : Shape).BroadcastsInDim ⟨3, ![1, 64, 64]⟩ ![1, 2])
    (hcw : Shape.Concatenates [⟨3, ![1, 64, 64]⟩, ⟨3, ![1, 64, 64]⟩, ⟨3, ![1, 64, 64]⟩] ⟨3, ![3, 64, 64]⟩ 0)
    (hs : (⟨3, ![3, 100000, 64]⟩ : Shape).Slices ![0, 0, 0] ⟨3, ![1, 100000, 64]⟩)
    (hsc : (⟨3, ![1, 100000, 64]⟩ : Shape).ShapeCasts ⟨2, ![100000, 64]⟩) :
    shapeCast ⟨2, ![100000, 64]⟩ (extractStridedSlice ⟨3, ![1, 100000, 64]⟩ ![0, 0, 0]
        (Cert.DenseSpec.denseStack
          (concatenate ⟨3, ![3, 100000, 64]⟩ 0 [⟨⟨3, ![1, 100000, 64]⟩, broadcastInDim ⟨3, ![1, 100000, 64]⟩ ![1, 2] hba a0⟩,
            ⟨⟨3, ![1, 100000, 64]⟩, broadcastInDim ⟨3, ![1, 100000, 64]⟩ ![1, 2] hba a1⟩,
            ⟨⟨3, ![1, 100000, 64]⟩, broadcastInDim ⟨3, ![1, 100000, 64]⟩ ![1, 2] hba a2⟩] hca)
          (concatenate ⟨3, ![3, 64, 64]⟩ 0 [⟨⟨3, ![1, 64, 64]⟩, broadcastInDim ⟨3, ![1, 64, 64]⟩ ![1, 2] hbw w0⟩,
            ⟨⟨3, ![1, 64, 64]⟩, broadcastInDim ⟨3, ![1, 64, 64]⟩ ![1, 2] hbw w1⟩,
            ⟨⟨3, ![1, 64, 64]⟩, broadcastInDim ⟨3, ![1, 64, 64]⟩ ![1, 2] hbw w2⟩] hcw)) hs) hsc
      = Cert.DenseSpec.dense a0 w0 :=
  member_denseStack a0 a1 a2 w0 w1 w2 hba hca hbw hcw 0 0 rfl hs hsc

/-- Member 1 of the stacked layer is the layer of node matrix 1 with weight matrix 1. -/
theorem member1_denseStack (a0 a1 a2 : (⟨2, ![100000, 64]⟩ : Shape).Idx → EReal) (w0 w1 w2 : (⟨2, ![64, 64]⟩ : Shape).Idx → EReal)
    (hba : (⟨2, ![100000, 64]⟩ : Shape).BroadcastsInDim ⟨3, ![1, 100000, 64]⟩ ![1, 2])
    (hca : Shape.Concatenates [⟨3, ![1, 100000, 64]⟩, ⟨3, ![1, 100000, 64]⟩, ⟨3, ![1, 100000, 64]⟩] ⟨3, ![3, 100000, 64]⟩ 0)
    (hbw : (⟨2, ![64, 64]⟩ : Shape).BroadcastsInDim ⟨3, ![1, 64, 64]⟩ ![1, 2])
    (hcw : Shape.Concatenates [⟨3, ![1, 64, 64]⟩, ⟨3, ![1, 64, 64]⟩, ⟨3, ![1, 64, 64]⟩] ⟨3, ![3, 64, 64]⟩ 0)
    (hs : (⟨3, ![3, 100000, 64]⟩ : Shape).Slices ![1, 0, 0] ⟨3, ![1, 100000, 64]⟩)
    (hsc : (⟨3, ![1, 100000, 64]⟩ : Shape).ShapeCasts ⟨2, ![100000, 64]⟩) :
    shapeCast ⟨2, ![100000, 64]⟩ (extractStridedSlice ⟨3, ![1, 100000, 64]⟩ ![1, 0, 0]
        (Cert.DenseSpec.denseStack
          (concatenate ⟨3, ![3, 100000, 64]⟩ 0 [⟨⟨3, ![1, 100000, 64]⟩, broadcastInDim ⟨3, ![1, 100000, 64]⟩ ![1, 2] hba a0⟩,
            ⟨⟨3, ![1, 100000, 64]⟩, broadcastInDim ⟨3, ![1, 100000, 64]⟩ ![1, 2] hba a1⟩,
            ⟨⟨3, ![1, 100000, 64]⟩, broadcastInDim ⟨3, ![1, 100000, 64]⟩ ![1, 2] hba a2⟩] hca)
          (concatenate ⟨3, ![3, 64, 64]⟩ 0 [⟨⟨3, ![1, 64, 64]⟩, broadcastInDim ⟨3, ![1, 64, 64]⟩ ![1, 2] hbw w0⟩,
            ⟨⟨3, ![1, 64, 64]⟩, broadcastInDim ⟨3, ![1, 64, 64]⟩ ![1, 2] hbw w1⟩,
            ⟨⟨3, ![1, 64, 64]⟩, broadcastInDim ⟨3, ![1, 64, 64]⟩ ![1, 2] hbw w2⟩] hcw)) hs) hsc
      = Cert.DenseSpec.dense a1 w1 :=
  member_denseStack a0 a1 a2 w0 w1 w2 hba hca hbw hcw 1 1 rfl hs hsc

/-- Member 2 of the stacked layer is the layer of node matrix 2 with weight matrix 2. -/
theorem member2_denseStack (a0 a1 a2 : (⟨2, ![100000, 64]⟩ : Shape).Idx → EReal) (w0 w1 w2 : (⟨2, ![64, 64]⟩ : Shape).Idx → EReal)
    (hba : (⟨2, ![100000, 64]⟩ : Shape).BroadcastsInDim ⟨3, ![1, 100000, 64]⟩ ![1, 2])
    (hca : Shape.Concatenates [⟨3, ![1, 100000, 64]⟩, ⟨3, ![1, 100000, 64]⟩, ⟨3, ![1, 100000, 64]⟩] ⟨3, ![3, 100000, 64]⟩ 0)
    (hbw : (⟨2, ![64, 64]⟩ : Shape).BroadcastsInDim ⟨3, ![1, 64, 64]⟩ ![1, 2])
    (hcw : Shape.Concatenates [⟨3, ![1, 64, 64]⟩, ⟨3, ![1, 64, 64]⟩, ⟨3, ![1, 64, 64]⟩] ⟨3, ![3, 64, 64]⟩ 0)
    (hs : (⟨3, ![3, 100000, 64]⟩ : Shape).Slices ![2, 0, 0] ⟨3, ![1, 100000, 64]⟩)
    (hsc : (⟨3, ![1, 100000, 64]⟩ : Shape).ShapeCasts ⟨2, ![100000, 64]⟩) :
    shapeCast ⟨2, ![100000, 64]⟩ (extractStridedSlice ⟨3, ![1, 100000, 64]⟩ ![2, 0, 0]
        (Cert.DenseSpec.denseStack
          (concatenate ⟨3, ![3, 100000, 64]⟩ 0 [⟨⟨3, ![1, 100000, 64]⟩, broadcastInDim ⟨3, ![1, 100000, 64]⟩ ![1, 2] hba a0⟩,
            ⟨⟨3, ![1, 100000, 64]⟩, broadcastInDim ⟨3, ![1, 100000, 64]⟩ ![1, 2] hba a1⟩,
            ⟨⟨3, ![1, 100000, 64]⟩, broadcastInDim ⟨3, ![1, 100000, 64]⟩ ![1, 2] hba a2⟩] hca)
          (concatenate ⟨3, ![3, 64, 64]⟩ 0 [⟨⟨3, ![1, 64, 64]⟩, broadcastInDim ⟨3, ![1, 64, 64]⟩ ![1, 2] hbw w0⟩,
            ⟨⟨3, ![1, 64, 64]⟩, broadcastInDim ⟨3, ![1, 64, 64]⟩ ![1, 2] hbw w1⟩,
            ⟨⟨3, ![1, 64, 64]⟩, broadcastInDim ⟨3, ![1, 64, 64]⟩ ![1, 2] hbw w2⟩] hcw)) hs) hsc
      = Cert.DenseSpec.dense a2 w2 :=
  member_denseStack a0 a1 a2 w0 w1 w2 hba hca hbw hcw 2 2 rfl hs hsc

end Cert.LibDenseStack

end
-- ==== Proof.KIValue.lean ====
/-
  The kernel program's two results as the shared specification of its fourteen arguments, on the extended reals.
  The fold through @main is read boundary by boundary: the first stretch of host operations leaves the stack of the
  three sparse products and the first-layer weights; the first dense layer writes the stacked dense layer of them;
  the second stretch unstacks it — each member is that modality's own dense layer —, takes the sparse products again
  and stacks them with the second-layer weights; the second dense layer writes the stacked dense layer of those; the
  last stretch unstacks, adds the three towers and the id embeddings, and returns the two halves.
-/
import proofs.«134491_j13245679141186_1_alg».proof.Proof.KIFrame
import proofs.«134491_j13245679141186_1_alg».proof.Proof.KIBlocks
import proofs.«134491_j13245679141186_1_alg».proof.Proof.KIHost
import proofs.«134491_j13245679141186_1_alg».proof.Proof.LibDenseStack
import proofs.«134491_j13245679141186_1_alg».proof.Proof.Spec

set_option maxRecDepth 16384

noncomputable section

namespace Cert.KernelIdeal.RunValue

open Idealize.ShloMosaic Idealize.ShloMosaic.TcCoe
open Idealize.SL Idealize.SL.Sem
open Cert.KernelIdeal Cert.KernelIdeal.Gen Cert.KernelIdeal.Run Cert.KernelIdeal.Hand Cert.KernelIdeal.HandValue
open Cert.KernelIdeal.HostValue

/-- Member 0 of the stacked dense layer of three stacked tables is the first table's own dense layer. -/
theorem unstack0_dense (a0 a1 a2 : FVec Ideal Cert.Spec.S100000x64 .f32) (w0 w1 w2 : FVec Ideal Cert.Spec.S64x64 .f32) :
    Cert.Spec.unstack 0 (by decide) (Cert.DenseSpec.denseStack (Cert.Spec.stack a0 a1 a2) (Cert.Spec.stackW w0 w1 w2))
      = Cert.DenseSpec.dense a0 w0 :=
  Cert.LibDenseStack.member0_denseStack a0 a1 a2 w0 w1 w2 _ _ _ _ _ _
/-- Member 1 is the second table's. -/
theorem unstack1_dense (a0 a1 a2 : FVec Ideal Cert.Spec.S100000x64 .f32) (w0 w1 w2 : FVec Ideal Cert.Spec.S64x64 .f32) :
    Cert.Spec.unstack 1 (by decide) (Cert.DenseSpec.denseStack (Cert.Spec.stack a0 a1 a2) (Cert.Spec.stackW w0 w1 w2))
      = Cert.DenseSpec.dense a1 w1 :=
  Cert.LibDenseStack.member1_denseStack a0 a1 a2 w0 w1 w2 _ _ _ _ _ _
/-- Member 2 is the third table's. -/
theorem unstack2_dense (a0 a1 a2 : FVec Ideal Cert.Spec.S100000x64 .f32) (w0 w1 w2 : FVec Ideal Cert.Spec.S64x64 .f32) :
    Cert.Spec.unstack 2 (by decide) (Cert.DenseSpec.denseStack (Cert.Spec.stack a0 a1 a2) (Cert.Spec.stackW w0 w1 w2))
      = Cert.DenseSpec.dense a2 w2 :=
  Cert.LibDenseStack.member2_denseStack a0 a1 a2 w0 w1 w2 _ _ _ _ _ _

variable (m : (ℓ : Loc nD τ sig) → Buf (Elt Ideal) ℓ) (ρ : Dev nD → PrngReg) (c : Dev nD)

/-- The sparse product with the launch memory's edge list. -/
abbrev SP (x : FVec Ideal Cert.Spec.S100000x64 .f32) : FVec Ideal Cert.Spec.S100000x64 .f32 :=
  Cert.Spec.spmm (m ((c : Thread nD τ).loc main_arg0)) (m ((c : Thread nD τ).loc main_arg1)) (m ((c : Thread nD τ).loc main_arg2)) x

/-- What the first dense layer writes: the stacked dense layer of the three sparse products with the first-layer weights. -/
theorem z1_eq : W2 m ρ c (Proc.devRef .tc main_v57)
    = Cert.DenseSpec.denseStack
        (Cert.Spec.stack
          (SP m c (Cert.Spec.cat (m ((c : Thread nD τ).loc main_arg5)) (m ((c : Thread nD τ).loc main_arg8))))
          (SP m c (Cert.Spec.cat (m ((c : Thread nD τ).loc main_arg6)) (m ((c : Thread nD τ).loc main_arg9))))
          (SP m c (Cert.Spec.cat (m ((c : Thread nD τ).loc main_arg7)) (m ((c : Thread nD τ).loc main_arg10)))))
        (Cert.Spec.stackW (Cert.Spec.wl 0 (by decide) (m ((c : Thread nD τ).loc main_arg11)))
          (Cert.Spec.wl 0 (by decide) (m ((c : Thread nD τ).loc main_arg12)))
          (Cert.Spec.wl 0 (by decide) (m ((c : Thread nD τ).loc main_arg13)))) := by
  refine (W2_arr m ρ c 2).trans ((final0 (V1 m ρ) c).trans ?_)
  rw [show (V1 m ρ c main_v46) = _ from x0_eq (W0 m ρ c), show (V1 m ρ c main_v56) = _ from w0_eq (W0 m ρ c)]

/-- The first dense layer's result, named. -/
abbrev Z1 : FVec Ideal Cert.Spec.S3x100000x64 .f32 := W2 m ρ c (Proc.devRef .tc main_v57)

/-- What the second dense layer writes: the stacked dense layer of the sparse products of the first layer's three
    members with the second-layer weights. -/
theorem z2_eq : W4 m ρ c (Proc.devRef .tc main_v117)
    = Cert.DenseSpec.denseStack
        (Cert.Spec.stack
          (SP m c (Cert.Spec.unstack 0 (by decide) (Z1 m ρ c)))
          (SP m c (Cert.Spec.unstack 1 (by decide) (Z1 m ρ c)))
          (SP m c (Cert.Spec.unstack 2 (by decide) (Z1 m ρ c))))
        (Cert.Spec.stackW (Cert.Spec.wl 1 (by decide) (m ((c : Thread nD τ).loc main_arg11)))
          (Cert.Spec.wl 1 (by decide) (m ((c : Thread nD τ).loc main_arg12)))
          (Cert.Spec.wl 1 (by decide) (m ((c : Thread nD τ).loc main_arg13)))) := by
  refine (W4_arr m ρ c 2).trans ((final1 (V3 m ρ) c).trans ?_)
  rw [show (V3 m ρ c main_v106) = _ from x1_eq (W2 m ρ c), show (V3 m ρ c main_v116) = _ from w1_eq (W2 m ρ c)]
  rw [W2_keep m ρ c main_arg0 nw0_main_arg0 (by decide), W2_keep m ρ c main_arg1 nw0_main_arg1 (by decide),
    W2_keep m ρ c main_arg2 nw0_main_arg2 (by decide), W2_keep m ρ c main_arg11 nw0_main_arg11 (by decide),
    W2_keep m ρ c main_arg12 nw0_main_arg12 (by decide), W2_keep m ρ c main_arg13 nw0_main_arg13 (by decide)]

/-- The fused node table the last stretch forms, as the specification's. -/
theorem fused_eq :
    addf (addf (addf (Cert.Spec.unstack 0 (by decide) (W4 m ρ c (Proc.devRef .tc main_v117)))
        (Cert.Spec.unstack 1 (by decide) (W4 m ρ c (Proc.devRef .tc main_v117))))
        (Cert.Spec.unstack 2 (by decide) (W4 m ρ c (Proc.devRef .tc main_v117))))
      (W4 m ρ c (Proc.devRef .tc main_v0))
    = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [W4_keep1 m ρ c main_v0 nw1_main_v0 (by decide) (by decide), show W1 m ρ c (Proc.devRef .tc main_v0) = _ from uid_eq (W0 m ρ c)]
  rw [z2_eq m ρ c]
  simp only [unstack0_dense, unstack1_dense, unstack2_dense]
  unfold Z1
  rw [z1_eq m ρ c]
  simp only [unstack0_dense, unstack1_dense, unstack2_dense]
  rfl

/-- The first result: the user half. -/
theorem out0_eq : W5 m ρ c (Proc.devRef .tc main_v127)
    = Cert.Spec.users (Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (tail0_eq (W4 m ρ c)).trans (congrArg Cert.Spec.users (fused_eq m ρ c))
/-- The second result: the item half. -/
theorem out1_eq : W5 m ρ c (Proc.devRef .tc main_v128)
    = Cert.Spec.items (Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (tail1_eq (W4 m ρ c)).trans (congrArg Cert.Spec.items (fused_eq m ρ c))

end Cert.KernelIdeal.RunValue

end
-- ==== Proof.RefRun.lean ====
import proofs.«134491_j13245679141186_1_alg».proof.Proof.Gen.ReferenceIdeal
import Idealize.ShloMosaic.Lib.StableHlo.Run
import Idealize.ShloMosaic.Lib.Pipeline.Frame

/-! The reference program's run.  Its entry function is a straight line of host operations, printed in three
    consecutive windows; six times it calls the leaky-ReLU function `x ↦ select (x ≥ 0) x (α · x)`, whose body is
    six operations followed by a call of the three-way select.  Listing each call's operations in place, over the
    buffers of that call's record, the whole program is one list of 171 operations, each writing its own buffer.
    Every weakly fair execution then terminates with each buffer at the fold of the operations' results over the
    launch contents; the fourteen argument buffers are written by no operation and so keep their contents. -/

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the first window, in program order, each call's operations in place. -/
abbrev ops0 : List (HloOp τ sig (Elt F)) :=
  [ binary main_arg3 main_arg4 main_v0 ((fun a b => concatenate S100000x64 0 [⟨S50000x64, a⟩, ⟨S50000x64, b⟩] concatenates_S50000x64_S50000x64_S100000x64_d0) : (⟨S50000x64, .f32⟩ : BufTy).Contents (Elt F) → (⟨S50000x64, .f32⟩ : BufTy).Contents (Elt F) → (⟨S100000x64, .f32⟩ : BufTy).Contents (Elt F)),
    binary main_arg5 main_arg8 main_v1 ((fun a b => concatenate S100000x64 0 [⟨S50000x64, a⟩, ⟨S50000x64, b⟩] concatenates_S50000x64_S50000x64_S100000x64_d0) : (⟨S50000x64, .f32⟩ : BufTy).Contents (Elt F) → (⟨S50000x64, .f32⟩ : BufTy).Contents (Elt F) → (⟨S100000x64, .f32⟩ : BufTy).Contents (Elt F)),
    binary main_arg6 main_arg9 main_v2 ((fun a b => concatenate S100000x64 0 [⟨S50000x64, a⟩, ⟨S50000x64, b⟩] concatenates_S50000x64_S50000x64_S100000x64_d0) : (⟨S50000x64, .f32⟩ : BufTy).Contents (Elt F) → (⟨S50000x64, .f32⟩ : BufTy).Contents (Elt F) → (⟨S100000x64, .f32⟩ : BufTy).Contents (Elt F)),
    binary main_arg7 main_arg10 main_v3 ((fun a b => concatenate S100000x64 0 [⟨S50000x64, a⟩, ⟨S50000x64, b⟩] concatenates_S50000x64_S50000x64_S100000x64_d0) : (⟨S50000x64, .f32⟩ : BufTy).Contents (Elt F) → (⟨S50000x64, .f32⟩ : BufTy).Contents (Elt F) → (⟨S100000x64, .f32⟩ : BufTy).Contents (Elt F)),
    unary main_arg2 main_v4 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_arg1 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_arg1 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_arg1 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v1 main_v10 main_v11 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v4 main_v12 (broadcastInDim S1600000x64 ![0, 1] bcast_S1600000x1_S1600000x64_0_1 : (⟨S1600000x1, .f32⟩ : BufTy).Contents (Elt F) → (⟨S1600000x64, .f32⟩ : BufTy).Contents (Elt F)),
    binary main_v12 main_v11 main_v13 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v14 (broadcastInDim S100000x64 ![] bcast_S_S100000x64 : (⟨S_, .f32⟩ : BufTy).Contents (Elt F) → (⟨S100000x64, .f32⟩ : BufTy).Contents (Elt F)),
    unary main_arg0 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg11 main_v17 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v17 main_v18 rfl shapeCasts_S1x64x64_S64x64,
    binary main_v16 main_v18 main_v19 ((fun l r => Host.dotGeneral dot_S100000x64_S64x64_S100000x64_1_1_0_0_n_n none l r) : (⟨S100000x64, .f32⟩ : BufTy).Contents (Elt F) → (⟨S64x64, .f32⟩ : BufTy).Contents (Elt F) → (⟨S100000x64, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S100000x64 ![] bcast_S_S100000x64),
    TRef.binary (.of main_v19 : TRef sig ⟨S100000x64, .f32⟩) main_call0.v0 main_call0.v1 (cmpf .oge),
    TRef.unary (.of main_cst_1 : TRef sig ⟨S_, .f32⟩) main_call0.v2 id,
    TRef.unary main_call0.v2 main_call0.v3 (broadcastInDim S100000x64 ![] bcast_S_S100000x64),
    TRef.binary main_call0.v3 (.of main_v19 : TRef sig ⟨S100000x64, .f32⟩) main_call0.v4 mulf,
    TRef.ternary main_call0.v1 (.of main_v19 : TRef sig ⟨S100000x64, .f32⟩) main_call0.v4 main_call0.call0.v0 select,
    unary main_arg2 main_v21 (broadcastInDim S1600000x1 ![0] bcast_S1600000_S1600000x1_0 : (⟨S1600000, .f32⟩ : BufTy).Contents (Elt F) → (⟨S1600000x1, .f32⟩ : BufTy).Contents (Elt F)),
    nullary main_c_2 (constantI S_ 32 0#32),
    unary main_c_2 main_v22 (broadcastInDim S1600000 ![] bcast_S_S1600000 : (⟨S_, .i32⟩ : BufTy).Contents (Elt F) → (⟨S1600000, .i32⟩ : BufTy).Contents (Elt F)),
    binary main_arg1 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v24 (broadcastInDim S1600000 ![] bcast_S_S1600000 : (⟨S_, .i32⟩ : BufTy).Contents (Elt F) → (⟨S1600000, .i32⟩ : BufTy).Contents (Elt F)),
    binary main_arg1 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_arg1 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v2 main_v27 main_v28 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v21 main_v29 (broadcastInDim S1600000x64 ![0, 1] bcast_S1600000x1_S1600000x64_0_1 : (⟨S1600000x1, .f32⟩ : BufTy).Contents (Elt F) → (⟨S1600000x64, .f32⟩ : BufTy).Contents (Elt F)),
    binary main_v29 main_v28 main_v30 (mulf : (⟨S1600000x64, .f32⟩ : BufTy).Contents (Elt F) → (⟨S1600000x64, .f32⟩ : BufTy).Contents (Elt F) → (⟨S1600000x64, .f32⟩ : BufTy).Contents (Elt F)),
    nullary main_cst_4 (constant S_ .f32 0x00000000#32),
    unary main_cst_4 main_v31 (broadcastInDim S100000x64 ![] bcast_S_S100000x64 : (⟨S_, .f32⟩ : BufTy).Contents (Elt F) → (⟨S100000x64, .f32⟩ : BufTy).Contents (Elt F)),
    unary main_arg0 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg12 main_v34 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v34 main_v35 rfl shapeCasts_S1x64x64_S64x64,
    binary main_v33 main_v35 main_v36 ((fun l r => Host.dotGeneral dot_S100000x64_S64x64_S100000x64_1_1_0_0_n_n none l r) : (⟨S100000x64, .f32⟩ : BufTy).Contents (Elt F) → (⟨S64x64, .f32⟩ : BufTy).Contents (Elt F) → (⟨S100000x64, .f32⟩ : BufTy).Contents (Elt F)),
    nullary main_cst_5 (constant S_ .f32 0x3E4CCCCD#32),
    TRef.nullary main_call1.cst (constant S_ .f32 0x00000000#32),
    TRef.unary main_call1.cst main_call1.v0 (broadcastInDim S100000x64 ![] bcast_S_S100000x64),
    TRef.binary (.of main_v36 : TRef sig ⟨S100000x64, .f32⟩) main_call1.v0 main_call1.v1 (cmpf .oge),
    TRef.unary (.of main_cst_5 : TRef sig ⟨S_, .f32⟩) main_call1.v2 id,
    TRef.unary main_call1.v2 main_call1.v3 (broadcastInDim S100000x64 ![] bcast_S_S100000x64),
    TRef.binary main_call1.v3 (.of main_v36 : TRef sig ⟨S100000x64, .f32⟩) main_call1.v4 mulf,
    TRef.ternary main_call1.v1 (.of main_v36 : TRef sig ⟨S100000x64, .f32⟩) main_call1.v4 main_call1.call0.v0 select,
    unary main_arg2 main_v38 (broadcastInDim S1600000x1 ![0] bcast_S1600000_S1600000x1_0 : (⟨S1600000, .f32⟩ : BufTy).Contents (Elt F) → (⟨S1600000x1, .f32⟩ : BufTy).Contents (Elt F)),
    nullary main_c_6 (constantI S_ 32 0#32),
    unary main_c_6 main_v39 (broadcastInDim S1600000 ![] bcast_S_S1600000 : (⟨S_, .i32⟩ : BufTy).Contents (Elt F) → (⟨S1600000, .i32⟩ : BufTy).Contents (Elt F)),
    binary main_arg1 main_v39 main_v40 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v41 (broadcastInDim S1600000 ![] bcast_S_S1600000 : (⟨S_, .i32⟩ : BufTy).Contents (Elt F) → (⟨S1600000, .i32⟩ : BufTy).Contents (Elt F)),
    binary main_arg1 main_v41 main_v42 (addi : (⟨S1600000, .i32⟩ : BufTy).Contents (Elt F) → (⟨S1600000, .i32⟩ : BufTy).Contents (Elt F) → (⟨S1600000, .i32⟩ : BufTy).Contents (Elt F)),
    ternary main_v40 main_v42 main_arg1 main_v43 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v43 main_v44 (broadcastInDim S1600000x1 ![0] bcast_S1600000_S1600000x1_0 : (⟨S1600000, .i32⟩ : BufTy).Contents (Elt F) → (⟨S1600000x1, .i32⟩ : BufTy).Contents (Elt F)),
    binary main_v3 main_v44 main_v45 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v38 main_v46 (broadcastInDim S1600000x64 ![0, 1] bcast_S1600000x1_S1600000x64_0_1 : (⟨S1600000x1, .f32⟩ : BufTy).Contents (Elt F) → (⟨S1600000x64, .f32⟩ : BufTy).Contents (Elt F)),
    binary main_v46 main_v45 main_v47 (mulf : (⟨S1600000x64, .f32⟩ : BufTy).Contents (Elt F) → (⟨S1600000x64, .f32⟩ : BufTy).Contents (Elt F) → (⟨S1600000x64, .f32⟩ : BufTy).Contents (Elt F)),
    nullary main_cst_8 (constant S_ .f32 0x00000000#32),
    unary main_cst_8 main_v48 (broadcastInDim S100000x64 ![] bcast_S_S100000x64 : (⟨S_, .f32⟩ : BufTy).Contents (Elt F) → (⟨S100000x64, .f32⟩ : BufTy).Contents (Elt F)) ]

/-- The operations of the second window, in program order, each call's operations in place. -/
abbrev ops1 : List (HloOp τ sig (Elt F)) :=
  [ unary main_arg0 main_v49 (broadcastInDim S1600000x1 ![0] bcast_S1600000_S1600000x1_0 : (⟨S1600000, .i32⟩ : BufTy).Contents (Elt F) → (⟨S1600000x1, .i32⟩ : BufTy).Contents (Elt F)),
    ternary main_v48 main_v49 main_v47 main_v50 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg13 main_v51 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v51 main_v52 rfl shapeCasts_S1x64x64_S64x64,
    binary main_v50 main_v52 main_v53 ((fun l r => Host.dotGeneral dot_S100000x64_S64x64_S100000x64_1_1_0_0_n_n none l r) : (⟨S100000x64, .f32⟩ : BufTy).Contents (Elt F) → (⟨S64x64, .f32⟩ : BufTy).Contents (Elt F) → (⟨S100000x64, .f32⟩ : BufTy).Contents (Elt F)),
    nullary main_cst_9 (constant S_ .f32 0x3E4CCCCD#32),
    TRef.nullary main_call2.cst (constant S_ .f32 0x00000000#32),
    TRef.unary main_call2.cst main_call2.v0 (broadcastInDim S100000x64 ![] bcast_S_S100000x64),
    TRef.binary (.of main_v53 : TRef sig ⟨S100000x64, .f32⟩) main_call2.v0 main_call2.v1 (cmpf .oge),
    TRef.unary (.of main_cst_9 : TRef sig ⟨S_, .f32⟩) main_call2.v2 id,
    TRef.unary main_call2.v2 main_call2.v3 (broadcastInDim S100000x64 ![] bcast_S_S100000x64),
    TRef.binary main_call2.v3 (.of main_v53 : TRef sig ⟨S100000x64, .f32⟩) main_call2.v4 mulf,
    TRef.ternary main_call2.v1 (.of main_v53 : TRef sig ⟨S100000x64, .f32⟩) main_call2.v4 main_call2.call0.v0 select,
    unary main_arg2 main_v55 (broadcastInDim S1600000x1 ![0] bcast_S1600000_S1600000x1_0 : (⟨S1600000, .f32⟩ : BufTy).Contents (Elt F) → (⟨S1600000x1, .f32⟩ : BufTy).Contents (Elt F)),
    nullary main_c_10 (constantI S_ 32 0#32),
    unary main_c_10 main_v56 (broadcastInDim S1600000 ![] bcast_S_S1600000 : (⟨S_, .i32⟩ : BufTy).Contents (Elt F) → (⟨S1600000, .i32⟩ : BufTy).Contents (Elt F)),
    binary main_arg1 main_v56 main_v57 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v58 (broadcastInDim S1600000 ![] bcast_S_S1600000 : (⟨S_, .i32⟩ : BufTy).Contents (Elt F) → (⟨S1600000, .i32⟩ : BufTy).Contents (Elt F)),
    binary main_arg1 main_v58 main_v59 (addi : (⟨S1600000, .i32⟩ : BufTy).Contents (Elt F) → (⟨S1600000, .i32⟩ : BufTy).Contents (Elt F) → (⟨S1600000, .i32⟩ : BufTy).Contents (Elt F)),
    ternary main_v57 main_v59 main_arg1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v60 main_v61 (broadcastInDim S1600000x1 ![0] bcast_S1600000_S1600000x1_0 : (⟨S1600000, .i32⟩ : BufTy).Contents (Elt F) → (⟨S1600000x1, .i32⟩ : BufTy).Contents (Elt F)),
    binary main_v20 main_v61 main_v62 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v55 main_v63 (broadcastInDim S1600000x64 ![0, 1] bcast_S1600000x1_S1600000x64_0_1 : (⟨S1600000x1, .f32⟩ : BufTy).Contents (Elt F) → (⟨S1600000x64, .f32⟩ : BufTy).Contents (Elt F)),
    binary main_v63 main_v62 main_v64 (mulf : (⟨S1600000x64, .f32⟩ : BufTy).Contents (Elt F) → (⟨S1600000x64, .f32⟩ : BufTy).Contents (Elt F) → (⟨S1600000x64, .f32⟩ : BufTy).Contents (Elt F)),
    nullary main_cst_12 (constant S_ .f32 0x00000000#32),
    unary main_cst_12 main_v65 (broadcastInDim S100000x64 ![] bcast_S_S100000x64 : (⟨S_, .f32⟩ : BufTy).Contents (Elt F) → (⟨S100000x64, .f32⟩ : BufTy).Contents (Elt F)),
    unary main_arg0 main_v66 (broadcastInDim S1600000x1 ![0] bcast_S1600000_S1600000x1_0 : (⟨S1600000, .i32⟩ : BufTy).Contents (Elt F) → (⟨S1600000x1, .i32⟩ : BufTy).Contents (Elt F)),
    ternary main_v65 main_v66 main_v64 main_v67 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg11 main_v68 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v68 main_v69 rfl shapeCasts_S1x64x64_S64x64,
    binary main_v67 main_v69 main_v70 ((fun l r => Host.dotGeneral dot_S100000x64_S64x64_S100000x64_1_1_0_0_n_n none l r) : (⟨S100000x64, .f32⟩ : BufTy).Contents (Elt F) → (⟨S64x64, .f32⟩ : BufTy).Contents (Elt F) → (⟨S100000x64, .f32⟩ : BufTy).Contents (Elt F)),
    nullary main_cst_13 (constant S_ .f32 0x3E4CCCCD#32),
    TRef.nullary main_call3.cst (constant S_ .f32 0x00000000#32),
    TRef.unary main_call3.cst main_call3.v0 (broadcastInDim S100000x64 ![] bcast_S_S100000x64),
    TRef.binary (.of main_v70 : TRef sig ⟨S100000x64, .f32⟩) main_call3.v0 main_call3.v1 (cmpf .oge),
    TRef.unary (.of main_cst_13 : TRef sig ⟨S_, .f32⟩) main_call3.v2 id,
    TRef.unary main_call3.v2 main_call3.v3 (broadcastInDim S100000x64 ![] bcast_S_S100000x64),
    TRef.binary main_call3.v3 (.of main_v70 : TRef sig ⟨S100000x64, .f32⟩) main_call3.v4 mulf,
    TRef.ternary main_call3.v1 (.of main_v70 : TRef sig ⟨S100000x64, .f32⟩) main_call3.v4 main_call3.call0.v0 select,
    unary main_arg2 main_v72 (broadcastInDim S1600000x1 ![0] bcast_S1600000_S1600000x1_0 : (⟨S1600000, .f32⟩ : BufTy).Contents (Elt F) → (⟨S1600000x1, .f32⟩ : BufTy).Contents (Elt F)),
    nullary main_c_14 (constantI S_ 32 0#32),
    unary main_c_14 main_v73 (broadcastInDim S1600000 ![] bcast_S_S1600000 : (⟨S_, .i32⟩ : BufTy).Contents (Elt F) → (⟨S1600000, .i32⟩ : BufTy).Contents (Elt F)),
    binary main_arg1 main_v73 main_v74 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v75 (broadcastInDim S1600000 ![] bcast_S_S1600000 : (⟨S_, .i32⟩ : BufTy).Contents (Elt F) → (⟨S1600000, .i32⟩ : BufTy).Contents (Elt F)),
    binary main_arg1 main_v75 main_v76 (addi : (⟨S1600000, .i32⟩ : BufTy).Contents (Elt F) → (⟨S1600000, .i32⟩ : BufTy).Contents (Elt F) → (⟨S1600000, .i32⟩ : BufTy).Contents (Elt F)),
    ternary main_v74 main_v76 main_arg1 main_v77 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v77 main_v78 (broadcastInDim S1600000x1 ![0] bcast_S1600000_S1600000x1_0 : (⟨S1600000, .i32⟩ : BufTy).Contents (Elt F) → (⟨S1600000x1, .i32⟩ : BufTy).Contents (Elt F)),
    binary main_v37 main_v78 main_v79 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v72 main_v80 (broadcastInDim S1600000x64 ![0, 1] bcast_S1600000x1_S1600000x64_0_1 : (⟨S1600000x1, .f32⟩ : BufTy).Contents (Elt F) → (⟨S1600000x64, .f32⟩ : BufTy).Contents (Elt F)),
    binary main_v80 main_v79 main_v81 (mulf : (⟨S1600000x64, .f32⟩ : BufTy).Contents (Elt F) → (⟨S1600000x64, .f32⟩ : BufTy).Contents (Elt F) → (⟨S1600000x64, .f32⟩ : BufTy).Contents (Elt F)),
    nullary main_cst_16 (constant S_ .f32 0x00000000#32),
    unary main_cst_16 main_v82 (broadcastInDim S100000x64 ![] bcast_S_S100000x64 : (⟨S_, .f32⟩ : BufTy).Contents (Elt F) → (⟨S100000x64, .f32⟩ : BufTy).Contents (Elt F)),
    unary main_arg0 main_v83 (broadcastInDim S1600000x1 ![0] bcast_S1600000_S1600000x1_0 : (⟨S1600000, .i32⟩ : BufTy).Contents (Elt F) → (⟨S1600000x1, .i32⟩ : BufTy).Contents (Elt F)),
    ternary main_v82 main_v83 main_v81 main_v84 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg12 main_v85 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v85 main_v86 rfl shapeCasts_S1x64x64_S64x64,
    binary main_v84 main_v86 main_v87 ((fun l r => Host.dotGeneral dot_S100000x64_S64x64_S100000x64_1_1_0_0_n_n none l r) : (⟨S100000x64, .f32⟩ : BufTy).Contents (Elt F) → (⟨S64x64, .f32⟩ : BufTy).Contents (Elt F) → (⟨S100000x64, .f32⟩ : BufTy).Contents (Elt F)),
    nullary main_cst_17 (constant S_ .f32 0x3E4CCCCD#32),
    TRef.nullary main_call4.cst (constant S_ .f32 0x00000000#32),
    TRef.unary main_call4.cst main_call4.v0 (broadcastInDim S100000x64 ![] bcast_S_S100000x64),
    TRef.binary (.of main_v87 : TRef sig ⟨S100000x64, .f32⟩) main_call4.v0 main_call4.v1 (cmpf .oge),
    TRef.unary (.of main_cst_17 : TRef sig ⟨S_, .f32⟩) main_call4.v2 id,
    TRef.unary main_call4.v2 main_call4.v3 (broadcastInDim S100000x64 ![] bcast_S_S100000x64),
    TRef.binary main_call4.v3 (.of main_v87 : TRef sig ⟨S100000x64, .f32⟩) main_call4.v4 mulf,
    TRef.ternary main_call4.v1 (.of main_v87 : TRef sig ⟨S100000x64, .f32⟩) main_call4.v4 main_call4.call0.v0 select,
    unary main_arg2 main_v89 (broadcastInDim S1600000x1 ![0] bcast_S1600000_S1600000x1_0 : (⟨S1600000, .f32⟩ : BufTy).Contents (Elt F) → (⟨S1600000x1, .f32⟩ : BufTy).Contents (Elt F)),
    nullary main_c_18 (constantI S_ 32 0#32),
    unary main_c_18 main_v90 (broadcastInDim S1600000 ![] bcast_S_S1600000 : (⟨S_, .i32⟩ : BufTy).Contents (Elt F) → (⟨S1600000, .i32⟩ : BufTy).Contents (Elt F)),
    binary main_arg1 main_v90 main_v91 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v92 (broadcastInDim S1600000 ![] bcast_S_S1600000 : (⟨S_, .i32⟩ : BufTy).Contents (Elt F) → (⟨S1600000, .i32⟩ : BufTy).Contents (Elt F)),
    binary main_arg1 main_v92 main_v93 (addi : (⟨S1600000, .i32⟩ : BufTy).Contents (Elt F) → (⟨S1600000, .i32⟩ : BufTy).Contents (Elt F) → (⟨S1600000, .i32⟩ : BufTy).Contents (Elt F)),
    ternary main_v91 main_v93 main_arg1 main_v94 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v94 main_v95 (broadcastInDim S1600000x1 ![0] bcast_S1600000_S1600000x1_0 : (⟨S1600000, .i32⟩ : BufTy).Contents (Elt F) → (⟨S1600000x1, .i32⟩ : BufTy).Contents (Elt F)),
    binary main_v54 main_v95 main_v96 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v89 main_v97 (broadcastInDim S1600000x64 ![0, 1] bcast_S1600000x1_S1600000x64_0_1 : (⟨S1600000x1, .f32⟩ : BufTy).Contents (Elt F) → (⟨S1600000x64, .f32⟩ : BufTy).Contents (Elt F)) ]

/-- The operations of the third window, in program order, each call's operations in place. -/
abbrev ops2 : List (HloOp τ sig (Elt F)) :=
  [ binary main_v97 main_v96 main_v98 (mulf : (⟨S1600000x64, .f32⟩ : BufTy).Contents (Elt F) → (⟨S1600000x64, .f32⟩ : BufTy).Contents (Elt F) → (⟨S1600000x64, .f32⟩ : BufTy).Contents (Elt F)),
    nullary main_cst_20 (constant S_ .f32 0x00000000#32),
    unary main_cst_20 main_v99 (broadcastInDim S100000x64 ![] bcast_S_S100000x64 : (⟨S_, .f32⟩ : BufTy).Contents (Elt F) → (⟨S100000x64, .f32⟩ : BufTy).Contents (Elt F)),
    unary main_arg0 main_v100 (broadcastInDim S1600000x1 ![0] bcast_S1600000_S1600000x1_0 : (⟨S1600000, .i32⟩ : BufTy).Contents (Elt F) → (⟨S1600000x1, .i32⟩ : BufTy).Contents (Elt F)),
    ternary main_v99 main_v100 main_v98 main_v101 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_arg13 main_v102 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v102 main_v103 rfl shapeCasts_S1x64x64_S64x64,
    binary main_v101 main_v103 main_v104 ((fun l r => Host.dotGeneral dot_S100000x64_S64x64_S100000x64_1_1_0_0_n_n none l r) : (⟨S100000x64, .f32⟩ : BufTy).Contents (Elt F) → (⟨S64x64, .f32⟩ : BufTy).Contents (Elt F) → (⟨S100000x64, .f32⟩ : BufTy).Contents (Elt F)),
    nullary main_cst_21 (constant S_ .f32 0x3E4CCCCD#32),
    TRef.nullary main_call5.cst (constant S_ .f32 0x00000000#32),
    TRef.unary main_call5.cst main_call5.v0 (broadcastInDim S100000x64 ![] bcast_S_S100000x64),
    TRef.binary (.of main_v104 : TRef sig ⟨S100000x64, .f32⟩) main_call5.v0 main_call5.v1 (cmpf .oge),
    TRef.unary (.of main_cst_21 : TRef sig ⟨S_, .f32⟩) main_call5.v2 id,
    TRef.unary main_call5.v2 main_call5.v3 (broadcastInDim S100000x64 ![] bcast_S_S100000x64),
    TRef.binary main_call5.v3 (.of main_v104 : TRef sig ⟨S100000x64, .f32⟩) main_call5.v4 mulf,
    TRef.ternary main_call5.v1 (.of main_v104 : TRef sig ⟨S100000x64, .f32⟩) main_call5.v4 main_call5.call0.v0 select,
    binary main_v71 main_v88 main_v106 (addf : (⟨S100000x64, .f32⟩ : BufTy).Contents (Elt F) → (⟨S100000x64, .f32⟩ : BufTy).Contents (Elt F) → (⟨S100000x64, .f32⟩ : BufTy).Contents (Elt F)),
    binary main_v106 main_v105 main_v107 (addf : (⟨S100000x64, .f32⟩ : BufTy).Contents (Elt F) → (⟨S100000x64, .f32⟩ : BufTy).Contents (Elt F) → (⟨S100000x64, .f32⟩ : BufTy).Contents (Elt F)),
    binary main_v107 main_v0 main_v108 (addf : (⟨S100000x64, .f32⟩ : BufTy).Contents (Elt F) → (⟨S100000x64, .f32⟩ : BufTy).Contents (Elt F) → (⟨S100000x64, .f32⟩ : BufTy).Contents (Elt F)),
    unary main_v108 main_v109 ((extractStridedSlice S50000x64 ![0, 0] · slices_S100000x64_S50000x64_0_0) : (⟨S100000x64, .f32⟩ : BufTy).Contents (Elt F) → (⟨S50000x64, .f32⟩ : BufTy).Contents (Elt F)),
    unary main_v108 main_v110 ((extractStridedSlice S50000x64 ![50000, 0] · slices_S100000x64_S50000x64_50000_0) : (⟨S100000x64, .f32⟩ : BufTy).Contents (Elt F) → (⟨S50000x64, .f32⟩ : BufTy).Contents (Elt F)) ]

/-- The whole program's operations, in program order. -/
abbrev ops : List (HloOp τ sig (Elt F)) :=
  ops0 ++ (ops1 ++ ops2)

set_option maxRecDepth 8192 in
/-- The first window is the straight line of its operations: the called functions' bodies unfold at their calls,
    and sequencing reassociates. -/
theorem main_part0_eq (c : Dev nD) : main_part0 (F := F) c = seq ops0 := rfl

set_option maxRecDepth 8192 in
/-- The second window is the straight line of its operations: the called functions' bodies unfold at their calls,
    and sequencing reassociates. -/
theorem main_part1_eq (c : Dev nD) : main_part1 (F := F) c = seq ops1 := rfl

set_option maxRecDepth 8192 in
/-- The third window is the straight line of its operations: the called functions' bodies unfold at their calls,
    and sequencing reassociates. -/
theorem main_part2_eq (c : Dev nD) : main_part2 (F := F) c = seq ops2 := rfl

set_option maxRecDepth 8192 in
/-- The program is the straight line of all its operations: a concatenation runs as its parts in order. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every buffer an operation of the first window touches is a TensorCore buffer. -/
theorem ops0_sub : (ops0 : List (HloOp τ sig (Elt F))).Forall fun op => op.bufs ⊆ tcRefs τ sig :=
  ⟨binary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub ..⟩

set_option maxRecDepth 8192 in
/-- Every buffer an operation of the second window touches is a TensorCore buffer. -/
theorem ops1_sub : (ops1 : List (HloOp τ sig (Elt F))).Forall fun op => op.bufs ⊆ tcRefs τ sig :=
  ⟨unary_bufs_sub .., ternary_bufs_sub .., unary_bufs_sub .., reshape_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩

set_option maxRecDepth 8192 in
/-- Every buffer an operation of the third window touches is a TensorCore buffer. -/
theorem ops2_sub : (ops2 : List (HloOp τ sig (Elt F))).Forall fun op => op.bufs ⊆ tcRefs τ sig :=
  ⟨binary_bufs_sub .., nullary_bufs_sub .., unary_bufs_sub .., unary_bufs_sub .., ternary_bufs_sub .., unary_bufs_sub .., reshape_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., binary_bufs_sub .., unary_bufs_sub .., unary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

/-- An operation that writes exactly the buffer `y`, with `y` in the list `W`, writes within `W`. -/
theorem writes_sub_of_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers the first window writes: one per operation. -/
abbrev written0 : List (Ref sig .tc) := [main_v0, main_v1, main_v2, main_v3, main_v4, main_c, main_v5, main_v6, main_c_0, main_v7, main_v8, main_v9, main_v10, main_v11, main_v12, main_v13, main_cst, main_v14, main_v15, main_v16, main_v17, main_v18, main_v19, main_cst_1, main_call0_cst, main_call0_v0, main_call0_v1, main_call0_v2, main_call0_v3, main_call0_v4, main_v20, main_v21, main_c_2, main_v22, main_v23, main_c_3, main_v24, main_v25, main_v26, main_v27, main_v28, main_v29, main_v30, main_cst_4, main_v31, main_v32, main_v33, main_v34, main_v35, main_v36, main_cst_5, main_call1_cst, main_call1_v0, main_call1_v1, main_call1_v2, main_call1_v3, main_call1_v4, main_v37, main_v38, main_c_6, main_v39, main_v40, main_c_7, main_v41, main_v42, main_v43, main_v44, main_v45, main_v46, main_v47, main_cst_8, main_v48]

set_option maxRecDepth 8192 in
theorem ops0_writes : (ops0 : List (HloOp τ sig (Elt F))).Forall fun op => op.writes ⊆ (written0.map (Proc.devRef (τ := τ) .tc)).toFinset :=
  ⟨writes_sub_of_mem (binary_writes ..) (by decide),
    writes_sub_of_mem (binary_writes ..) (by decide),
    writes_sub_of_mem (binary_writes ..) (by decide),
    writes_sub_of_mem (binary_writes ..) (by decide),
    writes_sub_of_mem (unary_writes ..) (by decide),
    writes_sub_of_mem (nullary_writes ..) (by decide),
    writes_sub_of_mem (unary_writes ..) (by decide),
    writes_sub_of_mem (binary_writes ..) (by decide),
    writes_sub_of_mem (nullary_writes ..) (by decide),
    writes_sub_of_mem (unary_writes ..) (by decide),
    writes_sub_of_mem (binary_writes ..) (by decide),
    writes_sub_of_mem (ternary_writes ..) (by decide),
    writes_sub_of_mem (unary_writes ..) (by decide),
    writes_sub_of_mem (binary_writes ..) (by decide),
    writes_sub_of_mem (unary_writes ..) (by decide),
    writes_sub_of_mem (binary_writes ..) (by decide),
    writes_sub_of_mem (nullary_writes ..) (by decide),
    writes_sub_of_mem (unary_writes ..) (by decide),
    writes_sub_of_mem (unary_writes ..) (by decide),
    writes_sub_of_mem (ternary_writes ..) (by decide),
    writes_sub_of_mem (unary_writes ..) (by decide),
    writes_sub_of_mem (reshape_writes ..) (by decide),
    writes_sub_of_mem (binary_writes ..) (by decide),
    writes_sub_of_mem (nullary_writes ..) (by decide),
    writes_sub_of_mem (nullary_writes ..) (by decide),
    writes_sub_of_mem (unary_writes ..) (by decide),
    writes_sub_of_mem (binary_writes ..) (by decide),
    writes_sub_of_mem (unary_writes ..) (by decide),
    writes_sub_of_mem (unary_writes ..) (by decide),
    writes_sub_of_mem (binary_writes ..) (by decide),
    writes_sub_of_mem (ternary_writes ..) (by decide),
    writes_sub_of_mem (unary_writes ..) (by decide),
    writes_sub_of_mem (nullary_writes ..) (by decide),
    writes_sub_of_mem (unary_writes ..) (by decide),
    writes_sub_of_mem (binary_writes ..) (by decide),
    writes_sub_of_mem (nullary_writes ..) (by decide),
    writes_sub_of_mem (unary_writes ..) (by decide),
    writes_sub_of_mem (binary_writes ..) (by decide),
    writes_sub_of_mem (ternary_writes ..) (by decide),
    writes_sub_of_mem (unary_writes ..) (by decide),
    writes_sub_of_mem (binary_writes ..) (by decide),
    writes_sub_of_mem (unary_writes ..) (by decide),
    writes_sub_of_mem (binary_writes ..) (by decide),
    writes_sub_of_mem (nullary_writes ..) (by decide),
    writes_sub_of_mem (unary_writes ..) (by decide),
    writes_sub_of_mem (unary_writes ..) (by decide),
    writes_sub_of_mem (ternary_writes ..) (by decide),
    writes_sub_of_mem (unary_writes ..) (by decide),
    writes_sub_of_mem (reshape_writes ..) (by decide),
    writes_sub_of_mem (binary_writes ..) (by decide),
    writes_sub_of_mem (nullary_writes ..) (by decide),
    writes_sub_of_mem (nullary_writes ..) (by decide),
    writes_sub_of_mem (unary_writes ..) (by decide),
    writes_sub_of_mem (binary_writes ..) (by decide),
    writes_sub_of_mem (unary_writes ..) (by decide),
    writes_sub_of_mem (unary_writes ..) (by decide),
    writes_sub_of_mem (binary_writes ..) (by decide),
    writes_sub_of_mem (ternary_writes ..) (by decide),
    writes_sub_of_mem (unary_writes ..) (by decide),
    writes_sub_of_mem (nullary_writes ..) (by decide),
    writes_sub_of_mem (unary_writes ..) (by decide),
    writes_sub_of_mem (binary_writes ..) (by decide),
    writes_sub_of_mem (nullary_writes ..) (by decide),
    writes_sub_of_mem (unary_writes ..) (by decide),
    writes_sub_of_mem (binary_writes ..) (by decide),
    writes_sub_of_mem (ternary_writes ..) (by decide),
    writes_sub_of_mem (unary_writes ..) (by decide),
    writes_sub_of_mem (binary_writes ..) (by decide),
    writes_sub_of_mem (unary_writes ..) (by decide),
    writes_sub_of_mem (binary_writes ..) (by decide),
    writes_sub_of_mem (nullary_writes ..) (by decide),
    writes_sub_of_mem (unary_writes ..) (by decide)⟩

/-- The buffers the second window writes: one per operation. -/
abbrev written1 : List (Ref sig .tc) := [main_v49, main_v50, main_v51, main_v52, main_v53, main_cst_9, main_call2_cst, main_call2_v0, main_call2_v1, main_call2_v2, main_call2_v3, main_call2_v4, main_v54, main_v55, main_c_10, main_v56, main_v57, main_c_11, main_v58, main_v59, main_v60, main_v61, main_v62, main_v63, main_v64, main_cst_12, main_v65, main_v66, main_v67, main_v68, main_v69, main_v70, main_cst_13, main_call3_cst, main_call3_v0, main_call3_v1, main_call3_v2, main_call3_v3, main_call3_v4, main_v71, main_v72, main_c_14, main_v73, main_v74, main_c_15, main_v75, main_v76, main_v77, main_v78, main_v79, main_v80, main_v81, main_cst_16, main_v82, main_v83, main_v84, main_v85, main_v86, main_v87, main_cst_17, main_call4_cst, main_call4_v0, main_call4_v1, main_call4_v2, main_call4_v3, main_call4_v4, main_v88, main_v89, main_c_18, main_v90, main_v91, main_c_19, main_v92, main_v93, main_v94, main_v95, main_v96, main_v97]

set_option maxRecDepth 8192 in
theorem ops1_writes : (ops1 : List (HloOp τ sig (Elt F))).Forall fun op => op.writes ⊆ (written1.map (Proc.devRef (τ := τ) .tc)).toFinset :=
  ⟨writes_sub_of_mem (unary_writes ..) (by decide),
    writes_sub_of_mem (ternary_writes ..) (by decide),
    writes_sub_of_mem (unary_writes ..) (by decide),
    writes_sub_of_mem (reshape_writes ..) (by decide),
    writes_sub_of_mem (binary_writes ..) (by decide),
    writes_sub_of_mem (nullary_writes ..) (by decide),
    writes_sub_of_mem (nullary_writes ..) (by decide),
    writes_sub_of_mem (unary_writes ..) (by decide),
    writes_sub_of_mem (binary_writes ..) (by decide),
    writes_sub_of_mem (unary_writes ..) (by decide),
    writes_sub_of_mem (unary_writes ..) (by decide),
    writes_sub_of_mem (binary_writes ..) (by decide),
    writes_sub_of_mem (ternary_writes ..) (by decide),
    writes_sub_of_mem (unary_writes ..) (by decide),
    writes_sub_of_mem (nullary_writes ..) (by decide),
    writes_sub_of_mem (unary_writes ..) (by decide),
    writes_sub_of_mem (binary_writes ..) (by decide),
    writes_sub_of_mem (nullary_writes ..) (by decide),
    writes_sub_of_mem (unary_writes ..) (by decide),
    writes_sub_of_mem (binary_writes ..) (by decide),
    writes_sub_of_mem (ternary_writes ..) (by decide),
    writes_sub_of_mem (unary_writes ..) (by decide),
    writes_sub_of_mem (binary_writes ..) (by decide),
    writes_sub_of_mem (unary_writes ..) (by decide),
    writes_sub_of_mem (binary_writes ..) (by decide),
    writes_sub_of_mem (nullary_writes ..) (by decide),
    writes_sub_of_mem (unary_writes ..) (by decide),
    writes_sub_of_mem (unary_writes ..) (by decide),
    writes_sub_of_mem (ternary_writes ..) (by decide),
    writes_sub_of_mem (unary_writes ..) (by decide),
    writes_sub_of_mem (reshape_writes ..) (by decide),
    writes_sub_of_mem (binary_writes ..) (by decide),
    writes_sub_of_mem (nullary_writes ..) (by decide),
    writes_sub_of_mem (nullary_writes ..) (by decide),
    writes_sub_of_mem (unary_writes ..) (by decide),
    writes_sub_of_mem (binary_writes ..) (by decide),
    writes_sub_of_mem (unary_writes ..) (by decide),
    writes_sub_of_mem (unary_writes ..) (by decide),
    writes_sub_of_mem (binary_writes ..) (by decide),
    writes_sub_of_mem (ternary_writes ..) (by decide),
    writes_sub_of_mem (unary_writes ..) (by decide),
    writes_sub_of_mem (nullary_writes ..) (by decide),
    writes_sub_of_mem (unary_writes ..) (by decide),
    writes_sub_of_mem (binary_writes ..) (by decide),
    writes_sub_of_mem (nullary_writes ..) (by decide),
    writes_sub_of_mem (unary_writes ..) (by decide),
    writes_sub_of_mem (binary_writes ..) (by decide),
    writes_sub_of_mem (ternary_writes ..) (by decide),
    writes_sub_of_mem (unary_writes ..) (by decide),
    writes_sub_of_mem (binary_writes ..) (by decide),
    writes_sub_of_mem (unary_writes ..) (by decide),
    writes_sub_of_mem (binary_writes ..) (by decide),
    writes_sub_of_mem (nullary_writes ..) (by decide),
    writes_sub_of_mem (unary_writes ..) (by decide),
    writes_sub_of_mem (unary_writes ..) (by decide),
    writes_sub_of_mem (ternary_writes ..) (by decide),
    writes_sub_of_mem (unary_writes ..) (by decide),
    writes_sub_of_mem (reshape_writes ..) (by decide),
    writes_sub_of_mem (binary_writes ..) (by decide),
    writes_sub_of_mem (nullary_writes ..) (by decide),
    writes_sub_of_mem (nullary_writes ..) (by decide),
    writes_sub_of_mem (unary_writes ..) (by decide),
    writes_sub_of_mem (binary_writes ..) (by decide),
    writes_sub_of_mem (unary_writes ..) (by decide),
    writes_sub_of_mem (unary_writes ..) (by decide),
    writes_sub_of_mem (binary_writes ..) (by decide),
    writes_sub_of_mem (ternary_writes ..) (by decide),
    writes_sub_of_mem (unary_writes ..) (by decide),
    writes_sub_of_mem (nullary_writes ..) (by decide),
    writes_sub_of_mem (unary_writes ..) (by decide),
    writes_sub_of_mem (binary_writes ..) (by decide),
    writes_sub_of_mem (nullary_writes ..) (by decide),
    writes_sub_of_mem (unary_writes ..) (by decide),
    writes_sub_of_mem (binary_writes ..) (by decide),
    writes_sub_of_mem (ternary_writes ..) (by decide),
    writes_sub_of_mem (unary_writes ..) (by decide),
    writes_sub_of_mem (binary_writes ..) (by decide),
    writes_sub_of_mem (unary_writes ..) (by decide)⟩

/-- The buffers the third window writes: one per operation. -/
abbrev written2 : List (Ref sig .tc) := [main_v98, main_cst_20, main_v99, main_v100, main_v101, main_v102, main_v103, main_v104, main_cst_21, main_call5_cst, main_call5_v0, main_call5_v1, main_call5_v2, main_call5_v3, main_call5_v4, main_v105, main_v106, main_v107, main_v108, main_v109, main_v110]

set_option maxRecDepth 8192 in
theorem ops2_writes : (ops2 : List (HloOp τ sig (Elt F))).Forall fun op => op.writes ⊆ (written2.map (Proc.devRef (τ := τ) .tc)).toFinset :=
  ⟨writes_sub_of_mem (binary_writes ..) (by decide),
    writes_sub_of_mem (nullary_writes ..) (by decide),
    writes_sub_of_mem (unary_writes ..) (by decide),
    writes_sub_of_mem (unary_writes ..) (by decide),
    writes_sub_of_mem (ternary_writes ..) (by decide),
    writes_sub_of_mem (unary_writes ..) (by decide),
    writes_sub_of_mem (reshape_writes ..) (by decide),
    writes_sub_of_mem (binary_writes ..) (by decide),
    writes_sub_of_mem (nullary_writes ..) (by decide),
    writes_sub_of_mem (nullary_writes ..) (by decide),
    writes_sub_of_mem (unary_writes ..) (by decide),
    writes_sub_of_mem (binary_writes ..) (by decide),
    writes_sub_of_mem (unary_writes ..) (by decide),
    writes_sub_of_mem (unary_writes ..) (by decide),
    writes_sub_of_mem (binary_writes ..) (by decide),
    writes_sub_of_mem (ternary_writes ..) (by decide),
    writes_sub_of_mem (binary_writes ..) (by decide),
    writes_sub_of_mem (binary_writes ..) (by decide),
    writes_sub_of_mem (binary_writes ..) (by decide),
    writes_sub_of_mem (unary_writes ..) (by decide),
    writes_sub_of_mem (unary_writes ..) (by decide)⟩

/-- A buffer none of the three windows writes holds, after the whole program, what it held at launch: the fold over
    a concatenation is the folds in turn, and each window's fold leaves the buffer alone. -/
theorem after_keep (V : Valuation τ sig (Elt F)) (r : Ref sig .tc) (h0 : r ∉ written0) (h1 : r ∉ written1) (h2 : r ∉ written2) :
    after ops V (Proc.devRef .tc r) = V (Proc.devRef .tc r) := by
  simp only [ops, StableHlo.after_append]
  exact (after_of_writes_sub ops2 _ ops2_writes h2).trans
    ((after_of_writes_sub ops1 _ ops1_writes h1).trans (after_of_writes_sub ops0 _ ops0_writes h0))

set_option maxRecDepth 8192 in
/-- On every device, for any float values, from any memory with zero counters: every weakly fair execution of the
    program terminates with the two result buffers at the fold of the operations' results over the launch contents,
    and the fourteen arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v109) = StableHlo.after ops (fun b => m (c, b)) (Proc.devRef .tc main_v109)
      ∧ r.2.mem ((c.tc : Thread nD τ).loc main_v110) = StableHlo.after ops (fun b => m (c, b)) (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨h c main_v109, h c main_v110,
      (h c main_arg0).trans (after_keep (launchContents m c) main_arg0 (by decide) (by decide) (by decide)),
      (h c main_arg1).trans (after_keep (launchContents m c) main_arg1 (by decide) (by decide) (by decide)),
      (h c main_arg2).trans (after_keep (launchContents m c) main_arg2 (by decide) (by decide) (by decide)),
      (h c main_arg3).trans (after_keep (launchContents m c) main_arg3 (by decide) (by decide) (by decide)),
      (h c main_arg4).trans (after_keep (launchContents m c) main_arg4 (by decide) (by decide) (by decide)),
      (h c main_arg5).trans (after_keep (launchContents m c) main_arg5 (by decide) (by decide) (by decide)),
      (h c main_arg6).trans (after_keep (launchContents m c) main_arg6 (by decide) (by decide) (by decide)),
      (h c main_arg7).trans (after_keep (launchContents m c) main_arg7 (by decide) (by decide) (by decide)),
      (h c main_arg8).trans (after_keep (launchContents m c) main_arg8 (by decide) (by decide) (by decide)),
      (h c main_arg9).trans (after_keep (launchContents m c) main_arg9 (by decide) (by decide) (by decide)),
      (h c main_arg10).trans (after_keep (launchContents m c) main_arg10 (by decide) (by decide) (by decide)),
      (h c main_arg11).trans (after_keep (launchContents m c) main_arg11 (by decide) (by decide) (by decide)),
      (h c main_arg12).trans (after_keep (launchContents m c) main_arg12 (by decide) (by decide) (by decide)),
      (h c main_arg13).trans (after_keep (launchContents m c) main_arg13 (by decide) (by decide) (by decide))⟩)
    (run_seq scopedRefs_eq scopedSems_eq defs main (fun _ => ops) main_eq (fun _ => ops_sub) m ρ)

end Cert.ReferenceIdeal.Hand

end
-- ==== Proof.RefValue.lean ====
import proofs.«134491_j13245679141186_1_alg».proof.Proof.RefRun
import proofs.«134491_j13245679141186_1_alg».proof.Proof.Spec
import proofs.«134491_j13245679141186_1_alg».proof.Proof.LibDenseStack

/-! The reference program's two results as the shared specification, on the extended reals.  Each window of the
    program is read from arbitrary contents: a buffer's contents after the window is the composition of the
    operations that lead to it, and that composition is folded, piece by piece, into the specification's terms
    (the wrapped source column, the sparse product, a weight slice, the dense layer).  The three windows then
    compose: what a later window reads is what an earlier one left. -/

set_option Elab.async false

noncomputable section

namespace Cert.ReferenceIdeal.HandValue

open Cert.ReferenceIdeal Cert.ReferenceIdeal.Gen Cert.ReferenceIdeal.Hand Idealize.ShloMosaic Idealize.ShloMosaic.TcCoe Idealize.SL.Sem Idealize.ShloMosaic.StableHlo

/-- The leaky rectifier as the host spells it: keep y where y ≥ 0, else the slope constant times y. -/
def hostLeaky (y : FVec Ideal S100000x64 .f32) : FVec Ideal S100000x64 .f32 :=
  select (cmpf .oge y (broadcastInDim S100000x64 ![] bcast_S_S100000x64 (constant S_ .f32 0x00000000#32))) y
    (mulf (broadcastInDim S100000x64 ![] bcast_S_S100000x64 (id (constant S_ .f32 0x3E4CCCCD#32))) y)

/-- The host's dense layer: the product contracting both operands' last axis, then the leaky rectifier. -/
def hostDense (s : FVec Ideal S100000x64 .f32) (w : FVec Ideal S64x64 .f32) : FVec Ideal S100000x64 .f32 :=
  hostLeaky (Host.dotGeneral dot_S100000x64_S64x64_S100000x64_1_1_0_0_n_n none s w)

/-- Users stacked on items, as the programs spell it. -/
theorem cat_eq (a b : FVec Ideal S50000x64 .f32) :
    concatenate S100000x64 0 [⟨S50000x64, a⟩, ⟨S50000x64, b⟩] concatenates_S50000x64_S50000x64_S100000x64_d0 = Cert.Spec.cat a b := rfl

macro "read_results" : tactic =>
  `(tactic| (simp (disch := decide) only [after_cons, after_nil, cat_eq,
      nullary_result', unary_result', binary_result', ternary_result', reshape_result',
      nullary_result_ne', unary_result_ne', binary_result_ne', ternary_result_ne', reshape_result_ne']))

/-- A typed reference's two transports, composed, are the identity. -/
theorem ofBuf_toBuf {T : BufTy} (x : TRef sig T) (v : T.Contents (Elt Ideal)) : x.ofBuf (x.toBuf v) = v := by
  obtain ⟨r, h, h2, h3⟩ := x
  subst h
  rfl

/-! At a literal reference the transport is the identity. -/
theorem ofBuf_main_v19 (v : (main_v19 : Ref sig .tc).ty.Contents (Elt Ideal)) :
    TRef.ofBuf (Val := Elt Ideal) (TRef.of main_v19 : TRef sig ⟨S100000x64, .f32⟩) v = v := rfl
theorem ofBuf_main_v36 (v : (main_v36 : Ref sig .tc).ty.Contents (Elt Ideal)) :
    TRef.ofBuf (Val := Elt Ideal) (TRef.of main_v36 : TRef sig ⟨S100000x64, .f32⟩) v = v := rfl
theorem ofBuf_main_v53 (v : (main_v53 : Ref sig .tc).ty.Contents (Elt Ideal)) :
    TRef.ofBuf (Val := Elt Ideal) (TRef.of main_v53 : TRef sig ⟨S100000x64, .f32⟩) v = v := rfl
theorem ofBuf_main_v70 (v : (main_v70 : Ref sig .tc).ty.Contents (Elt Ideal)) :
    TRef.ofBuf (Val := Elt Ideal) (TRef.of main_v70 : TRef sig ⟨S100000x64, .f32⟩) v = v := rfl
theorem ofBuf_main_v87 (v : (main_v87 : Ref sig .tc).ty.Contents (Elt Ideal)) :
    TRef.ofBuf (Val := Elt Ideal) (TRef.of main_v87 : TRef sig ⟨S100000x64, .f32⟩) v = v := rfl
theorem ofBuf_main_v104 (v : (main_v104 : Ref sig .tc).ty.Contents (Elt Ideal)) :
    TRef.ofBuf (Val := Elt Ideal) (TRef.of main_v104 : TRef sig ⟨S100000x64, .f32⟩) v = v := rfl
theorem ofBuf_main_cst_1 (v : (main_cst_1 : Ref sig .tc).ty.Contents (Elt Ideal)) :
    TRef.ofBuf (Val := Elt Ideal) (TRef.of main_cst_1 : TRef sig ⟨S_, .f32⟩) v = v := rfl
theorem ofBuf_main_cst_5 (v : (main_cst_5 : Ref sig .tc).ty.Contents (Elt Ideal)) :
    TRef.ofBuf (Val := Elt Ideal) (TRef.of main_cst_5 : TRef sig ⟨S_, .f32⟩) v = v := rfl
theorem ofBuf_main_cst_9 (v : (main_cst_9 : Ref sig .tc).ty.Contents (Elt Ideal)) :
    TRef.ofBuf (Val := Elt Ideal) (TRef.of main_cst_9 : TRef sig ⟨S_, .f32⟩) v = v := rfl
theorem ofBuf_main_cst_13 (v : (main_cst_13 : Ref sig .tc).ty.Contents (Elt Ideal)) :
    TRef.ofBuf (Val := Elt Ideal) (TRef.of main_cst_13 : TRef sig ⟨S_, .f32⟩) v = v := rfl
theorem ofBuf_main_cst_17 (v : (main_cst_17 : Ref sig .tc).ty.Contents (Elt Ideal)) :
    TRef.ofBuf (Val := Elt Ideal) (TRef.of main_cst_17 : TRef sig ⟨S_, .f32⟩) v = v := rfl
theorem ofBuf_main_cst_21 (v : (main_cst_21 : Ref sig .tc).ty.Contents (Elt Ideal)) :
    TRef.ofBuf (Val := Elt Ideal) (TRef.of main_cst_21 : TRef sig ⟨S_, .f32⟩) v = v := rfl
theorem toBuf_main_v20 (v : FVec Ideal S100000x64 .f32) :
    TRef.toBuf (Val := Elt Ideal) (TRef.of main_v20 : TRef sig ⟨S100000x64, .f32⟩) v = v := rfl
theorem toBuf_main_v37 (v : FVec Ideal S100000x64 .f32) :
    TRef.toBuf (Val := Elt Ideal) (TRef.of main_v37 : TRef sig ⟨S100000x64, .f32⟩) v = v := rfl
theorem toBuf_main_v54 (v : FVec Ideal S100000x64 .f32) :
    TRef.toBuf (Val := Elt Ideal) (TRef.of main_v54 : TRef sig ⟨S100000x64, .f32⟩) v = v := rfl
theorem toBuf_main_v71 (v : FVec Ideal S100000x64 .f32) :
    TRef.toBuf (Val := Elt Ideal) (TRef.of main_v71 : TRef sig ⟨S100000x64, .f32⟩) v = v := rfl
theorem toBuf_main_v88 (v : FVec Ideal S100000x64 .f32) :
    TRef.toBuf (Val := Elt Ideal) (TRef.of main_v88 : TRef sig ⟨S100000x64, .f32⟩) v = v := rfl
theorem toBuf_main_v105 (v : FVec Ideal S100000x64 .f32) :
    TRef.toBuf (Val := Elt Ideal) (TRef.of main_v105 : TRef sig ⟨S100000x64, .f32⟩) v = v := rfl

/-! The host's spelling of each piece of the specification. -/
theorem srcCol_eq (cols : IVec S1600000 32) :
    broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols)
      = Cert.Spec.srcCol cols := rfl

attribute [local irreducible] Host.gather Host.scatterAdd in
theorem spmm_eq (rows cols : IVec S1600000 32) (vals : FVec Ideal S1600000 .f32) (x : FVec Ideal S100000x64 .f32) :
    Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 rows)
      (mulf (broadcastInDim S1600000x64 ![0, 1] bcast_S1600000x1_S1600000x64_0_1 (broadcastInDim S1600000x1 ![0] bcast_S1600000_S1600000x1_0 vals))
        (Host.gather gather_S100000x64_S1600000x1_S1600000x64_1_0_n_n_0_1_164 x (Cert.Spec.srcCol cols)))
      = Cert.Spec.spmm rows cols vals x := rfl

theorem wl_main_v18 (W : FVec Ideal S2x64x64 .f32) :
    shapeCast (main_v18 : Ref sig .tc).ty.shape (extractStridedSlice S1x64x64 ![0, 0, 0] W slices_S2x64x64_S1x64x64_0_0_0) shapeCasts_S1x64x64_S64x64
      = Cert.Spec.wl 0 (by decide) W := rfl
theorem wl_main_v35 (W : FVec Ideal S2x64x64 .f32) :
    shapeCast (main_v35 : Ref sig .tc).ty.shape (extractStridedSlice S1x64x64 ![0, 0, 0] W slices_S2x64x64_S1x64x64_0_0_0) shapeCasts_S1x64x64_S64x64
      = Cert.Spec.wl 0 (by decide) W := rfl
theorem wl_main_v52 (W : FVec Ideal S2x64x64 .f32) :
    shapeCast (main_v52 : Ref sig .tc).ty.shape (extractStridedSlice S1x64x64 ![0, 0, 0] W slices_S2x64x64_S1x64x64_0_0_0) shapeCasts_S1x64x64_S64x64
      = Cert.Spec.wl 0 (by decide) W := rfl
theorem wl_main_v69 (W : FVec Ideal S2x64x64 .f32) :
    shapeCast (main_v69 : Ref sig .tc).ty.shape (extractStridedSlice S1x64x64 ![1, 0, 0] W slices_S2x64x64_S1x64x64_1_0_0) shapeCasts_S1x64x64_S64x64
      = Cert.Spec.wl 1 (by decide) W := rfl
theorem wl_main_v86 (W : FVec Ideal S2x64x64 .f32) :
    shapeCast (main_v86 : Ref sig .tc).ty.shape (extractStridedSlice S1x64x64 ![1, 0, 0] W slices_S2x64x64_S1x64x64_1_0_0) shapeCasts_S1x64x64_S64x64
      = Cert.Spec.wl 1 (by decide) W := rfl
theorem wl_main_v103 (W : FVec Ideal S2x64x64 .f32) :
    shapeCast (main_v103 : Ref sig .tc).ty.shape (extractStridedSlice S1x64x64 ![1, 0, 0] W slices_S2x64x64_S1x64x64_1_0_0) shapeCasts_S1x64x64_S64x64
      = Cert.Spec.wl 1 (by decide) W := rfl

theorem hostDense_fold (s : FVec Ideal S100000x64 .f32) (w : FVec Ideal S64x64 .f32) :
    select (cmpf .oge (Host.dotGeneral dot_S100000x64_S64x64_S100000x64_1_1_0_0_n_n none s w) (broadcastInDim S100000x64 ![] bcast_S_S100000x64 (constant S_ .f32 0x00000000#32)))
      (Host.dotGeneral dot_S100000x64_S64x64_S100000x64_1_1_0_0_n_n none s w)
      (mulf (broadcastInDim S100000x64 ![] bcast_S_S100000x64 (id (constant S_ .f32 0x3E4CCCCD#32))) (Host.dotGeneral dot_S100000x64_S64x64_S100000x64_1_1_0_0_n_n none s w))
      = hostDense s w := rfl

theorem users_eq (y : FVec Ideal S100000x64 .f32) : extractStridedSlice S50000x64 ![0, 0] y slices_S100000x64_S50000x64_0_0 = Cert.Spec.users y := rfl
theorem items_eq (y : FVec Ideal S100000x64 .f32) : extractStridedSlice S50000x64 ![50000, 0] y slices_S100000x64_S50000x64_50000_0 = Cert.Spec.items y := rfl

macro "drop_casts" : tactic =>
  `(tactic| (simp only [ofBuf_toBuf, ofBuf_main_v19, ofBuf_main_v36, ofBuf_main_v53, ofBuf_main_v70, ofBuf_main_v87, ofBuf_main_v104, ofBuf_main_cst_1, ofBuf_main_cst_5, ofBuf_main_cst_9, ofBuf_main_cst_13, ofBuf_main_cst_17, ofBuf_main_cst_21, toBuf_main_v20, toBuf_main_v37, toBuf_main_v54, toBuf_main_v71, toBuf_main_v88, toBuf_main_v105]))

/-! ## The first window, from any contents -/

set_option maxRecDepth 8192 in
set_option maxHeartbeats 2000000 in
theorem w0_v0 (V : Valuation τ sig (Elt Ideal)) :
    after (ops0 (F := Ideal)) V (Proc.devRef .tc main_v0) = Cert.Spec.cat (V (Proc.devRef .tc main_arg3)) (V (Proc.devRef .tc main_arg4)) := by
  read_results

set_option maxRecDepth 8192 in
set_option maxHeartbeats 2000000 in
theorem w0_v20 (V : Valuation τ sig (Elt Ideal)) :
    after (ops0 (F := Ideal)) V (Proc.devRef .tc main_v20)
      = hostDense (Cert.Spec.spmm (V (Proc.devRef .tc main_arg0)) (V (Proc.devRef .tc main_arg1)) (V (Proc.devRef .tc main_arg2)) (Cert.Spec.cat (V (Proc.devRef .tc main_arg5)) (V (Proc.devRef .tc main_arg8))))
          (Cert.Spec.wl 0 (by decide) (V (Proc.devRef .tc main_arg11))) := by
  read_results
  drop_casts
  rw [srcCol_eq, spmm_eq, wl_main_v18, hostDense_fold]

set_option maxRecDepth 8192 in
set_option maxHeartbeats 2000000 in
theorem w0_v37 (V : Valuation τ sig (Elt Ideal)) :
    after (ops0 (F := Ideal)) V (Proc.devRef .tc main_v37)
      = hostDense (Cert.Spec.spmm (V (Proc.devRef .tc main_arg0)) (V (Proc.devRef .tc main_arg1)) (V (Proc.devRef .tc main_arg2)) (Cert.Spec.cat (V (Proc.devRef .tc main_arg6)) (V (Proc.devRef .tc main_arg9))))
          (Cert.Spec.wl 0 (by decide) (V (Proc.devRef .tc main_arg12))) := by
  read_results
  drop_casts
  rw [srcCol_eq, spmm_eq, wl_main_v35, hostDense_fold]

set_option maxRecDepth 8192 in
set_option maxHeartbeats 2000000 in
theorem w0_v47 (V : Valuation τ sig (Elt Ideal)) :
    after (ops0 (F := Ideal)) V (Proc.devRef .tc main_v47)
      = mulf (broadcastInDim S1600000x64 ![0, 1] bcast_S1600000x1_S1600000x64_0_1 (broadcastInDim S1600000x1 ![0] bcast_S1600000_S1600000x1_0 (V (Proc.devRef .tc main_arg2)))) (Host.gather gather_S100000x64_S1600000x1_S1600000x64_1_0_n_n_0_1_164 (Cert.Spec.cat (V (Proc.devRef .tc main_arg7)) (V (Proc.devRef .tc main_arg10))) (Cert.Spec.srcCol (V (Proc.devRef .tc main_arg1)))) := by
  read_results
  rw [srcCol_eq]

set_option maxRecDepth 8192 in
set_option maxHeartbeats 2000000 in
theorem w0_v48 (V : Valuation τ sig (Elt Ideal)) :
    after (ops0 (F := Ideal)) V (Proc.devRef .tc main_v48) = (broadcastInDim S100000x64 ![] bcast_S_S100000x64 (constant (F := Ideal) S_ .f32 0x00000000#32)) := by
  read_results

theorem keep0 (V : Valuation τ sig (Elt Ideal)) (r : Ref sig .tc) (h : r ∉ written0) :
    after (ops0 (F := Ideal)) V (Proc.devRef .tc r) = V (Proc.devRef .tc r) :=
  after_of_writes_sub ops0 _ ops0_writes h

/-! ## The second window, from any contents -/

set_option maxRecDepth 8192 in
set_option maxHeartbeats 2000000 in
theorem w1_v54 (V : Valuation τ sig (Elt Ideal)) :
    after (ops1 (F := Ideal)) V (Proc.devRef .tc main_v54) = (hostDense (Host.scatterAdd scatter_S100000x64_S1600000x1_S1600000x64_1_0_0_1 (V (Proc.devRef .tc main_v48)) (broadcastInDim S1600000x1 ![0] bcast_S1600000_S1600000x1_0 (V (Proc.devRef .tc main_arg0))) (V (Proc.devRef .tc main_v47))) (Cert.Spec.wl 0 (by decide) (V (Proc.devRef .tc main_arg13)))) := by
  read_results
  drop_casts
  rw [wl_main_v52, hostDense_fold]

set_option maxRecDepth 8192 in
set_option maxHeartbeats 2000000 in
theorem w1_v71 (V : Valuation τ sig (Elt Ideal)) :
    after (ops1 (F := Ideal)) V (Proc.devRef .tc main_v71)
      = hostDense (Cert.Spec.spmm (V (Proc.devRef .tc main_arg0)) (V (Proc.devRef .tc main_arg1)) (V (Proc.devRef .tc main_arg2)) (V (Proc.devRef .tc main_v20)))
          (Cert.Spec.wl 1 (by decide) (V (Proc.devRef .tc main_arg11))) := by
  read_results
  drop_casts
  rw [srcCol_eq, spmm_eq, wl_main_v69, hostDense_fold]

set_option maxRecDepth 8192 in
set_option maxHeartbeats 2000000 in
theorem w1_v88 (V : Valuation τ sig (Elt Ideal)) :
    after (ops1 (F := Ideal)) V (Proc.devRef .tc main_v88)
      = hostDense (Cert.Spec.spmm (V (Proc.devRef .tc main_arg0)) (V (Proc.devRef .tc main_arg1)) (V (Proc.devRef .tc main_arg2)) (V (Proc.devRef .tc main_v37)))
          (Cert.Spec.wl 1 (by decide) (V (Proc.devRef .tc main_arg12))) := by
  read_results
  drop_casts
  rw [srcCol_eq, spmm_eq, wl_main_v86, hostDense_fold]

set_option maxRecDepth 8192 in
set_option maxHeartbeats 2000000 in
theorem w1_v96 (V : Valuation τ sig (Elt Ideal)) :
    after (ops1 (F := Ideal)) V (Proc.devRef .tc main_v96)
      = Host.gather gather_S100000x64_S1600000x1_S1600000x64_1_0_n_n_0_1_164 (hostDense (Host.scatterAdd scatter_S100000x64_S1600000x1_S1600000x64_1_0_0_1 (V (Proc.devRef .tc main_v48)) (broadcastInDim S1600000x1 ![0] bcast_S1600000_S1600000x1_0 (V (Proc.devRef .tc main_arg0))) (V (Proc.devRef .tc main_v47))) (Cert.Spec.wl 0 (by decide) (V (Proc.devRef .tc main_arg13)))) (Cert.Spec.srcCol (V (Proc.devRef .tc main_arg1))) := by
  read_results
  drop_casts
  rw [srcCol_eq, wl_main_v52, hostDense_fold]

set_option maxRecDepth 8192 in
set_option maxHeartbeats 2000000 in
theorem w1_v97 (V : Valuation τ sig (Elt Ideal)) :
    after (ops1 (F := Ideal)) V (Proc.devRef .tc main_v97) = (broadcastInDim S1600000x64 ![0, 1] bcast_S1600000x1_S1600000x64_0_1 (broadcastInDim S1600000x1 ![0] bcast_S1600000_S1600000x1_0 (V (Proc.devRef .tc main_arg2)))) := by
  read_results

theorem keep1 (V : Valuation τ sig (Elt Ideal)) (r : Ref sig .tc) (h : r ∉ written1) :
    after (ops1 (F := Ideal)) V (Proc.devRef .tc r) = V (Proc.devRef .tc r) :=
  after_of_writes_sub ops1 _ ops1_writes h

/-! ## The third window, from any contents -/

set_option maxRecDepth 8192 in
set_option maxHeartbeats 2000000 in
theorem w2_v109 (V : Valuation τ sig (Elt Ideal)) :
    after (ops2 (F := Ideal)) V (Proc.devRef .tc main_v109) = Cert.Spec.users (addf (addf (addf ((V (Proc.devRef .tc main_v71)) : FVec Ideal S100000x64 .f32) (V (Proc.devRef .tc main_v88))) (hostDense (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (V (Proc.devRef .tc main_arg0))) (mulf ((V (Proc.devRef .tc main_v97)) : FVec Ideal S1600000x64 .f32) (V (Proc.devRef .tc main_v96)))) (Cert.Spec.wl 1 (by decide) (V (Proc.devRef .tc main_arg13))))) (V (Proc.devRef .tc main_v0))) := by
  read_results
  drop_casts
  rw [wl_main_v103, hostDense_fold, users_eq]

set_option maxRecDepth 8192 in
set_option maxHeartbeats 2000000 in
theorem w2_v110 (V : Valuation τ sig (Elt Ideal)) :
    after (ops2 (F := Ideal)) V (Proc.devRef .tc main_v110) = Cert.Spec.items (addf (addf (addf ((V (Proc.devRef .tc main_v71)) : FVec Ideal S100000x64 .f32) (V (Proc.devRef .tc main_v88))) (hostDense (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (V (Proc.devRef .tc main_arg0))) (mulf ((V (Proc.devRef .tc main_v97)) : FVec Ideal S1600000x64 .f32) (V (Proc.devRef .tc main_v96)))) (Cert.Spec.wl 1 (by decide) (V (Proc.devRef .tc main_arg13))))) (V (Proc.devRef .tc main_v0))) := by
  read_results
  drop_casts
  rw [wl_main_v103, hostDense_fold, items_eq]

/-! ## The whole program -/

/-- The fold over the whole program is the three windows' folds in turn. -/
theorem after_ops (V : Valuation τ sig (Elt Ideal)) : after (ops (F := Ideal)) V = after ops2 (after ops1 (after ops0 V)) := by
  simp only [ops, StableHlo.after_append]

/-- The host's dense layer is the specification's: y = s · wᵀ read index by index, and the leaky rectifier with the
    comparison read weakly. -/
theorem hostDense_eq (s : FVec Ideal S100000x64 .f32) (w : FVec Ideal S64x64 .f32) :
    hostDense s w = Cert.DenseSpec.dense s w :=
  Cert.LibDenseStack.hostDense_eq_dense _ rfl rfl rfl rfl rfl rfl none .single _ s w

attribute [local irreducible] Cert.DenseSpec.dense Cert.Spec.spmm Cert.Spec.cat Cert.Spec.wl in
set_option maxRecDepth 8192 in
set_option maxHeartbeats 2000000 in
/-- The fused node table the third window adds up, read back through the first two windows, is the specification's
    result: each modality's second layer reads the first layer's result, the third modality's first layer finishes in
    the second window and its second layer in the third. -/
theorem fused_eq (V : Valuation τ sig (Elt Ideal)) :
    (addf (addf (addf (((after (ops1 (F := Ideal)) (after (ops0 (F := Ideal)) V)) (Proc.devRef .tc main_v71)) : FVec Ideal S100000x64 .f32) ((after (ops1 (F := Ideal)) (after (ops0 (F := Ideal)) V)) (Proc.devRef .tc main_v88))) (hostDense (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 ((after (ops1 (F := Ideal)) (after (ops0 (F := Ideal)) V)) (Proc.devRef .tc main_arg0))) (mulf (((after (ops1 (F := Ideal)) (after (ops0 (F := Ideal)) V)) (Proc.devRef .tc main_v97)) : FVec Ideal S1600000x64 .f32) ((after (ops1 (F := Ideal)) (after (ops0 (F := Ideal)) V)) (Proc.devRef .tc main_v96)))) (Cert.Spec.wl 1 (by decide) ((after (ops1 (F := Ideal)) (after (ops0 (F := Ideal)) V)) (Proc.devRef .tc main_arg13))))) ((after (ops1 (F := Ideal)) (after (ops0 (F := Ideal)) V)) (Proc.devRef .tc main_v0)))
      = Cert.Spec.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [w1_v71, w1_v88, w1_v96, w1_v97, keep1 _ main_v0 (by decide), keep1 _ main_arg0 (by decide), keep1 _ main_arg13 (by decide)]
  rw [w0_v20, w0_v37, w0_v47, w0_v48, w0_v0, keep0 _ main_arg0 (by decide), keep0 _ main_arg1 (by decide), keep0 _ main_arg2 (by decide), keep0 _ main_arg11 (by decide), keep0 _ main_arg12 (by decide), keep0 _ main_arg13 (by decide)]
  rw [spmm_eq, spmm_eq]
  simp only [hostDense_eq]
  rfl

/-- The program's first result is the user half of the specification's result. -/
theorem out0_eq (V : Valuation τ sig (Elt Ideal)) :
    after (ops (F := Ideal)) V (Proc.devRef .tc main_v109) = Cert.Spec.users (Cert.Spec.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))) := by
  rw [after_ops, w2_v109, fused_eq]

/-- The program's second result is the item half of the specification's result. -/
theorem out1_eq (V : Valuation τ sig (Elt Ideal)) :
    after (ops (F := Ideal)) V (Proc.devRef .tc main_v110) = Cert.Spec.items (Cert.Spec.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))) := by
  rw [after_ops, w2_v110, fused_eq]

end Cert.ReferenceIdeal.HandValue

end
-- ==== Proof.lean ====
/-
  The certificate of the multimodal graph-convolution kernel against its plain reference.

  Both programs take the edge list (rows, cols, vals), the id and modality embeddings of 50000 users and 50000 items
  and three [2, 64, 64] weight arrays, and return the two halves of
      fused = tower v Wv + tower a Wa + tower t Wt + uid,
  where a tower is two layers x ↦ leaky ((spmm x) · Wᵀ) (Proof/Spec.lean, Proof/DenseSpec.lean). The reference applies
  the dense layer per modality on the host; the kernel stacks the three sparse products and runs one tiled dense layer
  over the stack (30 blocks of 10000 rows), then unstacks. On the extended reals the bf16 roundings on the way into the
  matrix unit are the identity, a row of x against a row of W is the same finite sum on both sides, and the leaky
  rectifier's two spellings (0 < y, 0 ≤ y) agree because both branches are 0 at 0; so the two programs compute one
  function of the arguments and no finiteness of the inputs is used.

  Frames: the kernel programs' (Proof/KFrame.lean, Proof/KIFrame.lean) run @main as five segments — host operations,
  dense layer, host operations, dense layer, host operations — and read every unscoped buffer at the end of the fold;
  no segment writes an argument. The reference's (Proof/RefRun.lean) is its list of host operations run in order.
  The idealization rewrote nothing, so the preservation claim is trivial.
-/
import proofs.«134491_j13245679141186_1_alg».proof.Defs
import proofs.«134491_j13245679141186_1_alg».proof.Proof.Gen.Kernel
import proofs.«134491_j13245679141186_1_alg».proof.Proof.Gen.KernelIdeal
import proofs.«134491_j13245679141186_1_alg».proof.Proof.Gen.ReferenceIdeal
import proofs.«134491_j13245679141186_1_alg».proof.Proof.Gen.Pre_finite_inputs
import proofs.«134491_j13245679141186_1_alg».proof.Proof.KFrame
import proofs.«134491_j13245679141186_1_alg».proof.Proof.KIFrame
import proofs.«134491_j13245679141186_1_alg».proof.Proof.KIValue
import proofs.«134491_j13245679141186_1_alg».proof.Proof.RefRun
import proofs.«134491_j13245679141186_1_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_K : Cert.frame_Kernel := fun m ρ _ => Cert.Kernel.Run.frame m ρ
/-- So does the idealized kernel. -/
theorem frame_KI : Cert.frame_KernelIdeal := fun m ρ _ => Cert.KernelIdeal.Run.frame m ρ
/-- So does the idealized reference: its run with the results dropped. -/
theorem frame_R : Cert.frame_ReferenceIdeal := fun m ρ _ =>
  (θ_run Cert.ReferenceIdeal.defs _ _).mono (fun _ h c => (h c).2.2) (Cert.ReferenceIdeal.Hand.run (F := Ideal) m ρ)

/-- The idealization rewrote no operation. -/
theorem preserves : Cert.preserves_Kernel_KernelIdeal := trivial

/-- On the extended reals both programs end with the user half and the item half of the specification's fused table
    of the (agreeing) arguments. -/
theorem algebraic : Cert.algebraic_KernelIdeal_ReferenceIdeal := by
  intro m ρ m' ρ' _ hagree
  refine ⟨fun c => Cert.Spec.users (Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))),
    fun c => Cert.Spec.items (Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))), ?_, ?_⟩
  · refine (θ_run Cert.KernelIdeal.defs _ _).mono (fun r h c => ?_) (Cert.KernelIdeal.Run.run_all (F := Ideal) m ρ)
    exact ⟨(h c _ (Cert.KernelIdeal.Run.mem_uc Cert.KernelIdeal.main_v127 (by decide))).trans (Cert.KernelIdeal.RunValue.out0_eq m ρ c),
      (h c _ (Cert.KernelIdeal.Run.mem_uc Cert.KernelIdeal.main_v128 (by decide))).trans (Cert.KernelIdeal.RunValue.out1_eq m ρ c),
      Cert.KernelIdeal.Run.args_kept m ρ c r.2 (h c)⟩
  · refine (θ_run Cert.ReferenceIdeal.defs _ _).mono (fun r h c => ⟨(h c).1.trans ?_, (h c).2.1.trans ?_, (h c).2.2⟩)
      (Cert.ReferenceIdeal.Hand.run (F := Ideal) m' ρ')
    · rw [Cert.ReferenceIdeal.HandValue.out0_eq]
      obtain ⟨h0, h1, h2, h3, h4, h5, h6, h7, h8, h9, h10, h11, h12, h13⟩ := hagree c
      show Cert.Spec.users (Cert.Spec.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) = _
      rw [h0, h1, h2, h3, h4, h5, h6, h7, h8, h9, h10, h11, h12, h13]
    · rw [Cert.ReferenceIdeal.HandValue.out1_eq]
      obtain ⟨h0, h1, h2, h3, h4, h5, h6, h7, h8, h9, h10, h11, h12, h13⟩ := hagree c
      show Cert.Spec.items (Cert.Spec.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) = _
      rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_K, frame_KI, frame_R, preserves, algebraic⟩

end Cert.Proof

end
